-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256 .f32) (main_arg6 : FVec F S256x256 .f32) (main_arg7 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S8192x256 .f32) (main_arg1 : IVec S8192x8192 32) (main_arg2 : FVec F S256x256 .f32) (main_arg3 : FVec F S256 .f32) (main_arg4 : FVec F S256x256 .f32) (main_arg5 : FVec F S256 .f32) (main_arg6 : FVec F S256x256 .f32) (main_arg7 : FVec F S256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S256x4x64 : Shape := ⟨3, ![256, 4, 64]⟩
abbrev S4x256x64 : Shape := ⟨3, ![4, 256, 64]⟩
abbrev S4x1x64 : Shape := ⟨3, ![4, 1, 64]⟩
abbrev S4x8192x64 : Shape := ⟨3, ![4, 8192, 64]⟩
abbrev S1024x256 : Shape := ⟨2, ![1024, 256]⟩
abbrev S4x1024x64 : Shape := ⟨3, ![4, 1024, 64]⟩
abbrev S1x256x64 : Shape := ⟨3, ![1, 256, 64]⟩
abbrev S256x64 : Shape := ⟨2, ![256, 64]⟩
abbrev S1x1x64 : Shape := ⟨3, ![1, 1, 64]⟩
abbrev S1x64 : Shape := ⟨2, ![1, 64]⟩
abbrev S1024x64 : Shape := ⟨2, ![1024, 64]⟩
abbrev S1x1024x64 : Shape := ⟨3, ![1, 1024, 64]⟩
abbrev S512x256 : Shape := ⟨2, ![512, 256]⟩
abbrev S4x256x1 : Shape := ⟨3, ![4, 256, 1]⟩
abbrev S4x512x64 : Shape := ⟨3, ![4, 512, 64]⟩
abbrev S4x256x512 : Shape := ⟨3, ![4, 256, 512]⟩
abbrev S256x512 : Shape := ⟨2, ![256, 512]⟩
abbrev S1x256x512 : Shape := ⟨3, ![1, 256, 512]⟩
abbrev S4x256 : Shape := ⟨2, ![4, 256]⟩
abbrev S8192x4x64 : Shape := ⟨3, ![8192, 4, 64]⟩

abbrev nBuf : Space → Nat
  | .hbm => 23
  | .vmem => 25
  | .smem => 0
  | _ => 0

abbrev bufTy : (tb : Table) → Fin (tcTables nBuf tb) → BufTy
  | .hbm, ⟨0, _⟩ => ⟨S8192x256, .f32⟩
  | .hbm, ⟨1, _⟩ => ⟨S8192x8192, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x4x64, .f32⟩
  | .hbm, ⟨9, _⟩ => ⟨S4x256x64, .f32⟩
  | .hbm, ⟨10, _⟩ => ⟨S256x4x64, .f32⟩
  | .hbm, ⟨11, _⟩ => ⟨S4x256x64, .f32⟩
  | .hbm, ⟨12, _⟩ => ⟨S256x4x64, .f32⟩
  | .hbm, ⟨13, _⟩ => ⟨S4x256x64, .f32⟩
  | .hbm, ⟨14, _⟩ => ⟨S4x1x64, .f32⟩
  | .hbm, ⟨15, _⟩ => ⟨S4x1x64, .f32⟩
  | .hbm, ⟨16, _⟩ => ⟨S4x1x64, .f32⟩
  | .hbm, ⟨17, _⟩ => ⟨S4x8192x64, .bf16⟩
  | .hbm, ⟨18, _⟩ => ⟨S4x8192x64, .bf16⟩
  | .hbm, ⟨19, _⟩ => ⟨S4x8192x64, .bf16⟩
  | .hbm, ⟨20, _⟩ => ⟨S4x8192x64, .f32⟩
  | .hbm, ⟨21, _⟩ => ⟨S8192x4x64, .f32⟩
  | .hbm, ⟨22, _⟩ => ⟨S8192x256, .f32⟩
  | .local _ .vmem, ⟨0, _⟩ => ⟨S1024x256, .f32⟩
  | .local _ .vmem, ⟨1, _⟩ => ⟨S1024x256, .f32⟩
  | .local _ .vmem, ⟨2, _⟩ => ⟨S4x256x64, .f32⟩
  | .local _ .vmem, ⟨3, _⟩ => ⟨S4x1x64, .f32⟩
  | .local _ .vmem, ⟨4, _⟩ => ⟨S4x256x64, .f32⟩
  | .local _ .vmem, ⟨5, _⟩ => ⟨S4x1x64, .f32⟩
  | .local _ .vmem, ⟨6, _⟩ => ⟨S4x256x64, .f32⟩
  | .local _ .vmem, ⟨7, _⟩ => ⟨S4x1x64, .f32⟩
  | .local _ .vmem, ⟨8, _⟩ => ⟨S4x1024x64, .bf16⟩
  | .local _ .vmem, ⟨9, _⟩ => ⟨S4x1024x64, .bf16⟩
  | .local _ .vmem, ⟨10, _⟩ => ⟨S4x1024x64, .bf16⟩
  | .local _ .vmem, ⟨11, _⟩ => ⟨S4x1024x64, .bf16⟩
  | .local _ .vmem, ⟨12, _⟩ => ⟨S4x1024x64, .bf16⟩
  | .local _ .vmem, ⟨13, _⟩ => ⟨S4x1024x64, .bf16⟩
  | .local _ .vmem, ⟨14, _⟩ => ⟨S4x256x64, .bf16⟩
  | .local _ .vmem, ⟨15, _⟩ => ⟨S4x256x64, .bf16⟩
  | .local _ .vmem, ⟨16, _⟩ => ⟨S4x8192x64, .bf16⟩
  | .local _ .vmem, ⟨17, _⟩ => ⟨S4x8192x64, .bf16⟩
  | .local _ .vmem, ⟨18, _⟩ => ⟨S512x256, .i32⟩
  | .local _ .vmem, ⟨19, _⟩ => ⟨S512x256, .i32⟩
  | .local _ .vmem, ⟨20, _⟩ => ⟨S4x256x64, .f32⟩
  | .local _ .vmem, ⟨21, _⟩ => ⟨S4x256x64, .f32⟩
  | .local _ .vmem, ⟨22, _⟩ => ⟨S4x256x1, .f32⟩
  | .local _ .vmem, ⟨23, _⟩ => ⟨S4x256x1, .f32⟩
  | .local _ .vmem, ⟨24, _⟩ => ⟨S4x256x64, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem3_1 : DmaSem sig := 19
abbrev cc1_sem4_0 : DmaSem sig := 20
abbrev cc1_sem4_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4x1024x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x1024x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x1024x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![32, 16], ![false, false]⟩

def k1_mult1 (i : grid1.Coords) : BitVec 32 :=
  let arg1 : BitVec 32 := BitVec.ofNat 32 (i 1).val
  let c512_i32 : BitVec 32 := 512#32
  let v5 : BitVec 32 := Scalar.muli arg1 c512_i32
  v5
def k1_off1 (i : grid1.Coords) : Fin 3 → Nat :=
  let c0_3 : Index := 0#32
  let arg1 : BitVec 32 := BitVec.ofNat 32 (i 1).val
  let c512_i32 : BitVec 32 := 512#32
  let v5 : BitVec 32 := Scalar.muli arg1 c512_i32
  let v6 : BitVec 32 := v5
  let v7 : Index := Scalar.indexCast v6
  let c0_4 : Index := 0#32
  ![0, v7.toNat, 0]
def k1_cond2 (i : grid1.Coords) : BitVec 1 :=
  let arg1 : BitVec 32 := BitVec.ofNat 32 (i 1).val
  let c15_i32 : BitVec 32 := 15#32
  let v56 : BitVec 1 := Scalar.cmpi .eq arg1 c15_i32
  let v57 : BitVec 32 := Scalar.extui v56
  let c0_i32_36 : BitVec 32 := 0#32
  let v58 : BitVec 1 := Scalar.cmpi .ne v57 c0_i32_36
  v58

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S4x256x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S4x8192x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S4x8192x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S512x256 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S4x256x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S256x256_S256x4x64 : S256x256.ShapeCasts S256x4x64
  transposes_S256x4x64_S4x256x64_1_0_2 : S256x4x64.Transposes [1, 0, 2] S4x256x64
  shapeCasts_S256_S4x1x64 : S256.ShapeCasts S4x1x64
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S4x256x64_S1x256x64_0_0_0 : ∀ a, (![0, 0, 0] : Fin 3 → Nat) a + S1x256x64.size a ≤ S4x256x64.size a
  h_S1x256x64 : 0 < S1x256x64.numel
  shapeCasts_S1x256x64_S256x64 : S1x256x64.ShapeCasts S256x64
  inb_S4x1x64_S1x1x64_0_0_0 : ∀ a, (![0, 0, 0] : Fin 3 → Nat) a + S1x1x64.size a ≤ S4x1x64.size a
  h_S1x1x64 : 0 < S1x1x64.numel
  shapeCasts_S1x1x64_S1x64 : S1x1x64.ShapeCasts S1x64
  broadcasts_S1x64_S1024x64 : S1x64.Broadcasts S1024x64
  inb_S4x1024x64_S1x1024x64_0_0_0 : ∀ a, (![0, 0, 0] : Fin 3 → Nat) a + S1x1024x64.size a ≤ S4x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  packedbf16_S4x1024x64_S1x1024x64_0_0_0 : (Rect.unit (s := S4x1024x64) ![0, 0, 0] S1x1024x64.size inb_S4x1024x64_S1x1024x64_0_0_0).PackedRows (EltTy.packing .bf16)
  inb_S4x256x64_S1x256x64_1_0_0 : ∀ a, (![1, 0, 0] : Fin 3 → Nat) a + S1x256x64.size a ≤ S4x256x64.size a
  inb_S4x1x64_S1x1x64_1_0_0 : ∀ a, (![1, 0, 0] : Fin 3 → Nat) a + S1x1x64.size a ≤ S4x1x64.size a
  inb_S4x1024x64_S1x1024x64_1_0_0 : ∀ a, (![1, 0, 0] : Fin 3 → Nat) a + S1x1024x64.size a ≤ S4x1024x64.size a
  packedbf16_S4x1024x64_S1x1024x64_1_0_0 : (Rect.unit (s := S4x1024x64) ![1, 0, 0] S1x1024x64.size inb_S4x1024x64_S1x1024x64_1_0_0).PackedRows (EltTy.packing .bf16)
  inb_S4x256x64_S1x256x64_2_0_0 : ∀ a, (![2, 0, 0] : Fin 3 → Nat) a + S1x256x64.size a ≤ S4x256x64.size a
  inb_S4x1x64_S1x1x64_2_0_0 : ∀ a, (![2, 0, 0] : Fin 3 → Nat) a + S1x1x64.size a ≤ S4x1x64.size a
  inb_S4x1024x64_S1x1024x64_2_0_0 : ∀ a, (![2, 0, 0] : Fin 3 → Nat) a + S1x1024x64.size a ≤ S4x1024x64.size a
  packedbf16_S4x1024x64_S1x1024x64_2_0_0 : (Rect.unit (s := S4x1024x64) ![2, 0, 0] S1x1024x64.size inb_S4x1024x64_S1x1024x64_2_0_0).PackedRows (EltTy.packing .bf16)
  inb_S4x256x64_S1x256x64_3_0_0 : ∀ a, (![3, 0, 0] : Fin 3 → Nat) a + S1x256x64.size a ≤ S4x256x64.size a
  inb_S4x1x64_S1x1x64_3_0_0 : ∀ a, (![3, 0, 0] : Fin 3 → Nat) a + S1x1x64.size a ≤ S4x1x64.size a
  inb_S4x1024x64_S1x1024x64_3_0_0 : ∀ a, (![3, 0, 0] : Fin 3 → Nat) a + S1x1024x64.size a ≤ S4x1024x64.size a
  packedbf16_S4x1024x64_S1x1024x64_3_0_0 : (Rect.unit (s := S4x1024x64) ![3, 0, 0] S1x1024x64.size inb_S4x1024x64_S1x1024x64_3_0_0).PackedRows (EltTy.packing .bf16)
  inb_S4x256x1_S4x256x1_0_0_0 : ∀ a, (![0, 0, 0] : Fin 3 → Nat) a + S4x256x1.size a ≤ S4x256x1.size a
  h_S4x256x1 : 0 < S4x256x1.numel
  shapeCasts_S4x256x1_S4x256x1 : S4x256x1.ShapeCasts S4x256x1
  inb_S4x256x64_S4x256x64_0_0_0 : ∀ a, (![0, 0, 0] : Fin 3 → Nat) a + S4x256x64.size a ≤ S4x256x64.size a
  h_S4x256x64 : 0 < S4x256x64.numel
  shapeCasts_S4x256x64_S4x256x64 : S4x256x64.ShapeCasts S4x256x64
  h_S4x512x64 : 0 < S4x512x64.numel
  shapeCasts_S4x512x64_S4x512x64 : S4x512x64.ShapeCasts S4x512x64
  inb_S512x256_S512x256_0_0 : ∀ a, (![0, 0] : Fin 2 → Nat) a + S512x256.size a ≤ S512x256.size a
  h_S512x256 : 0 < S512x256.numel
  transposes_S512x256_p1_0_S256x512 : S512x256.Transposes [1, 0] S256x512
  shapeCasts_S256x512_S1x256x512 : S256x512.ShapeCasts S1x256x512
  broadcasts_S1x256x512_S4x256x512 : S1x256x512.Broadcasts S4x256x512
  reduces_S4x256x512_S4x256 : S4x256x512.Reduces [2] S4x256
  shapeCasts_S4x256_S4x256x1 : S4x256.ShapeCasts S4x256x1
  broadcasts_S4x256x1_S4x256x512 : S4x256x1.Broadcasts S4x256x512
  broadcasts_S4x256x1_S4x256x64 : S4x256x1.Broadcasts S4x256x64
  transposes_S4x8192x64_S8192x4x64_1_0_2 : S4x8192x64.Transposes [1, 0, 2] S8192x4x64
  shapeCasts_S8192x4x64_S8192x256 : S8192x4x64.ShapeCasts S8192x256
  dot_S1024x256_S256x64_S1024x64_1_0_0_1_n_n_wf : DotDims.WF S1024x256 S256x64 S1024x64 [1] [0] [0] [1] [] []
  dot_S4x256x64_S4x512x64_S4x256x512_2_2_1_1_0_0_wf : DotDims.WF S4x256x64 S4x512x64 S4x256x512 [2] [2] [1] [1] [0] [0]
  dot_S4x256x512_S4x512x64_S4x256x64_2_1_1_2_0_0_wf : DotDims.WF S4x256x512 S4x512x64 S4x256x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x256x64.size a ≤ S4x256x64.size a
  hwx0_1 : ∀ i : grid0.Coords, EltTy.bits .f32 = 32 ∨ (Rect.block (s := S4x256x64) S4x256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x1x64.size a ≤ S4x1x64.size a
  hwx0_2 : ∀ i : grid0.Coords, EltTy.bits .f32 = 32 ∨ (Rect.block (s := S4x1x64) S4x1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x256x64.size a ≤ S4x256x64.size a
  hwx0_3 : ∀ i : grid0.Coords, EltTy.bits .f32 = 32 ∨ (Rect.block (s := S4x256x64) S4x256x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x1x64.size a ≤ S4x1x64.size a
  hwx0_4 : ∀ i : grid0.Coords, EltTy.bits .f32 = 32 ∨ (Rect.block (s := S4x1x64) S4x1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x256x64.size a ≤ S4x256x64.size a
  hwx0_5 : ∀ i : grid0.Coords, EltTy.bits .f32 = 32 ∨ (Rect.block (s := S4x256x64) S4x256x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x1x64.size a ≤ S4x1x64.size a
  hwx0_6 : ∀ i : grid0.Coords, EltTy.bits .f32 = 32 ∨ (Rect.block (s := S4x1x64) S4x1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4x1024x64.size a ≤ S4x8192x64.size a
  hwx0_7 : ∀ i : grid0.Coords, EltTy.bits .bf16 = 32 ∨ (Rect.block (s := S4x8192x64) S4x1024x64.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4x1024x64.size a ≤ S4x8192x64.size a
  hwx0_8 : ∀ i : grid0.Coords, EltTy.bits .bf16 = 32 ∨ (Rect.block (s := S4x8192x64) S4x1024x64.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4x1024x64.size a ≤ S4x8192x64.size a
  hwx0_9 : ∀ i : grid0.Coords, EltTy.bits .bf16 = 32 ∨ (Rect.block (s := S4x8192x64) S4x1024x64.size (cc0_transform_9 i) (hinb0_9 i)).WholeWords (EltTy.packing .bf16)
  hrank1 : 0 < grid1.rank
  k1_mult1_dvd : ∀ i : grid1.Coords, 512 ∣ (k1_mult1 i).toNat
  k1_off1_inb : ∀ i : grid1.Coords, ∀ a, (k1_off1 i) a + S4x512x64.size a ≤ S4x8192x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x256x64.size a ≤ S4x8192x64.size a
  hwx1_0 : ∀ i : grid1.Coords, EltTy.bits .bf16 = 32 ∨ (Rect.block (s := S4x8192x64) S4x256x64.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x8192x64.size a ≤ S4x8192x64.size a
  hwx1_1 : ∀ i : grid1.Coords, EltTy.bits .bf16 = 32 ∨ (Rect.block (s := S4x8192x64) S4x8192x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4x8192x64.size a ≤ S4x8192x64.size a
  hwx1_2 : ∀ i : grid1.Coords, EltTy.bits .bf16 = 32 ∨ (Rect.block (s := S4x8192x64) S4x8192x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S8192x8192.size a
  hwx1_3 : ∀ i : grid1.Coords, EltTy.bits .i32 = 32 ∨ (Rect.block (s := S8192x8192) S512x256.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4x256x64.size a ≤ S4x8192x64.size a
  hwx1_4 : ∀ i : grid1.Coords, EltTy.bits .f32 = 32 ∨ (Rect.block (s := S4x8192x64) S4x256x64.size (cc1_transform_4 i) (hinb1_4 i)).WholeWords (EltTy.packing .f32)

variable [Facts₀]

def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf
def dot_S4x256x64_S4x512x64_S4x256x512_2_2_1_1_0_0 : DotDims S4x256x64 S4x512x64 S4x256x512 where
  lhsContracting := [2]
  rhsContracting := [2]
  lhsNonContracting := [1]
  rhsNonContracting := [1]
  lhsBatch := [0]
  rhsBatch := [0]
  wf := dot_S4x256x64_S4x512x64_S4x256x512_2_2_1_1_0_0_wf
def dot_S4x256x512_S4x512x64_S4x256x64_2_1_1_2_0_0 : DotDims S4x256x512 S4x512x64 S4x256x64 where
  lhsContracting := [2]
  rhsContracting := [1]
  lhsNonContracting := [1]
  rhsNonContracting := [2]
  lhsBatch := [0]
  rhsBatch := [0]
  wf := dot_S4x256x512_S4x512x64_S4x256x64_2_1_1_2_0_0_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S4x1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4x256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S4x1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S4x256x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S4x1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9_0) S4x1024x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v9_1) S4x1024x64.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v9_2) S4x1024x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v9_0) S4x256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9_1) S4x8192x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9_2) S4x8192x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S512x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v10) S4x256x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S1x256 : Shape := ⟨2, ![1, 256]⟩
abbrev S8192x4x64 : Shape := ⟨3, ![8192, 4, 64]⟩
abbrev S4x8192x64 : Shape := ⟨3, ![4, 8192, 64]⟩
abbrev S_ : Shape := ⟨0, ![]⟩
abbrev S4x8192x8192 : Shape := ⟨3, ![4, 8192, 8192]⟩
abbrev S1x8192x8192 : Shape := ⟨3, ![1, 8192, 8192]⟩
abbrev S4x8192 : Shape := ⟨2, ![4, 8192]⟩
abbrev S4x8192x1 : Shape := ⟨3, ![4, 8192, 1]⟩

abbrev nBuf : Space → Nat
  | .hbm => 58
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S8192x256, .f32⟩
  | .hbm, ⟨9, _⟩ => ⟨S1x256, .f32⟩
  | .hbm, ⟨10, _⟩ => ⟨S8192x256, .f32⟩
  | .hbm, ⟨11, _⟩ => ⟨S8192x256, .f32⟩
  | .hbm, ⟨12, _⟩ => ⟨S8192x4x64, .f32⟩
  | .hbm, ⟨13, _⟩ => ⟨S4x8192x64, .f32⟩
  | .hbm, ⟨14, _⟩ => ⟨S8192x256, .f32⟩
  | .hbm, ⟨15, _⟩ => ⟨S1x256, .f32⟩
  | .hbm, ⟨16, _⟩ => ⟨S8192x256, .f32⟩
  | .hbm, ⟨17, _⟩ => ⟨S8192x256, .f32⟩
  | .hbm, ⟨18, _⟩ => ⟨S8192x4x64, .f32⟩
  | .hbm, ⟨19, _⟩ => ⟨S4x8192x64, .f32⟩
  | .hbm, ⟨20, _⟩ => ⟨S8192x256, .f32⟩
  | .hbm, ⟨21, _⟩ => ⟨S1x256, .f32⟩
  | .hbm, ⟨22, _⟩ => ⟨S8192x256, .f32⟩
  | .hbm, ⟨23, _⟩ => ⟨S8192x256, .f32⟩
  | .hbm, ⟨24, _⟩ => ⟨S8192x4x64, .f32⟩
  | .hbm, ⟨25, _⟩ => ⟨S4x8192x64, .f32⟩
  | .hbm, ⟨26, _⟩ => ⟨S8192x8192, .i32⟩
  | .hbm, ⟨27, _⟩ => ⟨S8192x8192, .f32⟩
  | .hbm, ⟨28, _⟩ => ⟨S_, .f32⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S4x8192x8192, .f32⟩
  | .hbm, ⟨35, _⟩ => ⟨S_, .f32⟩
  | .hbm, ⟨36, _⟩ => ⟨S4x8192x8192, .f32⟩
  | .hbm, ⟨37, _⟩ => ⟨S4x8192x8192, .f32⟩
  | .hbm, ⟨38, _⟩ => ⟨S1x8192x8192, .f32⟩
  | .hbm, ⟨39, _⟩ => ⟨S4x8192x8192, .f32⟩
  | .hbm, ⟨40, _⟩ => ⟨S4x8192x8192, .f32⟩
  | .hbm, ⟨41, _⟩ => ⟨S_, .f32⟩
  | .hbm, ⟨42, _⟩ => ⟨S4x8192, .f32⟩
  | .hbm, ⟨43, _⟩ => ⟨S_, .f32⟩
  | .hbm, ⟨44, _⟩ => ⟨S4x8192, .f32⟩
  | .hbm, ⟨45, _⟩ => ⟨S4x8192, .f32⟩
  | .hbm, ⟨46, _⟩ => ⟨S4x8192x1, .f32⟩
  | .hbm, ⟨47, _⟩ => ⟨S4x8192x8192, .f32⟩
  | .hbm, ⟨48, _⟩ => ⟨S4x8192x8192, .f32⟩
  | .hbm, ⟨49, _⟩ => ⟨S4x8192x8192, .f32⟩
  | .hbm, ⟨50, _⟩ => ⟨S_, .f32⟩
  | .hbm, ⟨51, _⟩ => ⟨S4x8192, .f32⟩
  | .hbm, ⟨52, _⟩ => ⟨S4x8192x1, .f32⟩
  | .hbm, ⟨53, _⟩ => ⟨S4x8192x8192, .f32⟩
  | .hbm, ⟨54, _⟩ => ⟨S4x8192x8192, .f32⟩
  | .hbm, ⟨55, _⟩ => ⟨S4x8192x64, .f32⟩
  | .hbm, ⟨56, _⟩ => ⟨S8192x4x64, .f32⟩
  | .hbm, ⟨57, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  shapeCasts_S8192x256_S8192x4x64 : S8192x256.ShapeCasts S8192x4x64
  transposes_S8192x4x64_S4x8192x64_1_0_2 : S8192x4x64.Transposes [1, 0, 2] S4x8192x64
  transposes_S8192x8192_S8192x8192_1_0 : S8192x8192.Transposes [1, 0] S8192x8192
  bcast_S_S8192x8192 : S_.BroadcastsInDim S8192x8192 (![] : Fin 0 → Fin S8192x8192.rank)
  bcast_S_S4x8192x8192 : S_.BroadcastsInDim S4x8192x8192 (![] : Fin 0 → Fin S4x8192x8192.rank)
  bcast_S8192x8192_S1x8192x8192_1_2 : S8192x8192.BroadcastsInDim S1x8192x8192 (![1, 2] : Fin 2 → Fin S1x8192x8192.rank)
  bcast_S1x8192x8192_S4x8192x8192_0_1_2 : S1x8192x8192.BroadcastsInDim S4x8192x8192 (![0, 1, 2] : Fin 3 → Fin S4x8192x8192.rank)
  reducesTo_S4x8192x8192_S4x8192_d2 : S4x8192x8192.ReducesTo [2] S4x8192
  h_S_ : 0 < S_.numel
  bcast_S_S4x8192 : S_.BroadcastsInDim S4x8192 (![] : Fin 0 → Fin S4x8192.rank)
  bcast_S4x8192_S4x8192x1_0_1 : S4x8192.BroadcastsInDim S4x8192x1 (![0, 1] : Fin 2 → Fin S4x8192x1.rank)
  bcast_S4x8192x1_S4x8192x8192_0_1_2 : S4x8192x1.BroadcastsInDim S4x8192x8192 (![0, 1, 2] : Fin 3 → Fin S4x8192x8192.rank)
  transposes_S4x8192x64_S8192x4x64_1_0_2 : S4x8192x64.Transposes [1, 0, 2] S8192x4x64
  shapeCasts_S8192x4x64_S8192x256 : S8192x4x64.ShapeCasts S8192x256
  dot_S8192x256_S256x256_S8192x256_1_0_0_1_n_n_wf : DotDims.WF S8192x256 S256x256 S8192x256 [1] [0] [0] [1] [] []
  dot_S4x8192x64_S4x8192x64_S4x8192x8192_2_2_1_1_0_0_wf : DotDims.WF S4x8192x64 S4x8192x64 S4x8192x8192 [2] [2] [1] [1] [0] [0]
  dot_S4x8192x8192_S4x8192x64_S4x8192x64_2_1_1_2_0_0_wf : DotDims.WF S4x8192x8192 S4x8192x64 S4x8192x64 [2] [1] [1] [2] [0] [0]

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S4x8192x64_S4x8192x64_S4x8192x8192_2_2_1_1_0_0 : DotDims S4x8192x64 S4x8192x64 S4x8192x8192 where
  lhsContracting := [2]
  rhsContracting := [2]
  lhsNonContracting := [1]
  rhsNonContracting := [1]
  lhsBatch := [0]
  rhsBatch := [0]
  wf := dot_S4x8192x64_S4x8192x64_S4x8192x8192_2_2_1_1_0_0_wf
def dot_S4x8192x8192_S4x8192x64_S4x8192x64_2_1_1_2_0_0 : DotDims S4x8192x8192 S4x8192x64 S4x8192x64 where
  lhsContracting := [2]
  rhsContracting := [1]
  lhsNonContracting := [1]
  rhsNonContracting := [2]
  lhsBatch := [0]
  rhsBatch := [0]
  wf := dot_S4x8192x8192_S4x8192x64_S4x8192x64_2_1_1_2_0_0_wf

class Facts : Prop extends Facts₀ where

variable [Facts]
-- ==== Proof.Kernel.Region0.lean ====
/- The frame half of the first region of the program: the projection kernel, which at each of its eight grid
   points multiplies a block of 1024 rows of the input by each head's three weight matrices, adds the head's bias row
   and stores the rounded result into the head's slab of the three output blocks. Everything here is stated at a
   parameter `V`, the buffer contents when the region is entered, and at any float instance. -/
import proofs.«150601_j68384469286917_2_alg».proof.Proof.Gen.Kernel.Launch
import proofs.«150601_j68384469286917_2_alg».proof.Proof.Gen.Kernel.Skeleton
import proofs.«150601_j68384469286917_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether or not it was fetched there (a window
    whose block index does not move keeps the block it was given at the first point), for any proof data whose array
    is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether or not it was fetched there (a window
    whose block index does not move keeps the block it was given at the first point), for any proof data whose array
    is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether or not it was fetched there (a window
    whose block index does not move keeps the block it was given at the first point), for any proof data whose array
    is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, whether or not it was fetched there (a window
    whose block index does not move keeps the block it was given at the first point), for any proof data whose array
    is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, whether or not it was fetched there (a window
    whose block index does not move keeps the block it was given at the first point), for any proof data whose array
    is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, whether or not it was fetched there (a window
    whose block index does not move keeps the block it was given at the first point), for any proof data whose array
    is `V`'s and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's staging buffer holds its block at every point, whether or not it was fetched there (a window
    whose block index does not move keeps the block it was given at the first point), for any proof data whose array
    is `V`'s and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: the whole input block, and per head `h` the head's weight slab, bias row and output slab -/

abbrev r0_x : Rect S1024x256 := Rect.unit (s := S1024x256) ![0, 0] S1024x256.size inb_S1024x256_S1024x256_0_0
abbrev r0_w0 : Rect S4x256x64 := Rect.unit (s := S4x256x64) ![0, 0, 0] S1x256x64.size inb_S4x256x64_S1x256x64_0_0_0
abbrev r0_b0 : Rect S4x1x64 := Rect.unit (s := S4x1x64) ![0, 0, 0] S1x1x64.size inb_S4x1x64_S1x1x64_0_0_0
abbrev r0_o0 : Rect S4x1024x64 := Rect.unit (s := S4x1024x64) ![0, 0, 0] S1x1024x64.size inb_S4x1024x64_S1x1024x64_0_0_0
abbrev r0_w1 : Rect S4x256x64 := Rect.unit (s := S4x256x64) ![1, 0, 0] S1x256x64.size inb_S4x256x64_S1x256x64_1_0_0
abbrev r0_b1 : Rect S4x1x64 := Rect.unit (s := S4x1x64) ![1, 0, 0] S1x1x64.size inb_S4x1x64_S1x1x64_1_0_0
abbrev r0_o1 : Rect S4x1024x64 := Rect.unit (s := S4x1024x64) ![1, 0, 0] S1x1024x64.size inb_S4x1024x64_S1x1024x64_1_0_0
abbrev r0_w2 : Rect S4x256x64 := Rect.unit (s := S4x256x64) ![2, 0, 0] S1x256x64.size inb_S4x256x64_S1x256x64_2_0_0
abbrev r0_b2 : Rect S4x1x64 := Rect.unit (s := S4x1x64) ![2, 0, 0] S1x1x64.size inb_S4x1x64_S1x1x64_2_0_0
abbrev r0_o2 : Rect S4x1024x64 := Rect.unit (s := S4x1024x64) ![2, 0, 0] S1x1024x64.size inb_S4x1024x64_S1x1024x64_2_0_0
abbrev r0_w3 : Rect S4x256x64 := Rect.unit (s := S4x256x64) ![3, 0, 0] S1x256x64.size inb_S4x256x64_S1x256x64_3_0_0
abbrev r0_b3 : Rect S4x1x64 := Rect.unit (s := S4x1x64) ![3, 0, 0] S1x1x64.size inb_S4x1x64_S1x1x64_3_0_0
abbrev r0_o3 : Rect S4x1024x64 := Rect.unit (s := S4x1024x64) ![3, 0, 0] S1x1024x64.size inb_S4x1024x64_S1x1024x64_3_0_0

/-! ## What the body leaves in each output window's buffer

Each output buffer receives four stores, one per head, into the head's [1,1024,64] slab; listed last store first.
The stored value of head `h` is the rounded `x · W_h + b_h` of the loaded input block, weight slab and bias row. -/

/-- The first output (the queries): from the input block `x0`, the first weight array `x1` and its biases `x2`. -/
def out0_7 (x0 : Vec F S1024x256 .f32) (x1 : Vec F S4x256x64 .f32) (x2 : Vec F S4x1x64 .f32) : Vec F S4x1024x64 .bf16 :=
  View.canon [⟨r0_o3, k0_pay1 (k0_pay4 (View.ld x0 r0_x)) (k0_pay24 (View.ld x1 r0_w3)) (k0_pay27 (View.ld x2 r0_b3))⟩,
    ⟨r0_o2, k0_pay21 (k0_pay20 (k0_pay4 (View.ld x0 r0_x)) (View.ld x1 r0_w2) (View.ld x2 r0_b2))⟩,
    ⟨r0_o1, k0_pay13 (k0_pay12 (k0_pay4 (View.ld x0 r0_x)) (View.ld x1 r0_w1) (View.ld x2 r0_b1))⟩,
    ⟨r0_o0, k0_pay6 (View.ld x0 r0_x) (View.ld x1 r0_w0) (View.ld x2 r0_b0)⟩]

/-- The second output (the keys): from the input block `x0`, the second weight array `x3` and its biases `x4`. -/
def out0_8 (x0 : Vec F S1024x256 .f32) (x3 : Vec F S4x256x64 .f32) (x4 : Vec F S4x1x64 .f32) : Vec F S4x1024x64 .bf16 :=
  View.canon [⟨r0_o3, k0_pay2 (k0_pay4 (View.ld x0 r0_x)) (k0_pay25 (View.ld x3 r0_w3)) (k0_pay28 (View.ld x4 r0_b3))⟩,
    ⟨r0_o2, k0_pay22 (k0_pay4 (View.ld x0 r0_x)) (k0_pay16 (View.ld x3 r0_w2)) (k0_pay18 (View.ld x4 r0_b2))⟩,
    ⟨r0_o1, k0_pay14 (k0_pay10 (k0_pay4 (View.ld x0 r0_x)) (View.ld x3 r0_w1) (View.ld x4 r0_b1))⟩,
    ⟨r0_o0, k0_pay8 (k0_pay7 (View.ld x0 r0_x) (View.ld x3 r0_w0) (View.ld x4 r0_b0))⟩]

/-- The third output (the values): from the input block `x0`, the third weight array `x5` and its biases `x6`. -/
def out0_9 (x0 : Vec F S1024x256 .f32) (x5 : Vec F S4x256x64 .f32) (x6 : Vec F S4x1x64 .f32) : Vec F S4x1024x64 .bf16 :=
  View.canon [⟨r0_o3, k0_pay3 (k0_pay4 (View.ld x0 r0_x)) (k0_pay26 (View.ld x5 r0_w3)) (View.ld x6 r0_b3)⟩,
    ⟨r0_o2, k0_pay23 (k0_pay4 (View.ld x0 r0_x)) (k0_pay17 (View.ld x5 r0_w2)) (k0_pay19 (View.ld x6 r0_b2))⟩,
    ⟨r0_o1, k0_pay15 (k0_pay11 (k0_pay4 (View.ld x0 r0_x)) (View.ld x5 r0_w1) (View.ld x6 r0_b1))⟩,
    ⟨r0_o0, k0_pay9 (k0_pay5 (View.ld x0 r0_x) (View.ld x5 r0_w0) (View.ld x6 r0_b0))⟩]

/-- The four head slabs tile an output buffer (checked by evaluation), so they cover it. -/
theorem cover0_o (p3 p2 p1 p0 : Vec F S1x1024x64 .bf16) (y : S4x1024x64.Idx) :
    ∃ pc ∈ ([⟨r0_o3, p3⟩, ⟨r0_o2, p2⟩, ⟨r0_o1, p1⟩, ⟨r0_o0, p0⟩] : List (View.Piece (Elt F) S4x1024x64 .bf16)), y ∈ pc.1.set :=
  View.cover_of_tiled [⟨r0_o3, p3⟩, ⟨r0_o2, p2⟩, ⟨r0_o1, p1⟩, ⟨r0_o0, p0⟩] S1x1024x64.size (by rfl) y

/-! ## The body's triple -/

set_option maxHeartbeats 4000000 in
/-- The kernel body on whole staging memrefs, the inputs' at read contents `xW` and the outputs' at anything, runs to
    the continuation holding the inputs' as they were and each output's at `out0_W` of the inputs'. The loads the body
    makes of an output slab before storing into it are never used. -/
theorem sound_kernel0 (c : Dev nD) (E : Set ℕ) (i : grid0.Coords) (arg0 : Memref sig .tc .vmem S1024x256 .f32) (harg0 : arg0.IsWhole) (arg1 : Memref sig .tc .vmem S4x256x64 .f32) (harg1 : arg1.IsWhole) (arg2 : Memref sig .tc .vmem S4x1x64 .f32) (harg2 : arg2.IsWhole) (arg3 : Memref sig .tc .vmem S4x256x64 .f32) (harg3 : arg3.IsWhole) (arg4 : Memref sig .tc .vmem S4x1x64 .f32) (harg4 : arg4.IsWhole) (arg5 : Memref sig .tc .vmem S4x256x64 .f32) (harg5 : arg5.IsWhole) (arg6 : Memref sig .tc .vmem S4x1x64 .f32) (harg6 : arg6.IsWhole) (arg7 : Memref sig .tc .vmem S4x1024x64 .bf16) (harg7 : arg7.IsWhole) (arg8 : Memref sig .tc .vmem S4x1024x64 .bf16) (harg8 : arg8.IsWhole) (arg9 : Memref sig .tc .vmem S4x1024x64 .bf16) (harg9 : arg9.IsWhole)
    (x0 : Vec F S1024x256 .f32) (x1 : Vec F S4x256x64 .f32) (x2 : Vec F S4x1x64 .f32) (x3 : Vec F S4x256x64 .f32) (x4 : Vec F S4x1x64 .f32) (x5 : Vec F S4x256x64 .f32) (x6 : Vec F S4x1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare (out0_7 x0 x1 x2) ∗ owns (c : Thread nD τ) arg8 fullShare (out0_8 x0 x3 x4) ∗ owns (c : Thread nD τ) arg9 fullShare (out0_9 x0 x5 x6)) -∗ K ⟨⟩))
      ⊢ wp frame (wpE (defs₀ (F := F)) Variants.none c none) E (cc0__qkv_kernel i arg0 harg0 arg1 harg1 arg2 harg2 arg3 harg3 arg4 harg4 arg5 harg5 arg6 harg6 arg7 harg7 arg8 harg8 arg9 harg9) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_o _ _ _ _)
  isplitl [H8]
  · iexists _; isplitr
    swap; · iexact H8
    ipureintro
    exact View.read_writes_eq_canon _ _ _ (cover0_o _ _ _ _)
  iexists _; isplitr
  swap; · iexact H9
  ipureintro
  exact View.read_writes_eq_canon _ _ _ (cover0_o _ _ _ _)

/-! ## The pipeline's proof data -/

/-- The proof data of this pipeline on core `c`: the arrays as the region finds them; after the body at point `t` each
    input's buffer at its block and each output's at `out0_W` of the input blocks; the invariant that of a body which
    keeps nothing from point to point; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t)
    | ⟨8, _⟩ => out0_8 (iblk0 V c 0 t) (iblk0 V c 3 t) (iblk0 V c 4 t)
    | ⟨9, _⟩ => out0_9 (iblk0 V c 0 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) := by dsimp only [dat0]
theorem after0_8 (c : Dev nD) (t : Fin cfg0.N) : (dat0 V c).after 8 t = out0_8 (iblk0 V c 0 t) (iblk0 V c 3 t) (iblk0 V c 4 t) := by dsimp only [dat0]
theorem after0_9 (c : Dev nD) (t : Fin cfg0.N) : (dat0 V c).after 9 t = out0_9 (iblk0 V c 0 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 1000000 in
/-- The body at any point: the inputs' memrefs hold their blocks, so the body's triple applies; the invariant and the
    core's owed count pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Gen

end
-- ==== Proof.Kernel.Region1Runs.lean ====
/-
  The attention kernel (the second region) at one grid point (query block qi, key block ki): which of its two
  conditionals are taken, where its output block is idle, and the kernel's own three buffers — the running row maximum,
  the running normaliser and the running weighted sum — which it keeps from one key block to the next.
-/
import proofs.«150601_j68384469286917_2_alg».proof.Proof.Gen.Kernel.Launch
import proofs.«150601_j68384469286917_2_alg».proof.Proof.Gen.Kernel.Skeleton
import proofs.«150601_j68384469286917_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals, from the grid coordinates -/

/-- "This is the first key block of its query block" (ki = 0): the running buffers are reset. -/
abbrev cond1_0 (i : grid1.Coords) : Prop := (Scalar.cmpi .ne (Scalar.extui (Scalar.cmpi .eq (BitVec.ofNat 32 (i 1).val) 0#32)) 0#32) = 1#1
/-- It holds at the points ≡ 0 (mod 16): the grid is 32 query blocks by 16 key blocks, key block innermost. -/
theorem hcond1_0 : ∀ t : Fin cfg1.N, cond1_0 (grid1.coords t) ↔ t.val % 16 = 0 :=
  (by decide +kernel : ∀ t : Fin grid1.N, cond1_0 (grid1.coords t) ↔ t.val % 16 = 0)

/-- "This is the last key block" (ki = 15): the weighted sum is divided by the normaliser and stored. -/
abbrev cond1_1 (i : grid1.Coords) : Prop := k1_cond2 i = 1#1
/-- It holds at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last key block nothing is stored into the output block: it is idle there, -/
theorem idleAt1_4 : ∀ t : Fin cfg1.N, ¬cond1_1 (grid1.coords t) → cfg1.idle 4 (grid1.coords t) = true := by decide +kernel
/-- and not written back. -/
theorem noFlush1_4 : ∀ t : Fin cfg1.N, ¬cond1_1 (grid1.coords t) → (cfg1.win 4).flush t = false := by decide +kernel
/-- At the last key block it is live. -/
theorem liveAt1_4 : ∀ t : Fin cfg1.N, cond1_1 (grid1.coords t) → cfg1.idle 4 (grid1.coords t) = false := by decide +kernel

/-! ## The memrefs the body is called with -/

abbrev ms1_0 (t : Fin cfg1.N) : Memref sig .tc .vmem S4x256x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4x8192x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x8192x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x256 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S4x256x64 .f32 := win1_4.stage (cfg1.slots t 4)
abbrev hs1_4 (t : Fin cfg1.N) : (ms1_4 t).IsWhole := hstage1_4 ((cfg1.slots t 4).cast nbuf1_4)
/-- The running row maximum, the running normaliser, the running weighted sum: whole buffers of the kernel's own. -/
abbrev scM1_0 : Memref sig .tc .vmem S4x256x1 .f32 := Memref.whole cc1_scratch0
abbrev scM1_1 : Memref sig .tc .vmem S4x256x1 .f32 := Memref.whole cc1_scratch1
abbrev scM1_2 : Memref sig .tc .vmem S4x256x64 .f32 := Memref.whole cc1_scratch2
abbrev VS1_0 : View sig .tc .vmem S4x256x1 .f32 := scM1_0.view
abbrev VS1_1 : View sig .tc .vmem S4x256x1 .f32 := scM1_1.view
abbrev VS1_2 : View sig .tc .vmem S4x256x64 .f32 := scM1_2.view
/-- One staging buffer of the output window, through which its contents are stated. -/
abbrev VO1_4 : View sig .tc .vmem S4x256x64 .f32 := (Memref.whole cc1_stg4_0 : Memref sig .tc .vmem S4x256x64 .f32).view

/-- The core's other scoped buffers (the first region's staging buffers), which this kernel never touches. -/
abbrev others1 (c : Dev nD) : sProp 𝕄 :=
  Pipeline.scopedRestBut (Ix := Unit) (Name := ℕ) (U := UR sig nD τ) (Lvl := ℕ) (Val := Elt F) spec1 c [cc1_scratch0, cc1_scratch1, cc1_scratch2]

/-- What the region is handed: the three running buffers at anything, the other scoped buffers, the generator register. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d)) ∗ others1 c) ∗ (∃ r, prngReg c r)) := by
  unfold Pipeline.ΦA
  rw [Pipeline.scopedRest_split_of_list spec1 c [cc1_scratch0, cc1_scratch1, cc1_scratch2] (by decide) (by decide)]
  simp only [scM1_0, scM1_1, scM1_2, owns_whole]
  rfl

end Cert.Kernel.Gen

end
-- ==== Proof.Kernel.Region1RunA.lean ====
/-
  The attention kernel's body at the FIRST key block of a query block (ki = 0): the three running buffers are reset
  to (−∞, 0, 0) whatever they held, then updated with this key block; the output block is left as it was.
-/
import proofs.«150601_j68384469286917_2_alg».proof.Proof.Kernel.Region1Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in each running buffer, as pieces (last first), with the triple: the inputs and the
    idle output block handed back as they were. -/
noncomputable def kernelRun1_A (c : Dev nD) (i : grid1.Coords) (arg2 : Memref sig .tc .vmem S4x256x64 .bf16) (harg2 : arg2.IsWhole) (arg3 : Memref sig .tc .vmem S4x8192x64 .bf16) (harg3 : arg3.IsWhole) (arg4 : Memref sig .tc .vmem S4x8192x64 .bf16) (harg4 : arg4.IsWhole) (arg5 : Memref sig .tc .vmem S512x256 .i32) (harg5 : arg5.IsWhole) (arg6 : Memref sig .tc .vmem S4x256x64 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x64 .f32) (harg9 : arg9.IsWhole)
    (hc0 : cond1_0 i) (hc1 : ¬cond1_1 i) (x0 : Vec F S4x256x64 .bf16) (x1 : Vec F S4x8192x64 .bf16) (x2 : Vec F S4x8192x64 .bf16) (x3 : Vec F S512x256 .i32) :
    Σ' (LS0 : List (View.Piece (Elt F) S4x256x1 .f32)) (LS1 : List (View.Piece (Elt F) S4x256x1 .f32)), { LS2 : List (View.Piece (Elt F) S4x256x64 .f32) //
      ∀ (xi4 : Vec F S4x256x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8 arg9 harg9) K } := by
  refine ⟨?_, ?_, ?_, fun xi4 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Gen

end
-- ==== Proof.Kernel.Region1RunB.lean ====
/-
  The attention kernel's body at a MIDDLE key block (0 < ki < 15): the three running buffers, at what the key block
  before left, are updated with this key block; the output block is left as it was.
-/
import proofs.«150601_j68384469286917_2_alg».proof.Proof.Kernel.Region1RunA

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S4x256x64 .bf16) (harg2 : arg2.IsWhole) (arg3 : Memref sig .tc .vmem S4x8192x64 .bf16) (harg3 : arg3.IsWhole) (arg4 : Memref sig .tc .vmem S4x8192x64 .bf16) (harg4 : arg4.IsWhole) (arg5 : Memref sig .tc .vmem S512x256 .i32) (harg5 : arg5.IsWhole) (arg6 : Memref sig .tc .vmem S4x256x64 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x64 .f32) (harg9 : arg9.IsWhole)
    (hc0 : ¬cond1_0 i) (hc1 : ¬cond1_1 i) (x0 : Vec F S4x256x64 .bf16) (x1 : Vec F S4x8192x64 .bf16) (x2 : Vec F S4x8192x64 .bf16) (x3 : Vec F S512x256 .i32) (xs0 : Vec F S4x256x1 .f32) (xs1 : Vec F S4x256x1 .f32) (xs2 : Vec F S4x256x64 .f32) :
    Σ' (LS0 : List (View.Piece (Elt F) S4x256x1 .f32)) (LS1 : List (View.Piece (Elt F) S4x256x1 .f32)), { LS2 : List (View.Piece (Elt F) S4x256x64 .f32) //
      ∀ (xi4 : Vec F S4x256x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8 arg9 harg9) K } := by
  refine ⟨?_, ?_, ?_, fun xi4 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Gen

end
-- ==== Proof.Kernel.Region1RunC.lean ====
/-
  The attention kernel's body at the LAST key block (ki = 15): the three running buffers are updated with this key
  block, and the weighted sum divided by the normaliser is stored into the output block.
-/
import proofs.«150601_j68384469286917_2_alg».proof.Proof.Kernel.Region1RunB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S4x256x64 .bf16) (harg2 : arg2.IsWhole) (arg3 : Memref sig .tc .vmem S4x8192x64 .bf16) (harg3 : arg3.IsWhole) (arg4 : Memref sig .tc .vmem S4x8192x64 .bf16) (harg4 : arg4.IsWhole) (arg5 : Memref sig .tc .vmem S512x256 .i32) (harg5 : arg5.IsWhole) (arg6 : Memref sig .tc .vmem S4x256x64 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x64 .f32) (harg9 : arg9.IsWhole)
    (hc0 : ¬cond1_0 i) (hc1 : cond1_1 i) (x0 : Vec F S4x256x64 .bf16) (x1 : Vec F S4x8192x64 .bf16) (x2 : Vec F S4x8192x64 .bf16) (x3 : Vec F S512x256 .i32) (xs0 : Vec F S4x256x1 .f32) (xs1 : Vec F S4x256x1 .f32) (xs2 : Vec F S4x256x64 .f32) :
    Σ' (L4 : List (View.Piece (Elt F) S4x256x64 .f32)) (LS0 : List (View.Piece (Elt F) S4x256x1 .f32)) (LS1 : List (View.Piece (Elt F) S4x256x1 .f32)), { LS2 : List (View.Piece (Elt F) S4x256x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8 arg9 harg9) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.Kernel.Gen

end
-- ==== Proof.Kernel.Region1.lean ====
/-
  The attention region's proof data. For each grid point: which case of the body runs there, what the three running
  buffers (row maximum, normaliser, weighted sum) hold afterwards — by recursion on the point, each key block updating
  what the key block before left, the first key block of a query block starting afresh — and, at the last key block,
  what is stored into the output block. The region's invariant carries the running buffers at those contents.
-/
import proofs.«150601_j68384469286917_2_alg».proof.Proof.Kernel.Region1RunC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The three cases at a point -/

/-- The body's run at a first key block. -/
def runA (c : Dev nD) (t : Fin cfg1.N) (h0 : t.val % 16 = 0) (h1 : ¬t.val % 16 = 15) :=
  kernelRun1_A (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)
/-- The body's run at a middle key block, from the running buffers `xs`. -/
def runB (c : Dev nD) (t : Fin cfg1.N) (h0 : ¬t.val % 16 = 0) (h1 : ¬t.val % 16 = 15) (xs : Vec F S4x256x1 .f32 × Vec F S4x256x1 .f32 × Vec F S4x256x64 .f32) :=
  kernelRun1_B (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) xs.1 xs.2.1 xs.2.2
/-- The body's run at the last key block, from the running buffers `xs`. -/
def runC (c : Dev nD) (t : Fin cfg1.N) (h0 : ¬t.val % 16 = 0) (h1 : t.val % 16 = 15) (xs : Vec F S4x256x1 .f32 × Vec F S4x256x1 .f32 × Vec F S4x256x64 .f32) :=
  kernelRun1_C (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) xs.1 xs.2.1 xs.2.2

/-- What each case leaves in the three running buffers: its stores read back. -/
def sA (c : Dev nD) (t : Fin cfg1.N) (h0 : t.val % 16 = 0) (h1 : ¬t.val % 16 = 15) : Vec F S4x256x1 .f32 × Vec F S4x256x1 .f32 × Vec F S4x256x64 .f32 :=
  (VS1_0.read (Elt F) (VS1_0.writes (Elt F) VS1_0.junk (runA V c t h0 h1).1), VS1_1.read (Elt F) (VS1_1.writes (Elt F) VS1_1.junk (runA V c t h0 h1).2.1), VS1_2.read (Elt F) (VS1_2.writes (Elt F) VS1_2.junk (runA V c t h0 h1).2.2.1))
def sB (c : Dev nD) (t : Fin cfg1.N) (h0 : ¬t.val % 16 = 0) (h1 : ¬t.val % 16 = 15) (xs : Vec F S4x256x1 .f32 × Vec F S4x256x1 .f32 × Vec F S4x256x64 .f32) : Vec F S4x256x1 .f32 × Vec F S4x256x1 .f32 × Vec F S4x256x64 .f32 :=
  (VS1_0.read (Elt F) (VS1_0.writes (Elt F) VS1_0.junk (runB V c t h0 h1 xs).1), VS1_1.read (Elt F) (VS1_1.writes (Elt F) VS1_1.junk (runB V c t h0 h1 xs).2.1), VS1_2.read (Elt F) (VS1_2.writes (Elt F) VS1_2.junk (runB V c t h0 h1 xs).2.2.1))
def sC (c : Dev nD) (t : Fin cfg1.N) (h0 : ¬t.val % 16 = 0) (h1 : t.val % 16 = 15) (xs : Vec F S4x256x1 .f32 × Vec F S4x256x1 .f32 × Vec F S4x256x64 .f32) : Vec F S4x256x1 .f32 × Vec F S4x256x1 .f32 × Vec F S4x256x64 .f32 :=
  (VS1_0.read (Elt F) (VS1_0.writes (Elt F) VS1_0.junk (runC V c t h0 h1 xs).2.1), VS1_1.read (Elt F) (VS1_1.writes (Elt F) VS1_1.junk (runC V c t h0 h1 xs).2.2.1), VS1_2.read (Elt F) (VS1_2.writes (Elt F) VS1_2.junk (runC V c t h0 h1 xs).2.2.2.1))
/-- What the last key block stores into the output block. -/
def oC (c : Dev nD) (t : Fin cfg1.N) (h0 : ¬t.val % 16 = 0) (h1 : t.val % 16 = 15) (xs : Vec F S4x256x1 .f32 × Vec F S4x256x1 .f32 × Vec F S4x256x64 .f32) : Vec F S4x256x64 .f32 :=
  VO1_4.read (Elt F) (VO1_4.writes (Elt F) VO1_4.junk (runC V c t h0 h1 xs).1)
/-- A placeholder for the output block at the points that do not store into it (it is idle there: nothing reads this). -/
def idleOut1 : Vec F S4x256x64 .f32 := VO1_4.read (Elt F) (VO1_4.writes (Elt F) VO1_4.junk [])

/-! Each case's stores tile the buffer they go to (every store is of the whole buffer). -/
theorem scoverA_0 (c : Dev nD) (t : Fin cfg1.N) (h0 : t.val % 16 = 0) (h1 : ¬t.val % 16 = 15) (y : S4x256x1.Idx) :
    ∃ pc ∈ (runA V c t h0 h1).1, y ∈ pc.1.set :=
  View.cover_of_tiledL (runA V c t h0 h1).1 S4x256x1.size (by sl_kernel_rfl) y

theorem scoverA_1 (c : Dev nD) (t : Fin cfg1.N) (h0 : t.val % 16 = 0) (h1 : ¬t.val % 16 = 15) (y : S4x256x1.Idx) :
    ∃ pc ∈ (runA V c t h0 h1).2.1, y ∈ pc.1.set :=
  View.cover_of_tiledL (runA V c t h0 h1).2.1 S4x256x1.size (by sl_kernel_rfl) y

theorem scoverA_2 (c : Dev nD) (t : Fin cfg1.N) (h0 : t.val % 16 = 0) (h1 : ¬t.val % 16 = 15) (y : S4x256x64.Idx) :
    ∃ pc ∈ (runA V c t h0 h1).2.2.1, y ∈ pc.1.set :=
  View.cover_of_tiledL (runA V c t h0 h1).2.2.1 S4x256x64.size (by sl_kernel_rfl) y

theorem scoverB_0 (c : Dev nD) (t : Fin cfg1.N) (h0 : ¬t.val % 16 = 0) (h1 : ¬t.val % 16 = 15) (xs : Vec F S4x256x1 .f32 × Vec F S4x256x1 .f32 × Vec F S4x256x64 .f32) (y : S4x256x1.Idx) :
    ∃ pc ∈ (runB V c t h0 h1 xs).1, y ∈ pc.1.set :=
  View.cover_of_tiledL (runB V c t h0 h1 xs).1 S4x256x1.size (by sl_kernel_rfl) y

theorem scoverB_1 (c : Dev nD) (t : Fin cfg1.N) (h0 : ¬t.val % 16 = 0) (h1 : ¬t.val % 16 = 15) (xs : Vec F S4x256x1 .f32 × Vec F S4x256x1 .f32 × Vec F S4x256x64 .f32) (y : S4x256x1.Idx) :
    ∃ pc ∈ (runB V c t h0 h1 xs).2.1, y ∈ pc.1.set :=
  View.cover_of_tiledL (runB V c t h0 h1 xs).2.1 S4x256x1.size (by sl_kernel_rfl) y

theorem scoverB_2 (c : Dev nD) (t : Fin cfg1.N) (h0 : ¬t.val % 16 = 0) (h1 : ¬t.val % 16 = 15) (xs : Vec F S4x256x1 .f32 × Vec F S4x256x1 .f32 × Vec F S4x256x64 .f32) (y : S4x256x64.Idx) :
    ∃ pc ∈ (runB V c t h0 h1 xs).2.2.1, y ∈ pc.1.set :=
  View.cover_of_tiledL (runB V c t h0 h1 xs).2.2.1 S4x256x64.size (by sl_kernel_rfl) y

theorem coverC_4 (c : Dev nD) (t : Fin cfg1.N) (h0 : ¬t.val % 16 = 0) (h1 : t.val % 16 = 15) (xs : Vec F S4x256x1 .f32 × Vec F S4x256x1 .f32 × Vec F S4x256x64 .f32) (y : S4x256x64.Idx) :
    ∃ pc ∈ (runC V c t h0 h1 xs).1, y ∈ pc.1.set :=
  View.cover_of_tiledL (runC V c t h0 h1 xs).1 S4x256x64.size (by sl_kernel_rfl) y

theorem scoverC_0 (c : Dev nD) (t : Fin cfg1.N) (h0 : ¬t.val % 16 = 0) (h1 : t.val % 16 = 15) (xs : Vec F S4x256x1 .f32 × Vec F S4x256x1 .f32 × Vec F S4x256x64 .f32) (y : S4x256x1.Idx) :
    ∃ pc ∈ (runC V c t h0 h1 xs).2.1, y ∈ pc.1.set :=
  View.cover_of_tiledL (runC V c t h0 h1 xs).2.1 S4x256x1.size (by sl_kernel_rfl) y

theorem scoverC_1 (c : Dev nD) (t : Fin cfg1.N) (h0 : ¬t.val % 16 = 0) (h1 : t.val % 16 = 15) (xs : Vec F S4x256x1 .f32 × Vec F S4x256x1 .f32 × Vec F S4x256x64 .f32) (y : S4x256x1.Idx) :
    ∃ pc ∈ (runC V c t h0 h1 xs).2.2.1, y ∈ pc.1.set :=
  View.cover_of_tiledL (runC V c t h0 h1 xs).2.2.1 S4x256x1.size (by sl_kernel_rfl) y

theorem scoverC_2 (c : Dev nD) (t : Fin cfg1.N) (h0 : ¬t.val % 16 = 0) (h1 : t.val % 16 = 15) (xs : Vec F S4x256x1 .f32 × Vec F S4x256x1 .f32 × Vec F S4x256x64 .f32) (y : S4x256x64.Idx) :
    ∃ pc ∈ (runC V c t h0 h1 xs).2.2.2.1, y ∈ pc.1.set :=
  View.cover_of_tiledL (runC V c t h0 h1 xs).2.2.2.1 S4x256x64.size (by sl_kernel_rfl) y

/-! ## What the buffers hold after each point -/

/-- After point `n`: the output block's buffer, then the three running buffers. -/
def outsAt1 (c : Dev nD) : (n : ℕ) → n < cfg1.N → Vec F S4x256x64 .f32 × Vec F S4x256x1 .f32 × Vec F S4x256x1 .f32 × Vec F S4x256x64 .f32
  | 0, hn => (idleOut1, sA V c ⟨0, hn⟩ (Nat.zero_mod _) (show ¬ (0 % 16 = 15) by decide))
  | n + 1, hn =>
    if h0 : (n + 1) % 16 = 0 then
      if h1 : (n + 1) % 16 = 15 then False.elim (by omega)
      else (idleOut1, sA V c ⟨n + 1, hn⟩ h0 h1)
    else
      if h1 : (n + 1) % 16 = 15 then
        (oC V c ⟨n + 1, hn⟩ h0 h1 (outsAt1 c n (Nat.lt_of_succ_lt hn)).2, sC V c ⟨n + 1, hn⟩ h0 h1 (outsAt1 c n (Nat.lt_of_succ_lt hn)).2)
      else (idleOut1, sB V c ⟨n + 1, hn⟩ h0 h1 (outsAt1 c n (Nat.lt_of_succ_lt hn)).2)

theorem outsAt1_A (c : Dev nD) (t : Fin cfg1.N) (h0 : t.val % 16 = 0) (h1 : ¬t.val % 16 = 15) :
    outsAt1 V c t.val t.isLt = (idleOut1, sA V c t h0 h1) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (idleOut1, sB V c t h0 h1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (oC V c t h0 h1 (outsAt1 V c (t.val - 1) (Nat.lt_of_le_of_lt (Nat.sub_le _ _) t.isLt)).2, sC V c t h0 h1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The three running buffers at the contents `xs`. -/
abbrev scratchAt (c : Dev nD) (xs : Vec F S4x256x1 .f32 × Vec F S4x256x1 .f32 × Vec F S4x256x64 .f32) : sProp 𝕄 :=
  iprop(owns (c : Thread nD τ) scM1_0 fullShare xs.1 ∗ owns (c : Thread nD τ) scM1_1 fullShare xs.2.1 ∗ owns (c : Thread nD τ) scM1_2 fullShare xs.2.2)

/-- The region's invariant before position `n`: before the first point, what the region is handed (the running buffers
    at anything); afterwards the running buffers at what the point before left, the other scoped buffers and the
    generator register as they come. -/
def PhiS1 (c : Dev nD) : (n : ℕ) → n ≤ cfg1.N → sProp 𝕄
  | 0, _ => Pipeline.ΦA spec1 c
  | n + 1, hn => iprop(iprop(scratchAt c (outsAt1 V c n hn).2 ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(scratchAt c (outsAt1 V c n hn).2 ∗ others1 c) ∗ (∃ r, prngReg c r)) := rfl
theorem PhiS1_pos (c : Dev nD) (n : ℕ) (h : n ≤ cfg1.N) (hz : n ≠ 0) :
    PhiS1 V c n h = iprop(iprop(scratchAt c (outsAt1 V c (n - 1) (by omega)).2 ∗ others1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation and the invariant's two ends -/

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the region was handed: the running buffers' named
    contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1, HS2⟩, Hrest⟩, Hg⟩
  isplitl [HS0 HS1 HS2 Hrest]
  · isplitl [HS0 HS1 HS2]
    · isplitl [HS0]; · iexists _; iexact HS0
      isplitl [HS1]; · iexists _; iexact HS1
      iexists _; iexact HS2
    iexact Hrest
  iexact Hg

theorem hout1 (c : Dev nD) : (dat1 V c).Φ (Fin.last cfg1.N) ⊢ Pipeline.ΦA spec1 c :=
  Phi_out1 V c _ (by rw [Fin.val_last]; have : cfg1.N = 512 := N_1; omega)

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

set_option maxHeartbeats 4800000 in
/-- The body at any point: the inputs' memrefs hold their blocks; the point's position among the sixteen key blocks of its
    query block says which case runs; the invariant hands the body the running buffers at what the key block before left
    (at anything at the very first point) and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 512 := lt_of_lt_of_eq t.isLt (show cfg1.N = 512 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 16 = 0
  · have h1 : ¬t.val % 16 = 15 := by omega
    rw [Dat.leavesExact_idle (dat1 V c) 4 t (idleAt1_4 t (fun h => h1 ((hcond1_1 t).mp h))) (noFlush1_4 t (fun h => h1 ((hcond1_1 t).mp h)))]
    rw [outsAt1_A V c t h0 h1]
    unfold sA scratchAt; (try dsimp only)
    by_cases hz : t.val = 0
    · rw [PhiS1_castSucc V c t, PhiS1_zero V c _ _ hz, PhiA1_eq]
      iintro ⟨⟨⟨⟨HS0, HS1, HS2⟩, Hrest⟩, Hg⟩, Ho, ⟨%d0, H0⟩, ⟨%d1, H1⟩, ⟨%d2, H2⟩, ⟨%d3, H3⟩, ⟨%d4, H4⟩⟩
      iapply ((runA V c t h0 h1).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scoverA_0 V c t h0 h1)
            isplitl [HS1]
            · unfold owns; iexists _; isplitr
              swap; · iexact HS1
              ipureintro; exact View.read_writes_of_cover _ _ _ _ _ (scoverA_1 V c t h0 h1)
            unfold owns; iexists _; isplitr
            swap; · iexact HS2
            ipureintro; exact View.read_writes_of_cover _ _ _ _ _ (scoverA_2 V c t h0 h1)
          iexact Hrest
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      unfold scratchAt
      iintro ⟨⟨⟨⟨HS0, HS1, HS2⟩, Hrest⟩, Hg⟩, Ho, ⟨%d0, H0⟩, ⟨%d1, H1⟩, ⟨%d2, H2⟩, ⟨%d3, H3⟩, ⟨%d4, H4⟩⟩
      iapply ((runA V c t h0 h1).2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scoverA_0 V c t h0 h1)
            isplitl [HS1]
            · unfold owns; iexists _; isplitr
              swap; · iexact HS1
              ipureintro; exact View.read_writes_of_cover _ _ _ _ _ (scoverA_1 V c t h0 h1)
            unfold owns; iexists _; isplitr
            swap; · iexact HS2
            ipureintro; exact View.read_writes_of_cover _ _ _ _ _ (scoverA_2 V c t h0 h1)
          iexact Hrest
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 16 = 15
    · rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold oC sC scratchAt; (try dsimp only)
      rw [PhiS1_castSucc V c t, PhiS1_pos V c _ _ hz]
      unfold scratchAt
      iintro ⟨⟨⟨⟨HS0, HS1, HS2⟩, Hrest⟩, Hg⟩, Ho, ⟨%d0, H0⟩, ⟨%d1, H1⟩, ⟨%d2, H2⟩, ⟨%d3, H3⟩, ⟨%d4, H4⟩⟩
      iapply ((runC V c t h0 h1 (outsAt1 V c (t.val - 1) (Nat.lt_of_le_of_lt (Nat.sub_le _ _) t.isLt)).2).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scoverC_0 V c t h0 h1 (outsAt1 V c (t.val - 1) (Nat.lt_of_le_of_lt (Nat.sub_le _ _) t.isLt)).2)
            isplitl [HS1]
            · unfold owns; iexists _; isplitr
              swap; · iexact HS1
              ipureintro; exact View.read_writes_of_cover _ _ _ _ _ (scoverC_1 V c t h0 h1 (outsAt1 V c (t.val - 1) (Nat.lt_of_le_of_lt (Nat.sub_le _ _) t.isLt)).2)
            unfold owns; iexists _; isplitr
            swap; · iexact HS2
            ipureintro; exact View.read_writes_of_cover _ _ _ _ _ (scoverC_2 V c t h0 h1 (outsAt1 V c (t.val - 1) (Nat.lt_of_le_of_lt (Nat.sub_le _ _) t.isLt)).2)
          iexact Hrest
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC_4 V c t h0 h1 (outsAt1 V c (t.val - 1) (Nat.lt_of_le_of_lt (Nat.sub_le _ _) t.isLt)).2)
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold sB scratchAt; (try dsimp only)
      rw [PhiS1_castSucc V c t, PhiS1_pos V c _ _ hz]
      unfold scratchAt
      iintro ⟨⟨⟨⟨HS0, HS1, HS2⟩, Hrest⟩, Hg⟩, Ho, ⟨%d0, H0⟩, ⟨%d1, H1⟩, ⟨%d2, H2⟩, ⟨%d3, H3⟩, ⟨%d4, H4⟩⟩
      iapply ((runB V c t h0 h1 (outsAt1 V c (t.val - 1) (Nat.lt_of_le_of_lt (Nat.sub_le _ _) t.isLt)).2).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scoverB_0 V c t h0 h1 (outsAt1 V c (t.val - 1) (Nat.lt_of_le_of_lt (Nat.sub_le _ _) t.isLt)).2)
            isplitl [HS1]
            · unfold owns; iexists _; isplitr
              swap; · iexact HS1
              ipureintro; exact View.read_writes_of_cover _ _ _ _ _ (scoverB_1 V c t h0 h1 (outsAt1 V c (t.val - 1) (Nat.lt_of_le_of_lt (Nat.sub_le _ _) t.isLt)).2)
            unfold owns; iexists _; isplitr
            swap; · iexact HS2
            ipureintro; exact View.read_writes_of_cover _ _ _ _ _ (scoverB_2 V c t h0 h1 (outsAt1 V c (t.val - 1) (Nat.lt_of_le_of_lt (Nat.sub_le _ _) t.isLt)).2)
          iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Gen

end
-- ==== Proof.Kernel.Run.lean ====
/- The run of @main: a stretch of host operations, two kernel regions entered one from the other, and a last
   stretch of host operations, composed over the buffers' contents at each boundary. -/
import proofs.«150601_j68384469286917_2_alg».proof.Proof.Kernel.Region0
import proofs.«150601_j68384469286917_2_alg».proof.Proof.Kernel.Region1
import proofs.«150601_j68384469286917_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the first stretch of host operations: what region 0 is entered from. -/
abbrev W1 : Dev nD → Valuation τ sig (Elt F) := fun c => StableHlo.after hostOps0 (W0 m ρ c)
/-- The same, read at the TensorCore's references. -/
abbrev T1 : (c : Dev nD) → (b : Ref sig .tc) → Buf (Elt F) ((c : Thread nD τ).loc b) := fun c b => W1 m ρ c b
/-- At region 0's exit: its windows' arrays at what the pipeline leaves, every other buffer as entered. Region 1 is
    entered from these contents. -/
def W2 (c : Dev nD) : Valuation τ sig (Elt F) :=
  Pipeline.withArrays spec0 c (W1 m ρ c) fun w => (dat0 (T1 m ρ) c).arrAt w cfg0.N
theorem W2_arr (c : Dev nD) (w : Fin cfg0.W) :
    W2 m ρ c (Proc.devRef .tc (Pipeline.arrRef spec0 w)) = (dat0 (T1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references. -/
abbrev T2 : (c : Dev nD) → (b : Ref sig .tc) → Buf (Elt F) ((c : Thread nD τ).loc b) := fun c b => W2 m ρ c b
theorem hF0 (c : Dev nD) (w : Fin cfg0.W) : (dat0 (T1 m ρ) c).arrAt w cfg0.N = T2 m ρ c (Pipeline.arrRef spec0 w) :=
  (W2_arr m ρ c w).symm
theorem hrest0 (c : Dev nD) : ∀ b, b ∉ Finset.univ.image (Pipeline.arrRef spec0) → T2 m ρ c b = T1 m ρ c b :=
  fun b hb => W2_of_ne m ρ c b fun w e => hb (Finset.mem_image.mpr ⟨w, Finset.mem_univ _, e⟩)

/-- At region 1's exit: its windows' arrays at what the pipeline leaves, every other buffer as entered. -/
def W3 (c : Dev nD) : Valuation τ sig (Elt F) :=
  Pipeline.withArrays spec1 c (W2 m ρ c) fun w => (dat1 (T2 m ρ) c).arrAt w cfg1.N
theorem W3_arr (c : Dev nD) (w : Fin cfg1.W) :
    W3 m ρ c (Proc.devRef .tc (Pipeline.arrRef spec1 w)) = (dat1 (T2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same, read at the TensorCore's references. -/
abbrev T3 : (c : Dev nD) → (b : Ref sig .tc) → Buf (Elt F) ((c : Thread nD τ).loc b) := fun c b => W3 m ρ c b
theorem hF1 (c : Dev nD) (w : Fin cfg1.W) : (dat1 (T2 m ρ) c).arrAt w cfg1.N = T3 m ρ c (Pipeline.arrRef spec1 w) :=
  (W3_arr m ρ c w).symm
theorem hrest1 (c : Dev nD) : ∀ b, b ∉ Finset.univ.image (Pipeline.arrRef spec1) → T3 m ρ c b = T2 m ρ c b :=
  fun b hb => W3_of_ne m ρ c b fun w e => hb (Finset.mem_image.mpr ⟨w, Finset.mem_univ _, e⟩)

/-- After the last stretch of host operations: the contents at the return. -/
abbrev W4 : Dev nD → Valuation τ sig (Elt F) := fun c => StableHlo.after hostOps2 (W3 m ρ c)

/-! ### What each stretch of host operations leaves alone -/

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W4_of (c : Dev nD) (r : Ref sig .tc) (h : r ∉ hostOps2_W) :
    W4 m ρ c (Proc.devRef .tc r) = W3 m ρ c (Proc.devRef .tc r) :=
  StableHlo.after_of_writes_sub hostOps2 _ hostOps2_writes h
/-- A buffer that no host operation writes and that is no window's array of either region ends as launched. -/
theorem W4_bypass (c : Dev nD) (r : Ref sig .tc) (h4 : r ∉ hostOps2_W) (h3 : ∀ w, Pipeline.arrRef spec1 w ≠ r)
    (h2 : ∀ w, Pipeline.arrRef spec0 w ≠ r) (h1 : r ∉ hostOps0_W) :
    W4 m ρ c (Proc.devRef .tc r) = m ((c : Thread nD τ).loc r) :=
  calc W4 m ρ c (Proc.devRef .tc r)
    _ = W3 m ρ c (Proc.devRef .tc r) := W4_of m ρ c r h4
    _ = W2 m ρ c (Proc.devRef .tc r) := W3_of_ne m ρ c r h3
    _ = W1 m ρ c (Proc.devRef .tc r) := W2_of_ne m ρ c r h2
    _ = W0 m ρ c (Proc.devRef .tc r) := W1_of m ρ c r h1
    _ = m ((c : Thread nD τ).loc r) := rfl

/-! ### The arguments end as launched: an argument is an input window's array (left as entered) or bypasses a region -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of m ρ c main_arg0 (by decide)
    _ = W2 m ρ c (Proc.devRef .tc main_arg0) := W3_of_ne m ρ c main_arg0 (by decide)
    _ = W1 m ρ c (Proc.devRef .tc main_arg0) := (W2_arr m ρ c 0).trans (((dat0 (T1 m ρ) c).arrAt_in 0 rfl _).trans (A_eq0 (T1 m ρ) c 0))
    _ = W0 m ρ c (Proc.devRef .tc main_arg0) := W1_of m ρ c main_arg0 (by decide)
    _ = m ((c : Thread nD τ).loc main_arg0) := rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of m ρ c main_arg1 (by decide)
    _ = W2 m ρ c (Proc.devRef .tc main_arg1) := (W3_arr m ρ c 3).trans (((dat1 (T2 m ρ) c).arrAt_in 3 rfl _).trans (A_eq1 (T2 m ρ) c 3))
    _ = m ((c : Thread nD τ).loc main_arg1) := W2_main_arg1 m ρ c
theorem W4_main_arg2 (c : Dev nD) : W4 m ρ c (Proc.devRef .tc main_arg2) = m ((c : Thread nD τ).loc main_arg2) :=
  W4_bypass m ρ c main_arg2 (by decide) (by decide) (by decide) (by decide)
theorem W4_main_arg3 (c : Dev nD) : W4 m ρ c (Proc.devRef .tc main_arg3) = m ((c : Thread nD τ).loc main_arg3) :=
  W4_bypass m ρ c main_arg3 (by decide) (by decide) (by decide) (by decide)
theorem W4_main_arg4 (c : Dev nD) : W4 m ρ c (Proc.devRef .tc main_arg4) = m ((c : Thread nD τ).loc main_arg4) :=
  W4_bypass m ρ c main_arg4 (by decide) (by decide) (by decide) (by decide)
theorem W4_main_arg5 (c : Dev nD) : W4 m ρ c (Proc.devRef .tc main_arg5) = m ((c : Thread nD τ).loc main_arg5) :=
  W4_bypass m ρ c main_arg5 (by decide) (by decide) (by decide) (by decide)
theorem W4_main_arg6 (c : Dev nD) : W4 m ρ c (Proc.devRef .tc main_arg6) = m ((c : Thread nD τ).loc main_arg6) :=
  W4_bypass m ρ c main_arg6 (by decide) (by decide) (by decide) (by decide)
theorem W4_main_arg7 (c : Dev nD) : W4 m ρ c (Proc.devRef .tc main_arg7) = m ((c : Thread nD τ).loc main_arg7) :=
  W4_bypass m ρ c main_arg7 (by decide) (by decide) (by decide) (by decide)

/-! ### What the later segments read -/

/-- Region 1's output window is the array the last host operations read. -/
theorem W3_main_v10 (c : Dev nD) : W3 m ρ c (Proc.devRef .tc main_v10) = (dat1 (T2 m ρ) c).arrAt 4 cfg1.N :=
  W3_arr m ρ c 4
/-- Region 0's three output windows are region 1's first three inputs. -/
theorem V2_main_v9_0 (c : Dev nD) : T2 m ρ c main_v9_0 = (dat0 (T1 m ρ) c).arrAt 7 cfg0.N := W2_arr m ρ c 7
theorem V2_main_v9_1 (c : Dev nD) : T2 m ρ c main_v9_1 = (dat0 (T1 m ρ) c).arrAt 8 cfg0.N := W2_arr m ρ c 8
theorem V2_main_v9_2 (c : Dev nD) : T2 m ρ c main_v9_2 = (dat0 (T1 m ρ) c).arrAt 9 cfg0.N := W2_arr m ρ c 9
/-- The integer array bypasses the first host operations and region 0. -/
theorem V2_main_arg1 (c : Dev nD) : T2 m ρ c main_arg1 = m ((c : Thread nD τ).loc main_arg1) := W2_main_arg1 m ρ c

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (T1 m ρ) c
  | ⟨1, _⟩ => fun c => dat1 (T2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the generator register. -/
abbrev Tₙ (c : Dev nD) : sProp 𝕄 := iprop(StableHlo.held (c : Thread nD τ) (Pipeline.ucRefs τ sig) (W4 m ρ c) ∗ ∃ r, prngReg c r)

/-! ## The regions as segments -/

-- unifying a library lemma stated over the pinned configuration with the printed one takes unfolding plain
-- definitions in a metavariable's type
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (T1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (T1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (T1 m ρ c) (T2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one takes unfolding plain
-- definitions in a metavariable's type
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (T2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (T2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (T2 m ρ) c).Φ 0 from rfl]
    refine .trans ?_ (hin1 (T2 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (T2 m ρ) c).Φ (Fin.last cfg1.N) from rfl]
    refine (hout1 (T2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (T2 m ρ c) (T3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev rsegs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (rsegs m ρ) := (main_chain c).trans (by chain_rfl)

set_option backward.isDefEq.respectTransparency.types false in
/-- Every weakly fair execution of @main terminates, and every final state holds each unscoped buffer at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (rsegs m ρ)
    (fun c Q => by rw [main_run m ρ c])
    (by simp only [rsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c)⟩) (run_all m ρ)

/-- The run with the result array named: it ends at the last boundary's contents, and the arguments as launched. -/
theorem run_value : θ_run defs (onTc (τ := τ) (main (F := F))) ⟨m, fun _ => 0, ρ⟩ (fun r => ∀ c : Dev nD,
      r.2.mem ((c.tc : Thread nD τ).loc main_v12) = W4 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨h c _ (mem_uc main_v12 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c)⟩) (run_all m ρ)

end Cert.Kernel.Gen

end
-- ==== Proof.KernelIdeal.Region0.lean ====
/- The frame half of the first region of the program: the projection kernel, which at each of its eight grid
   points multiplies a block of 1024 rows of the input by each head's three weight matrices, adds the head's bias row
   and stores the rounded result into the head's slab of the three output blocks. Everything here is stated at a
   parameter `V`, the buffer contents when the region is entered, and at any float instance. -/
import proofs.«150601_j68384469286917_2_alg».proof.Proof.Gen.KernelIdeal.Launch
import proofs.«150601_j68384469286917_2_alg».proof.Proof.Gen.KernelIdeal.Skeleton
import proofs.«150601_j68384469286917_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether or not it was fetched there (a window
    whose block index does not move keeps the block it was given at the first point), for any proof data whose array
    is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether or not it was fetched there (a window
    whose block index does not move keeps the block it was given at the first point), for any proof data whose array
    is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether or not it was fetched there (a window
    whose block index does not move keeps the block it was given at the first point), for any proof data whose array
    is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, whether or not it was fetched there (a window
    whose block index does not move keeps the block it was given at the first point), for any proof data whose array
    is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, whether or not it was fetched there (a window
    whose block index does not move keeps the block it was given at the first point), for any proof data whose array
    is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, whether or not it was fetched there (a window
    whose block index does not move keeps the block it was given at the first point), for any proof data whose array
    is `V`'s and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's staging buffer holds its block at every point, whether or not it was fetched there (a window
    whose block index does not move keeps the block it was given at the first point), for any proof data whose array
    is `V`'s and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: the whole input block, and per head `h` the head's weight slab, bias row and output slab -/

abbrev r0_x : Rect S1024x256 := Rect.unit (s := S1024x256) ![0, 0] S1024x256.size inb_S1024x256_S1024x256_0_0
abbrev r0_w0 : Rect S4x256x64 := Rect.unit (s := S4x256x64) ![0, 0, 0] S1x256x64.size inb_S4x256x64_S1x256x64_0_0_0
abbrev r0_b0 : Rect S4x1x64 := Rect.unit (s := S4x1x64) ![0, 0, 0] S1x1x64.size inb_S4x1x64_S1x1x64_0_0_0
abbrev r0_o0 : Rect S4x1024x64 := Rect.unit (s := S4x1024x64) ![0, 0, 0] S1x1024x64.size inb_S4x1024x64_S1x1024x64_0_0_0
abbrev r0_w1 : Rect S4x256x64 := Rect.unit (s := S4x256x64) ![1, 0, 0] S1x256x64.size inb_S4x256x64_S1x256x64_1_0_0
abbrev r0_b1 : Rect S4x1x64 := Rect.unit (s := S4x1x64) ![1, 0, 0] S1x1x64.size inb_S4x1x64_S1x1x64_1_0_0
abbrev r0_o1 : Rect S4x1024x64 := Rect.unit (s := S4x1024x64) ![1, 0, 0] S1x1024x64.size inb_S4x1024x64_S1x1024x64_1_0_0
abbrev r0_w2 : Rect S4x256x64 := Rect.unit (s := S4x256x64) ![2, 0, 0] S1x256x64.size inb_S4x256x64_S1x256x64_2_0_0
abbrev r0_b2 : Rect S4x1x64 := Rect.unit (s := S4x1x64) ![2, 0, 0] S1x1x64.size inb_S4x1x64_S1x1x64_2_0_0
abbrev r0_o2 : Rect S4x1024x64 := Rect.unit (s := S4x1024x64) ![2, 0, 0] S1x1024x64.size inb_S4x1024x64_S1x1024x64_2_0_0
abbrev r0_w3 : Rect S4x256x64 := Rect.unit (s := S4x256x64) ![3, 0, 0] S1x256x64.size inb_S4x256x64_S1x256x64_3_0_0
abbrev r0_b3 : Rect S4x1x64 := Rect.unit (s := S4x1x64) ![3, 0, 0] S1x1x64.size inb_S4x1x64_S1x1x64_3_0_0
abbrev r0_o3 : Rect S4x1024x64 := Rect.unit (s := S4x1024x64) ![3, 0, 0] S1x1024x64.size inb_S4x1024x64_S1x1024x64_3_0_0

/-! ## What the body leaves in each output window's buffer

Each output buffer receives four stores, one per head, into the head's [1,1024,64] slab; listed last store first.
The stored value of head `h` is the rounded `x · W_h + b_h` of the loaded input block, weight slab and bias row. -/

/-- The first output (the queries): from the input block `x0`, the first weight array `x1` and its biases `x2`. -/
def out0_7 (x0 : Vec F S1024x256 .f32) (x1 : Vec F S4x256x64 .f32) (x2 : Vec F S4x1x64 .f32) : Vec F S4x1024x64 .bf16 :=
  View.canon [⟨r0_o3, k0_pay1 (k0_pay4 (View.ld x0 r0_x)) (k0_pay24 (View.ld x1 r0_w3)) (k0_pay27 (View.ld x2 r0_b3))⟩,
    ⟨r0_o2, k0_pay21 (k0_pay20 (k0_pay4 (View.ld x0 r0_x)) (View.ld x1 r0_w2) (View.ld x2 r0_b2))⟩,
    ⟨r0_o1, k0_pay13 (k0_pay12 (k0_pay4 (View.ld x0 r0_x)) (View.ld x1 r0_w1) (View.ld x2 r0_b1))⟩,
    ⟨r0_o0, k0_pay6 (View.ld x0 r0_x) (View.ld x1 r0_w0) (View.ld x2 r0_b0)⟩]

/-- The second output (the keys): from the input block `x0`, the second weight array `x3` and its biases `x4`. -/
def out0_8 (x0 : Vec F S1024x256 .f32) (x3 : Vec F S4x256x64 .f32) (x4 : Vec F S4x1x64 .f32) : Vec F S4x1024x64 .bf16 :=
  View.canon [⟨r0_o3, k0_pay2 (k0_pay4 (View.ld x0 r0_x)) (k0_pay25 (View.ld x3 r0_w3)) (k0_pay28 (View.ld x4 r0_b3))⟩,
    ⟨r0_o2, k0_pay22 (k0_pay4 (View.ld x0 r0_x)) (k0_pay16 (View.ld x3 r0_w2)) (k0_pay18 (View.ld x4 r0_b2))⟩,
    ⟨r0_o1, k0_pay14 (k0_pay10 (k0_pay4 (View.ld x0 r0_x)) (View.ld x3 r0_w1) (View.ld x4 r0_b1))⟩,
    ⟨r0_o0, k0_pay8 (k0_pay7 (View.ld x0 r0_x) (View.ld x3 r0_w0) (View.ld x4 r0_b0))⟩]

/-- The third output (the values): from the input block `x0`, the third weight array `x5` and its biases `x6`. -/
def out0_9 (x0 : Vec F S1024x256 .f32) (x5 : Vec F S4x256x64 .f32) (x6 : Vec F S4x1x64 .f32) : Vec F S4x1024x64 .bf16 :=
  View.canon [⟨r0_o3, k0_pay3 (k0_pay4 (View.ld x0 r0_x)) (k0_pay26 (View.ld x5 r0_w3)) (View.ld x6 r0_b3)⟩,
    ⟨r0_o2, k0_pay23 (k0_pay4 (View.ld x0 r0_x)) (k0_pay17 (View.ld x5 r0_w2)) (k0_pay19 (View.ld x6 r0_b2))⟩,
    ⟨r0_o1, k0_pay15 (k0_pay11 (k0_pay4 (View.ld x0 r0_x)) (View.ld x5 r0_w1) (View.ld x6 r0_b1))⟩,
    ⟨r0_o0, k0_pay9 (k0_pay5 (View.ld x0 r0_x) (View.ld x5 r0_w0) (View.ld x6 r0_b0))⟩]

/-- The four head slabs tile an output buffer (checked by evaluation), so they cover it. -/
theorem cover0_o (p3 p2 p1 p0 : Vec F S1x1024x64 .bf16) (y : S4x1024x64.Idx) :
    ∃ pc ∈ ([⟨r0_o3, p3⟩, ⟨r0_o2, p2⟩, ⟨r0_o1, p1⟩, ⟨r0_o0, p0⟩] : List (View.Piece (Elt F) S4x1024x64 .bf16)), y ∈ pc.1.set :=
  View.cover_of_tiled [⟨r0_o3, p3⟩, ⟨r0_o2, p2⟩, ⟨r0_o1, p1⟩, ⟨r0_o0, p0⟩] S1x1024x64.size (by rfl) y

/-! ## The body's triple -/

set_option maxHeartbeats 4000000 in
/-- The kernel body on whole staging memrefs, the inputs' at read contents `xW` and the outputs' at anything, runs to
    the continuation holding the inputs' as they were and each output's at `out0_W` of the inputs'. The loads the body
    makes of an output slab before storing into it are never used. -/
theorem sound_kernel0 (c : Dev nD) (E : Set ℕ) (i : grid0.Coords) (arg0 : Memref sig .tc .vmem S1024x256 .f32) (harg0 : arg0.IsWhole) (arg1 : Memref sig .tc .vmem S4x256x64 .f32) (harg1 : arg1.IsWhole) (arg2 : Memref sig .tc .vmem S4x1x64 .f32) (harg2 : arg2.IsWhole) (arg3 : Memref sig .tc .vmem S4x256x64 .f32) (harg3 : arg3.IsWhole) (arg4 : Memref sig .tc .vmem S4x1x64 .f32) (harg4 : arg4.IsWhole) (arg5 : Memref sig .tc .vmem S4x256x64 .f32) (harg5 : arg5.IsWhole) (arg6 : Memref sig .tc .vmem S4x1x64 .f32) (harg6 : arg6.IsWhole) (arg7 : Memref sig .tc .vmem S4x1024x64 .bf16) (harg7 : arg7.IsWhole) (arg8 : Memref sig .tc .vmem S4x1024x64 .bf16) (harg8 : arg8.IsWhole) (arg9 : Memref sig .tc .vmem S4x1024x64 .bf16) (harg9 : arg9.IsWhole)
    (x0 : Vec F S1024x256 .f32) (x1 : Vec F S4x256x64 .f32) (x2 : Vec F S4x1x64 .f32) (x3 : Vec F S4x256x64 .f32) (x4 : Vec F S4x1x64 .f32) (x5 : Vec F S4x256x64 .f32) (x6 : Vec F S4x1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare (out0_7 x0 x1 x2) ∗ owns (c : Thread nD τ) arg8 fullShare (out0_8 x0 x3 x4) ∗ owns (c : Thread nD τ) arg9 fullShare (out0_9 x0 x5 x6)) -∗ K ⟨⟩))
      ⊢ wp frame (wpE (defs₀ (F := F)) Variants.none c none) E (cc0__qkv_kernel i arg0 harg0 arg1 harg1 arg2 harg2 arg3 harg3 arg4 harg4 arg5 harg5 arg6 harg6 arg7 harg7 arg8 harg8 arg9 harg9) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_o _ _ _ _)
  isplitl [H8]
  · iexists _; isplitr
    swap; · iexact H8
    ipureintro
    exact View.read_writes_eq_canon _ _ _ (cover0_o _ _ _ _)
  iexists _; isplitr
  swap; · iexact H9
  ipureintro
  exact View.read_writes_eq_canon _ _ _ (cover0_o _ _ _ _)

/-! ## The pipeline's proof data -/

/-- The proof data of this pipeline on core `c`: the arrays as the region finds them; after the body at point `t` each
    input's buffer at its block and each output's at `out0_W` of the input blocks; the invariant that of a body which
    keeps nothing from point to point; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t)
    | ⟨8, _⟩ => out0_8 (iblk0 V c 0 t) (iblk0 V c 3 t) (iblk0 V c 4 t)
    | ⟨9, _⟩ => out0_9 (iblk0 V c 0 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) := by dsimp only [dat0]
theorem after0_8 (c : Dev nD) (t : Fin cfg0.N) : (dat0 V c).after 8 t = out0_8 (iblk0 V c 0 t) (iblk0 V c 3 t) (iblk0 V c 4 t) := by dsimp only [dat0]
theorem after0_9 (c : Dev nD) (t : Fin cfg0.N) : (dat0 V c).after 9 t = out0_9 (iblk0 V c 0 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 1000000 in
/-- The body at any point: the inputs' memrefs hold their blocks, so the body's triple applies; the invariant and the
    core's owed count pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Gen

end
-- ==== Proof.KernelIdeal.Region1Runs.lean ====
/-
  The attention kernel (the second region) at one grid point (query block qi, key block ki): which of its two
  conditionals are taken, where its output block is idle, and the kernel's own three buffers — the running row maximum,
  the running normaliser and the running weighted sum — which it keeps from one key block to the next.
-/
import proofs.«150601_j68384469286917_2_alg».proof.Proof.Gen.KernelIdeal.Launch
import proofs.«150601_j68384469286917_2_alg».proof.Proof.Gen.KernelIdeal.Skeleton
import proofs.«150601_j68384469286917_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals, from the grid coordinates -/

/-- "This is the first key block of its query block" (ki = 0): the running buffers are reset. -/
abbrev cond1_0 (i : grid1.Coords) : Prop := (Scalar.cmpi .ne (Scalar.extui (Scalar.cmpi .eq (BitVec.ofNat 32 (i 1).val) 0#32)) 0#32) = 1#1
/-- It holds at the points ≡ 0 (mod 16): the grid is 32 query blocks by 16 key blocks, key block innermost. -/
theorem hcond1_0 : ∀ t : Fin cfg1.N, cond1_0 (grid1.coords t) ↔ t.val % 16 = 0 :=
  (by decide +kernel : ∀ t : Fin grid1.N, cond1_0 (grid1.coords t) ↔ t.val % 16 = 0)

/-- "This is the last key block" (ki = 15): the weighted sum is divided by the normaliser and stored. -/
abbrev cond1_1 (i : grid1.Coords) : Prop := k1_cond2 i = 1#1
/-- It holds at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last key block nothing is stored into the output block: it is idle there, -/
theorem idleAt1_4 : ∀ t : Fin cfg1.N, ¬cond1_1 (grid1.coords t) → cfg1.idle 4 (grid1.coords t) = true := by decide +kernel
/-- and not written back. -/
theorem noFlush1_4 : ∀ t : Fin cfg1.N, ¬cond1_1 (grid1.coords t) → (cfg1.win 4).flush t = false := by decide +kernel
/-- At the last key block it is live. -/
theorem liveAt1_4 : ∀ t : Fin cfg1.N, cond1_1 (grid1.coords t) → cfg1.idle 4 (grid1.coords t) = false := by decide +kernel

/-! ## The memrefs the body is called with -/

abbrev ms1_0 (t : Fin cfg1.N) : Memref sig .tc .vmem S4x256x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4x8192x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x8192x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x256 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S4x256x64 .f32 := win1_4.stage (cfg1.slots t 4)
abbrev hs1_4 (t : Fin cfg1.N) : (ms1_4 t).IsWhole := hstage1_4 ((cfg1.slots t 4).cast nbuf1_4)
/-- The running row maximum, the running normaliser, the running weighted sum: whole buffers of the kernel's own. -/
abbrev scM1_0 : Memref sig .tc .vmem S4x256x1 .f32 := Memref.whole cc1_scratch0
abbrev scM1_1 : Memref sig .tc .vmem S4x256x1 .f32 := Memref.whole cc1_scratch1
abbrev scM1_2 : Memref sig .tc .vmem S4x256x64 .f32 := Memref.whole cc1_scratch2
abbrev VS1_0 : View sig .tc .vmem S4x256x1 .f32 := scM1_0.view
abbrev VS1_1 : View sig .tc .vmem S4x256x1 .f32 := scM1_1.view
abbrev VS1_2 : View sig .tc .vmem S4x256x64 .f32 := scM1_2.view
/-- One staging buffer of the output window, through which its contents are stated. -/
abbrev VO1_4 : View sig .tc .vmem S4x256x64 .f32 := (Memref.whole cc1_stg4_0 : Memref sig .tc .vmem S4x256x64 .f32).view

/-- The core's other scoped buffers (the first region's staging buffers), which this kernel never touches. -/
abbrev others1 (c : Dev nD) : sProp 𝕄 :=
  Pipeline.scopedRestBut (Ix := Unit) (Name := ℕ) (U := UR sig nD τ) (Lvl := ℕ) (Val := Elt F) spec1 c [cc1_scratch0, cc1_scratch1, cc1_scratch2]

/-- What the region is handed: the three running buffers at anything, the other scoped buffers, the generator register. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d)) ∗ others1 c) ∗ (∃ r, prngReg c r)) := by
  unfold Pipeline.ΦA
  rw [Pipeline.scopedRest_split_of_list spec1 c [cc1_scratch0, cc1_scratch1, cc1_scratch2] (by decide) (by decide)]
  simp only [scM1_0, scM1_1, scM1_2, owns_whole]
  rfl

end Cert.KernelIdeal.Gen

end
-- ==== Proof.KernelIdeal.Region1RunA.lean ====
/-
  The attention kernel's body at the FIRST key block of a query block (ki = 0): the three running buffers are reset
  to (−∞, 0, 0) whatever they held, then updated with this key block; the output block is left as it was.
-/
import proofs.«150601_j68384469286917_2_alg».proof.Proof.KernelIdeal.Region1Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in each running buffer, as pieces (last first), with the triple: the inputs and the
    idle output block handed back as they were. -/
noncomputable def kernelRun1_A (c : Dev nD) (i : grid1.Coords) (arg2 : Memref sig .tc .vmem S4x256x64 .bf16) (harg2 : arg2.IsWhole) (arg3 : Memref sig .tc .vmem S4x8192x64 .bf16) (harg3 : arg3.IsWhole) (arg4 : Memref sig .tc .vmem S4x8192x64 .bf16) (harg4 : arg4.IsWhole) (arg5 : Memref sig .tc .vmem S512x256 .i32) (harg5 : arg5.IsWhole) (arg6 : Memref sig .tc .vmem S4x256x64 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x64 .f32) (harg9 : arg9.IsWhole)
    (hc0 : cond1_0 i) (hc1 : ¬cond1_1 i) (x0 : Vec F S4x256x64 .bf16) (x1 : Vec F S4x8192x64 .bf16) (x2 : Vec F S4x8192x64 .bf16) (x3 : Vec F S512x256 .i32) :
    Σ' (LS0 : List (View.Piece (Elt F) S4x256x1 .f32)) (LS1 : List (View.Piece (Elt F) S4x256x1 .f32)), { LS2 : List (View.Piece (Elt F) S4x256x64 .f32) //
      ∀ (xi4 : Vec F S4x256x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8 arg9 harg9) K } := by
  refine ⟨?_, ?_, ?_, fun xi4 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Gen

end
-- ==== Proof.KernelIdeal.Region1RunB.lean ====
/-
  The attention kernel's body at a MIDDLE key block (0 < ki < 15): the three running buffers, at what the key block
  before left, are updated with this key block; the output block is left as it was.
-/
import proofs.«150601_j68384469286917_2_alg».proof.Proof.KernelIdeal.Region1RunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S4x256x64 .bf16) (harg2 : arg2.IsWhole) (arg3 : Memref sig .tc .vmem S4x8192x64 .bf16) (harg3 : arg3.IsWhole) (arg4 : Memref sig .tc .vmem S4x8192x64 .bf16) (harg4 : arg4.IsWhole) (arg5 : Memref sig .tc .vmem S512x256 .i32) (harg5 : arg5.IsWhole) (arg6 : Memref sig .tc .vmem S4x256x64 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x64 .f32) (harg9 : arg9.IsWhole)
    (hc0 : ¬cond1_0 i) (hc1 : ¬cond1_1 i) (x0 : Vec F S4x256x64 .bf16) (x1 : Vec F S4x8192x64 .bf16) (x2 : Vec F S4x8192x64 .bf16) (x3 : Vec F S512x256 .i32) (xs0 : Vec F S4x256x1 .f32) (xs1 : Vec F S4x256x1 .f32) (xs2 : Vec F S4x256x64 .f32) :
    Σ' (LS0 : List (View.Piece (Elt F) S4x256x1 .f32)) (LS1 : List (View.Piece (Elt F) S4x256x1 .f32)), { LS2 : List (View.Piece (Elt F) S4x256x64 .f32) //
      ∀ (xi4 : Vec F S4x256x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8 arg9 harg9) K } := by
  refine ⟨?_, ?_, ?_, fun xi4 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Gen

end
-- ==== Proof.KernelIdeal.Region1RunC.lean ====
/-
  The attention kernel's body at the LAST key block (ki = 15): the three running buffers are updated with this key
  block, and the weighted sum divided by the normaliser is stored into the output block.
-/
import proofs.«150601_j68384469286917_2_alg».proof.Proof.KernelIdeal.Region1RunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S4x256x64 .bf16) (harg2 : arg2.IsWhole) (arg3 : Memref sig .tc .vmem S4x8192x64 .bf16) (harg3 : arg3.IsWhole) (arg4 : Memref sig .tc .vmem S4x8192x64 .bf16) (harg4 : arg4.IsWhole) (arg5 : Memref sig .tc .vmem S512x256 .i32) (harg5 : arg5.IsWhole) (arg6 : Memref sig .tc .vmem S4x256x64 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x64 .f32) (harg9 : arg9.IsWhole)
    (hc0 : ¬cond1_0 i) (hc1 : cond1_1 i) (x0 : Vec F S4x256x64 .bf16) (x1 : Vec F S4x8192x64 .bf16) (x2 : Vec F S4x8192x64 .bf16) (x3 : Vec F S512x256 .i32) (xs0 : Vec F S4x256x1 .f32) (xs1 : Vec F S4x256x1 .f32) (xs2 : Vec F S4x256x64 .f32) :
    Σ' (L4 : List (View.Piece (Elt F) S4x256x64 .f32)) (LS0 : List (View.Piece (Elt F) S4x256x1 .f32)) (LS1 : List (View.Piece (Elt F) S4x256x1 .f32)), { LS2 : List (View.Piece (Elt F) S4x256x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8 arg9 harg9) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.KernelIdeal.Gen

end
-- ==== Proof.KernelIdeal.Region1.lean ====
/-
  The attention region's proof data. For each grid point: which case of the body runs there, what the three running
  buffers (row maximum, normaliser, weighted sum) hold afterwards — by recursion on the point, each key block updating
  what the key block before left, the first key block of a query block starting afresh — and, at the last key block,
  what is stored into the output block. The region's invariant carries the running buffers at those contents.
-/
import proofs.«150601_j68384469286917_2_alg».proof.Proof.KernelIdeal.Region1RunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The three cases at a point -/

/-- The body's run at a first key block. -/
def runA (c : Dev nD) (t : Fin cfg1.N) (h0 : t.val % 16 = 0) (h1 : ¬t.val % 16 = 15) :=
  kernelRun1_A (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)
/-- The body's run at a middle key block, from the running buffers `xs`. -/
def runB (c : Dev nD) (t : Fin cfg1.N) (h0 : ¬t.val % 16 = 0) (h1 : ¬t.val % 16 = 15) (xs : Vec F S4x256x1 .f32 × Vec F S4x256x1 .f32 × Vec F S4x256x64 .f32) :=
  kernelRun1_B (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) xs.1 xs.2.1 xs.2.2
/-- The body's run at the last key block, from the running buffers `xs`. -/
def runC (c : Dev nD) (t : Fin cfg1.N) (h0 : ¬t.val % 16 = 0) (h1 : t.val % 16 = 15) (xs : Vec F S4x256x1 .f32 × Vec F S4x256x1 .f32 × Vec F S4x256x64 .f32) :=
  kernelRun1_C (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) xs.1 xs.2.1 xs.2.2

/-- What each case leaves in the three running buffers: its stores read back. -/
def sA (c : Dev nD) (t : Fin cfg1.N) (h0 : t.val % 16 = 0) (h1 : ¬t.val % 16 = 15) : Vec F S4x256x1 .f32 × Vec F S4x256x1 .f32 × Vec F S4x256x64 .f32 :=
  (VS1_0.read (Elt F) (VS1_0.writes (Elt F) VS1_0.junk (runA V c t h0 h1).1), VS1_1.read (Elt F) (VS1_1.writes (Elt F) VS1_1.junk (runA V c t h0 h1).2.1), VS1_2.read (Elt F) (VS1_2.writes (Elt F) VS1_2.junk (runA V c t h0 h1).2.2.1))
def sB (c : Dev nD) (t : Fin cfg1.N) (h0 : ¬t.val % 16 = 0) (h1 : ¬t.val % 16 = 15) (xs : Vec F S4x256x1 .f32 × Vec F S4x256x1 .f32 × Vec F S4x256x64 .f32) : Vec F S4x256x1 .f32 × Vec F S4x256x1 .f32 × Vec F S4x256x64 .f32 :=
  (VS1_0.read (Elt F) (VS1_0.writes (Elt F) VS1_0.junk (runB V c t h0 h1 xs).1), VS1_1.read (Elt F) (VS1_1.writes (Elt F) VS1_1.junk (runB V c t h0 h1 xs).2.1), VS1_2.read (Elt F) (VS1_2.writes (Elt F) VS1_2.junk (runB V c t h0 h1 xs).2.2.1))
def sC (c : Dev nD) (t : Fin cfg1.N) (h0 : ¬t.val % 16 = 0) (h1 : t.val % 16 = 15) (xs : Vec F S4x256x1 .f32 × Vec F S4x256x1 .f32 × Vec F S4x256x64 .f32) : Vec F S4x256x1 .f32 × Vec F S4x256x1 .f32 × Vec F S4x256x64 .f32 :=
  (VS1_0.read (Elt F) (VS1_0.writes (Elt F) VS1_0.junk (runC V c t h0 h1 xs).2.1), VS1_1.read (Elt F) (VS1_1.writes (Elt F) VS1_1.junk (runC V c t h0 h1 xs).2.2.1), VS1_2.read (Elt F) (VS1_2.writes (Elt F) VS1_2.junk (runC V c t h0 h1 xs).2.2.2.1))
/-- What the last key block stores into the output block. -/
def oC (c : Dev nD) (t : Fin cfg1.N) (h0 : ¬t.val % 16 = 0) (h1 : t.val % 16 = 15) (xs : Vec F S4x256x1 .f32 × Vec F S4x256x1 .f32 × Vec F S4x256x64 .f32) : Vec F S4x256x64 .f32 :=
  VO1_4.read (Elt F) (VO1_4.writes (Elt F) VO1_4.junk (runC V c t h0 h1 xs).1)
/-- A placeholder for the output block at the points that do not store into it (it is idle there: nothing reads this). -/
def idleOut1 : Vec F S4x256x64 .f32 := VO1_4.read (Elt F) (VO1_4.writes (Elt F) VO1_4.junk [])

/-! Each case's stores tile the buffer they go to (every store is of the whole buffer). -/
theorem scoverA_0 (c : Dev nD) (t : Fin cfg1.N) (h0 : t.val % 16 = 0) (h1 : ¬t.val % 16 = 15) (y : S4x256x1.Idx) :
    ∃ pc ∈ (runA V c t h0 h1).1, y ∈ pc.1.set :=
  View.cover_of_tiledL (runA V c t h0 h1).1 S4x256x1.size (by sl_kernel_rfl) y

theorem scoverA_1 (c : Dev nD) (t : Fin cfg1.N) (h0 : t.val % 16 = 0) (h1 : ¬t.val % 16 = 15) (y : S4x256x1.Idx) :
    ∃ pc ∈ (runA V c t h0 h1).2.1, y ∈ pc.1.set :=
  View.cover_of_tiledL (runA V c t h0 h1).2.1 S4x256x1.size (by sl_kernel_rfl) y

theorem scoverA_2 (c : Dev nD) (t : Fin cfg1.N) (h0 : t.val % 16 = 0) (h1 : ¬t.val % 16 = 15) (y : S4x256x64.Idx) :
    ∃ pc ∈ (runA V c t h0 h1).2.2.1, y ∈ pc.1.set :=
  View.cover_of_tiledL (runA V c t h0 h1).2.2.1 S4x256x64.size (by sl_kernel_rfl) y

theorem scoverB_0 (c : Dev nD) (t : Fin cfg1.N) (h0 : ¬t.val % 16 = 0) (h1 : ¬t.val % 16 = 15) (xs : Vec F S4x256x1 .f32 × Vec F S4x256x1 .f32 × Vec F S4x256x64 .f32) (y : S4x256x1.Idx) :
    ∃ pc ∈ (runB V c t h0 h1 xs).1, y ∈ pc.1.set :=
  View.cover_of_tiledL (runB V c t h0 h1 xs).1 S4x256x1.size (by sl_kernel_rfl) y

theorem scoverB_1 (c : Dev nD) (t : Fin cfg1.N) (h0 : ¬t.val % 16 = 0) (h1 : ¬t.val % 16 = 15) (xs : Vec F S4x256x1 .f32 × Vec F S4x256x1 .f32 × Vec F S4x256x64 .f32) (y : S4x256x1.Idx) :
    ∃ pc ∈ (runB V c t h0 h1 xs).2.1, y ∈ pc.1.set :=
  View.cover_of_tiledL (runB V c t h0 h1 xs).2.1 S4x256x1.size (by sl_kernel_rfl) y

theorem scoverB_2 (c : Dev nD) (t : Fin cfg1.N) (h0 : ¬t.val % 16 = 0) (h1 : ¬t.val % 16 = 15) (xs : Vec F S4x256x1 .f32 × Vec F S4x256x1 .f32 × Vec F S4x256x64 .f32) (y : S4x256x64.Idx) :
    ∃ pc ∈ (runB V c t h0 h1 xs).2.2.1, y ∈ pc.1.set :=
  View.cover_of_tiledL (runB V c t h0 h1 xs).2.2.1 S4x256x64.size (by sl_kernel_rfl) y

theorem coverC_4 (c : Dev nD) (t : Fin cfg1.N) (h0 : ¬t.val % 16 = 0) (h1 : t.val % 16 = 15) (xs : Vec F S4x256x1 .f32 × Vec F S4x256x1 .f32 × Vec F S4x256x64 .f32) (y : S4x256x64.Idx) :
    ∃ pc ∈ (runC V c t h0 h1 xs).1, y ∈ pc.1.set :=
  View.cover_of_tiledL (runC V c t h0 h1 xs).1 S4x256x64.size (by sl_kernel_rfl) y

theorem scoverC_0 (c : Dev nD) (t : Fin cfg1.N) (h0 : ¬t.val % 16 = 0) (h1 : t.val % 16 = 15) (xs : Vec F S4x256x1 .f32 × Vec F S4x256x1 .f32 × Vec F S4x256x64 .f32) (y : S4x256x1.Idx) :
    ∃ pc ∈ (runC V c t h0 h1 xs).2.1, y ∈ pc.1.set :=
  View.cover_of_tiledL (runC V c t h0 h1 xs).2.1 S4x256x1.size (by sl_kernel_rfl) y

theorem scoverC_1 (c : Dev nD) (t : Fin cfg1.N) (h0 : ¬t.val % 16 = 0) (h1 : t.val % 16 = 15) (xs : Vec F S4x256x1 .f32 × Vec F S4x256x1 .f32 × Vec F S4x256x64 .f32) (y : S4x256x1.Idx) :
    ∃ pc ∈ (runC V c t h0 h1 xs).2.2.1, y ∈ pc.1.set :=
  View.cover_of_tiledL (runC V c t h0 h1 xs).2.2.1 S4x256x1.size (by sl_kernel_rfl) y

theorem scoverC_2 (c : Dev nD) (t : Fin cfg1.N) (h0 : ¬t.val % 16 = 0) (h1 : t.val % 16 = 15) (xs : Vec F S4x256x1 .f32 × Vec F S4x256x1 .f32 × Vec F S4x256x64 .f32) (y : S4x256x64.Idx) :
    ∃ pc ∈ (runC V c t h0 h1 xs).2.2.2.1, y ∈ pc.1.set :=
  View.cover_of_tiledL (runC V c t h0 h1 xs).2.2.2.1 S4x256x64.size (by sl_kernel_rfl) y

/-! ## What the buffers hold after each point -/

/-- After point `n`: the output block's buffer, then the three running buffers. -/
def outsAt1 (c : Dev nD) : (n : ℕ) → n < cfg1.N → Vec F S4x256x64 .f32 × Vec F S4x256x1 .f32 × Vec F S4x256x1 .f32 × Vec F S4x256x64 .f32
  | 0, hn => (idleOut1, sA V c ⟨0, hn⟩ (Nat.zero_mod _) (show ¬ (0 % 16 = 15) by decide))
  | n + 1, hn =>
    if h0 : (n + 1) % 16 = 0 then
      if h1 : (n + 1) % 16 = 15 then False.elim (by omega)
      else (idleOut1, sA V c ⟨n + 1, hn⟩ h0 h1)
    else
      if h1 : (n + 1) % 16 = 15 then
        (oC V c ⟨n + 1, hn⟩ h0 h1 (outsAt1 c n (Nat.lt_of_succ_lt hn)).2, sC V c ⟨n + 1, hn⟩ h0 h1 (outsAt1 c n (Nat.lt_of_succ_lt hn)).2)
      else (idleOut1, sB V c ⟨n + 1, hn⟩ h0 h1 (outsAt1 c n (Nat.lt_of_succ_lt hn)).2)

theorem outsAt1_A (c : Dev nD) (t : Fin cfg1.N) (h0 : t.val % 16 = 0) (h1 : ¬t.val % 16 = 15) :
    outsAt1 V c t.val t.isLt = (idleOut1, sA V c t h0 h1) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (idleOut1, sB V c t h0 h1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (oC V c t h0 h1 (outsAt1 V c (t.val - 1) (Nat.lt_of_le_of_lt (Nat.sub_le _ _) t.isLt)).2, sC V c t h0 h1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The three running buffers at the contents `xs`. -/
abbrev scratchAt (c : Dev nD) (xs : Vec F S4x256x1 .f32 × Vec F S4x256x1 .f32 × Vec F S4x256x64 .f32) : sProp 𝕄 :=
  iprop(owns (c : Thread nD τ) scM1_0 fullShare xs.1 ∗ owns (c : Thread nD τ) scM1_1 fullShare xs.2.1 ∗ owns (c : Thread nD τ) scM1_2 fullShare xs.2.2)

/-- The region's invariant before position `n`: before the first point, what the region is handed (the running buffers
    at anything); afterwards the running buffers at what the point before left, the other scoped buffers and the
    generator register as they come. -/
def PhiS1 (c : Dev nD) : (n : ℕ) → n ≤ cfg1.N → sProp 𝕄
  | 0, _ => Pipeline.ΦA spec1 c
  | n + 1, hn => iprop(iprop(scratchAt c (outsAt1 V c n hn).2 ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(scratchAt c (outsAt1 V c n hn).2 ∗ others1 c) ∗ (∃ r, prngReg c r)) := rfl
theorem PhiS1_pos (c : Dev nD) (n : ℕ) (h : n ≤ cfg1.N) (hz : n ≠ 0) :
    PhiS1 V c n h = iprop(iprop(scratchAt c (outsAt1 V c (n - 1) (by omega)).2 ∗ others1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation and the invariant's two ends -/

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the region was handed: the running buffers' named
    contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1, HS2⟩, Hrest⟩, Hg⟩
  isplitl [HS0 HS1 HS2 Hrest]
  · isplitl [HS0 HS1 HS2]
    · isplitl [HS0]; · iexists _; iexact HS0
      isplitl [HS1]; · iexists _; iexact HS1
      iexists _; iexact HS2
    iexact Hrest
  iexact Hg

theorem hout1 (c : Dev nD) : (dat1 V c).Φ (Fin.last cfg1.N) ⊢ Pipeline.ΦA spec1 c :=
  Phi_out1 V c _ (by rw [Fin.val_last]; have : cfg1.N = 512 := N_1; omega)

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

set_option maxHeartbeats 4800000 in
/-- The body at any point: the inputs' memrefs hold their blocks; the point's position among the sixteen key blocks of its
    query block says which case runs; the invariant hands the body the running buffers at what the key block before left
    (at anything at the very first point) and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 512 := lt_of_lt_of_eq t.isLt (show cfg1.N = 512 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 16 = 0
  · have h1 : ¬t.val % 16 = 15 := by omega
    rw [Dat.leavesExact_idle (dat1 V c) 4 t (idleAt1_4 t (fun h => h1 ((hcond1_1 t).mp h))) (noFlush1_4 t (fun h => h1 ((hcond1_1 t).mp h)))]
    rw [outsAt1_A V c t h0 h1]
    unfold sA scratchAt; (try dsimp only)
    by_cases hz : t.val = 0
    · rw [PhiS1_castSucc V c t, PhiS1_zero V c _ _ hz, PhiA1_eq]
      iintro ⟨⟨⟨⟨HS0, HS1, HS2⟩, Hrest⟩, Hg⟩, Ho, ⟨%d0, H0⟩, ⟨%d1, H1⟩, ⟨%d2, H2⟩, ⟨%d3, H3⟩, ⟨%d4, H4⟩⟩
      iapply ((runA V c t h0 h1).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scoverA_0 V c t h0 h1)
            isplitl [HS1]
            · unfold owns; iexists _; isplitr
              swap; · iexact HS1
              ipureintro; exact View.read_writes_of_cover _ _ _ _ _ (scoverA_1 V c t h0 h1)
            unfold owns; iexists _; isplitr
            swap; · iexact HS2
            ipureintro; exact View.read_writes_of_cover _ _ _ _ _ (scoverA_2 V c t h0 h1)
          iexact Hrest
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      unfold scratchAt
      iintro ⟨⟨⟨⟨HS0, HS1, HS2⟩, Hrest⟩, Hg⟩, Ho, ⟨%d0, H0⟩, ⟨%d1, H1⟩, ⟨%d2, H2⟩, ⟨%d3, H3⟩, ⟨%d4, H4⟩⟩
      iapply ((runA V c t h0 h1).2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scoverA_0 V c t h0 h1)
            isplitl [HS1]
            · unfold owns; iexists _; isplitr
              swap; · iexact HS1
              ipureintro; exact View.read_writes_of_cover _ _ _ _ _ (scoverA_1 V c t h0 h1)
            unfold owns; iexists _; isplitr
            swap; · iexact HS2
            ipureintro; exact View.read_writes_of_cover _ _ _ _ _ (scoverA_2 V c t h0 h1)
          iexact Hrest
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 16 = 15
    · rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold oC sC scratchAt; (try dsimp only)
      rw [PhiS1_castSucc V c t, PhiS1_pos V c _ _ hz]
      unfold scratchAt
      iintro ⟨⟨⟨⟨HS0, HS1, HS2⟩, Hrest⟩, Hg⟩, Ho, ⟨%d0, H0⟩, ⟨%d1, H1⟩, ⟨%d2, H2⟩, ⟨%d3, H3⟩, ⟨%d4, H4⟩⟩
      iapply ((runC V c t h0 h1 (outsAt1 V c (t.val - 1) (Nat.lt_of_le_of_lt (Nat.sub_le _ _) t.isLt)).2).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scoverC_0 V c t h0 h1 (outsAt1 V c (t.val - 1) (Nat.lt_of_le_of_lt (Nat.sub_le _ _) t.isLt)).2)
            isplitl [HS1]
            · unfold owns; iexists _; isplitr
              swap; · iexact HS1
              ipureintro; exact View.read_writes_of_cover _ _ _ _ _ (scoverC_1 V c t h0 h1 (outsAt1 V c (t.val - 1) (Nat.lt_of_le_of_lt (Nat.sub_le _ _) t.isLt)).2)
            unfold owns; iexists _; isplitr
            swap; · iexact HS2
            ipureintro; exact View.read_writes_of_cover _ _ _ _ _ (scoverC_2 V c t h0 h1 (outsAt1 V c (t.val - 1) (Nat.lt_of_le_of_lt (Nat.sub_le _ _) t.isLt)).2)
          iexact Hrest
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC_4 V c t h0 h1 (outsAt1 V c (t.val - 1) (Nat.lt_of_le_of_lt (Nat.sub_le _ _) t.isLt)).2)
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold sB scratchAt; (try dsimp only)
      rw [PhiS1_castSucc V c t, PhiS1_pos V c _ _ hz]
      unfold scratchAt
      iintro ⟨⟨⟨⟨HS0, HS1, HS2⟩, Hrest⟩, Hg⟩, Ho, ⟨%d0, H0⟩, ⟨%d1, H1⟩, ⟨%d2, H2⟩, ⟨%d3, H3⟩, ⟨%d4, H4⟩⟩
      iapply ((runB V c t h0 h1 (outsAt1 V c (t.val - 1) (Nat.lt_of_le_of_lt (Nat.sub_le _ _) t.isLt)).2).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scoverB_0 V c t h0 h1 (outsAt1 V c (t.val - 1) (Nat.lt_of_le_of_lt (Nat.sub_le _ _) t.isLt)).2)
            isplitl [HS1]
            · unfold owns; iexists _; isplitr
              swap; · iexact HS1
              ipureintro; exact View.read_writes_of_cover _ _ _ _ _ (scoverB_1 V c t h0 h1 (outsAt1 V c (t.val - 1) (Nat.lt_of_le_of_lt (Nat.sub_le _ _) t.isLt)).2)
            unfold owns; iexists _; isplitr
            swap; · iexact HS2
            ipureintro; exact View.read_writes_of_cover _ _ _ _ _ (scoverB_2 V c t h0 h1 (outsAt1 V c (t.val - 1) (Nat.lt_of_le_of_lt (Nat.sub_le _ _) t.isLt)).2)
          iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Gen

end
-- ==== Proof.KernelIdeal.Run.lean ====
/- The run of @main: a stretch of host operations, two kernel regions entered one from the other, and a last
   stretch of host operations, composed over the buffers' contents at each boundary. -/
import proofs.«150601_j68384469286917_2_alg».proof.Proof.KernelIdeal.Region0
import proofs.«150601_j68384469286917_2_alg».proof.Proof.KernelIdeal.Region1
import proofs.«150601_j68384469286917_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the first stretch of host operations: what region 0 is entered from. -/
abbrev W1 : Dev nD → Valuation τ sig (Elt F) := fun c => StableHlo.after hostOps0 (W0 m ρ c)
/-- The same, read at the TensorCore's references. -/
abbrev T1 : (c : Dev nD) → (b : Ref sig .tc) → Buf (Elt F) ((c : Thread nD τ).loc b) := fun c b => W1 m ρ c b
/-- At region 0's exit: its windows' arrays at what the pipeline leaves, every other buffer as entered. Region 1 is
    entered from these contents. -/
def W2 (c : Dev nD) : Valuation τ sig (Elt F) :=
  Pipeline.withArrays spec0 c (W1 m ρ c) fun w => (dat0 (T1 m ρ) c).arrAt w cfg0.N
theorem W2_arr (c : Dev nD) (w : Fin cfg0.W) :
    W2 m ρ c (Proc.devRef .tc (Pipeline.arrRef spec0 w)) = (dat0 (T1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references. -/
abbrev T2 : (c : Dev nD) → (b : Ref sig .tc) → Buf (Elt F) ((c : Thread nD τ).loc b) := fun c b => W2 m ρ c b
theorem hF0 (c : Dev nD) (w : Fin cfg0.W) : (dat0 (T1 m ρ) c).arrAt w cfg0.N = T2 m ρ c (Pipeline.arrRef spec0 w) :=
  (W2_arr m ρ c w).symm
theorem hrest0 (c : Dev nD) : ∀ b, b ∉ Finset.univ.image (Pipeline.arrRef spec0) → T2 m ρ c b = T1 m ρ c b :=
  fun b hb => W2_of_ne m ρ c b fun w e => hb (Finset.mem_image.mpr ⟨w, Finset.mem_univ _, e⟩)

/-- At region 1's exit: its windows' arrays at what the pipeline leaves, every other buffer as entered. -/
def W3 (c : Dev nD) : Valuation τ sig (Elt F) :=
  Pipeline.withArrays spec1 c (W2 m ρ c) fun w => (dat1 (T2 m ρ) c).arrAt w cfg1.N
theorem W3_arr (c : Dev nD) (w : Fin cfg1.W) :
    W3 m ρ c (Proc.devRef .tc (Pipeline.arrRef spec1 w)) = (dat1 (T2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same, read at the TensorCore's references. -/
abbrev T3 : (c : Dev nD) → (b : Ref sig .tc) → Buf (Elt F) ((c : Thread nD τ).loc b) := fun c b => W3 m ρ c b
theorem hF1 (c : Dev nD) (w : Fin cfg1.W) : (dat1 (T2 m ρ) c).arrAt w cfg1.N = T3 m ρ c (Pipeline.arrRef spec1 w) :=
  (W3_arr m ρ c w).symm
theorem hrest1 (c : Dev nD) : ∀ b, b ∉ Finset.univ.image (Pipeline.arrRef spec1) → T3 m ρ c b = T2 m ρ c b :=
  fun b hb => W3_of_ne m ρ c b fun w e => hb (Finset.mem_image.mpr ⟨w, Finset.mem_univ _, e⟩)

/-- After the last stretch of host operations: the contents at the return. -/
abbrev W4 : Dev nD → Valuation τ sig (Elt F) := fun c => StableHlo.after hostOps2 (W3 m ρ c)

/-! ### What each stretch of host operations leaves alone -/

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W4_of (c : Dev nD) (r : Ref sig .tc) (h : r ∉ hostOps2_W) :
    W4 m ρ c (Proc.devRef .tc r) = W3 m ρ c (Proc.devRef .tc r) :=
  StableHlo.after_of_writes_sub hostOps2 _ hostOps2_writes h
/-- A buffer that no host operation writes and that is no window's array of either region ends as launched. -/
theorem W4_bypass (c : Dev nD) (r : Ref sig .tc) (h4 : r ∉ hostOps2_W) (h3 : ∀ w, Pipeline.arrRef spec1 w ≠ r)
    (h2 : ∀ w, Pipeline.arrRef spec0 w ≠ r) (h1 : r ∉ hostOps0_W) :
    W4 m ρ c (Proc.devRef .tc r) = m ((c : Thread nD τ).loc r) :=
  calc W4 m ρ c (Proc.devRef .tc r)
    _ = W3 m ρ c (Proc.devRef .tc r) := W4_of m ρ c r h4
    _ = W2 m ρ c (Proc.devRef .tc r) := W3_of_ne m ρ c r h3
    _ = W1 m ρ c (Proc.devRef .tc r) := W2_of_ne m ρ c r h2
    _ = W0 m ρ c (Proc.devRef .tc r) := W1_of m ρ c r h1
    _ = m ((c : Thread nD τ).loc r) := rfl

/-! ### The arguments end as launched: an argument is an input window's array (left as entered) or bypasses a region -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of m ρ c main_arg0 (by decide)
    _ = W2 m ρ c (Proc.devRef .tc main_arg0) := W3_of_ne m ρ c main_arg0 (by decide)
    _ = W1 m ρ c (Proc.devRef .tc main_arg0) := (W2_arr m ρ c 0).trans (((dat0 (T1 m ρ) c).arrAt_in 0 rfl _).trans (A_eq0 (T1 m ρ) c 0))
    _ = W0 m ρ c (Proc.devRef .tc main_arg0) := W1_of m ρ c main_arg0 (by decide)
    _ = m ((c : Thread nD τ).loc main_arg0) := rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of m ρ c main_arg1 (by decide)
    _ = W2 m ρ c (Proc.devRef .tc main_arg1) := (W3_arr m ρ c 3).trans (((dat1 (T2 m ρ) c).arrAt_in 3 rfl _).trans (A_eq1 (T2 m ρ) c 3))
    _ = m ((c : Thread nD τ).loc main_arg1) := W2_main_arg1 m ρ c
theorem W4_main_arg2 (c : Dev nD) : W4 m ρ c (Proc.devRef .tc main_arg2) = m ((c : Thread nD τ).loc main_arg2) :=
  W4_bypass m ρ c main_arg2 (by decide) (by decide) (by decide) (by decide)
theorem W4_main_arg3 (c : Dev nD) : W4 m ρ c (Proc.devRef .tc main_arg3) = m ((c : Thread nD τ).loc main_arg3) :=
  W4_bypass m ρ c main_arg3 (by decide) (by decide) (by decide) (by decide)
theorem W4_main_arg4 (c : Dev nD) : W4 m ρ c (Proc.devRef .tc main_arg4) = m ((c : Thread nD τ).loc main_arg4) :=
  W4_bypass m ρ c main_arg4 (by decide) (by decide) (by decide) (by decide)
theorem W4_main_arg5 (c : Dev nD) : W4 m ρ c (Proc.devRef .tc main_arg5) = m ((c : Thread nD τ).loc main_arg5) :=
  W4_bypass m ρ c main_arg5 (by decide) (by decide) (by decide) (by decide)
theorem W4_main_arg6 (c : Dev nD) : W4 m ρ c (Proc.devRef .tc main_arg6) = m ((c : Thread nD τ).loc main_arg6) :=
  W4_bypass m ρ c main_arg6 (by decide) (by decide) (by decide) (by decide)
theorem W4_main_arg7 (c : Dev nD) : W4 m ρ c (Proc.devRef .tc main_arg7) = m ((c : Thread nD τ).loc main_arg7) :=
  W4_bypass m ρ c main_arg7 (by decide) (by decide) (by decide) (by decide)

/-! ### What the later segments read -/

/-- Region 1's output window is the array the last host operations read. -/
theorem W3_main_v10 (c : Dev nD) : W3 m ρ c (Proc.devRef .tc main_v10) = (dat1 (T2 m ρ) c).arrAt 4 cfg1.N :=
  W3_arr m ρ c 4
/-- Region 0's three output windows are region 1's first three inputs. -/
theorem V2_main_v9_0 (c : Dev nD) : T2 m ρ c main_v9_0 = (dat0 (T1 m ρ) c).arrAt 7 cfg0.N := W2_arr m ρ c 7
theorem V2_main_v9_1 (c : Dev nD) : T2 m ρ c main_v9_1 = (dat0 (T1 m ρ) c).arrAt 8 cfg0.N := W2_arr m ρ c 8
theorem V2_main_v9_2 (c : Dev nD) : T2 m ρ c main_v9_2 = (dat0 (T1 m ρ) c).arrAt 9 cfg0.N := W2_arr m ρ c 9
/-- The integer array bypasses the first host operations and region 0. -/
theorem V2_main_arg1 (c : Dev nD) : T2 m ρ c main_arg1 = m ((c : Thread nD τ).loc main_arg1) := W2_main_arg1 m ρ c

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (T1 m ρ) c
  | ⟨1, _⟩ => fun c => dat1 (T2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the generator register. -/
abbrev Tₙ (c : Dev nD) : sProp 𝕄 := iprop(StableHlo.held (c : Thread nD τ) (Pipeline.ucRefs τ sig) (W4 m ρ c) ∗ ∃ r, prngReg c r)

/-! ## The regions as segments -/

-- unifying a library lemma stated over the pinned configuration with the printed one takes unfolding plain
-- definitions in a metavariable's type
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (T1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (T1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (T1 m ρ c) (T2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one takes unfolding plain
-- definitions in a metavariable's type
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (T2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (T2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (T2 m ρ) c).Φ 0 from rfl]
    refine .trans ?_ (hin1 (T2 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (T2 m ρ) c).Φ (Fin.last cfg1.N) from rfl]
    refine (hout1 (T2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (T2 m ρ c) (T3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev rsegs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (rsegs m ρ) := (main_chain c).trans (by chain_rfl)

set_option backward.isDefEq.respectTransparency.types false in
/-- Every weakly fair execution of @main terminates, and every final state holds each unscoped buffer at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (rsegs m ρ)
    (fun c Q => by rw [main_run m ρ c])
    (by simp only [rsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c)⟩) (run_all m ρ)

/-- The run with the result array named: it ends at the last boundary's contents, and the arguments as launched. -/
theorem run_value : θ_run defs (onTc (τ := τ) (main (F := F))) ⟨m, fun _ => 0, ρ⟩ (fun r => ∀ c : Dev nD,
      r.2.mem ((c.tc : Thread nD τ).loc main_v12) = W4 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨h c _ (mem_uc main_v12 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c)⟩) (run_all m ρ)

end Cert.KernelIdeal.Gen

end
-- ==== Proof.KernelIdeal.Region0Value.lean ====
/- The value half of the first region, on the extended reals: each of the three output arrays after the region, as one
   function of the arrays the region finds, entry by entry. Entry (h, n, d) of an output is the inner product of row n
   of the input matrix with column d of head h's weight matrix, plus entry d of head h's bias row. -/
import proofs.«150601_j68384469286917_2_alg».proof.Proof.KernelIdeal.Region0
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Gen0Value

open Cert.KernelIdeal Cert.KernelIdeal.Gen Idealize.ShloMosaic Idealize.ShloMosaic.TcCoe Idealize.SL.Sem
open Idealize.ShloMosaic.ValueIdx
open Idealize.ShloMosaic.Pipeline (Dat)

/-! ## One head's stored value

Every store of the body writes, for one head and one of the three projections, the same expression of the loaded input
block `v0`, the head's weight slab `w` and the head's bias row `b`: the product of the rounded block with the rounded
slab, plus the bias row repeated down the rows, rounded and given a leading unit axis. The twelve stored values are
spelt through different intermediate names; each unfolds to that one expression. -/

section Payloads
variable {F : FTy → Type} [FloatOps F]
variable (v0 : Vec F S1024x256 .f32) (w : Vec F S1x256x64 .f32) (b : Vec F S1x1x64 .f32)

theorem q1_eq : k0_pay13 (k0_pay12 (k0_pay4 v0) w b) = k0_pay6 v0 w b := rfl
theorem q2_eq : k0_pay21 (k0_pay20 (k0_pay4 v0) w b) = k0_pay6 v0 w b := rfl
theorem q3_eq : k0_pay1 (k0_pay4 v0) (k0_pay24 w) (k0_pay27 b) = k0_pay6 v0 w b := rfl
theorem k0_eq : k0_pay8 (k0_pay7 v0 w b) = k0_pay6 v0 w b := rfl
theorem k1_eq : k0_pay14 (k0_pay10 (k0_pay4 v0) w b) = k0_pay6 v0 w b := rfl
theorem k2_eq : k0_pay22 (k0_pay4 v0) (k0_pay16 w) (k0_pay18 b) = k0_pay6 v0 w b := rfl
theorem k3_eq : k0_pay2 (k0_pay4 v0) (k0_pay25 w) (k0_pay28 b) = k0_pay6 v0 w b := rfl
theorem v0_eq : k0_pay9 (k0_pay5 v0 w b) = k0_pay6 v0 w b := rfl
theorem v1_eq : k0_pay15 (k0_pay11 (k0_pay4 v0) w b) = k0_pay6 v0 w b := rfl
theorem v2_eq : k0_pay23 (k0_pay4 v0) (k0_pay17 w) (k0_pay19 b) = k0_pay6 v0 w b := rfl
theorem v3_eq : k0_pay3 (k0_pay4 v0) (k0_pay26 w) b = k0_pay6 v0 w b := rfl
end Payloads

/-! ## The stored value at an index, on the extended reals

Rounding is the identity there and the product into a zero accumulator is a plain sum over the 256 contracted
positions: entry (r, d) of a head's slab is the inner product of row r of the block with column d of the weight slab,
plus entry d of the bias row. -/

theorem lhs_row (i : S1024x64.Idx) (q : dot_S1024x256_S256x64_S1024x64_1_0_0_1_n_n.contr.Idx) :
    (dot_S1024x256_S256x64_S1024x64_1_0_0_1_n_n.lhsIdx i q 0).val = (i 0).val := by
  unfold DotDims.lhsIdx
  rw [dif_neg (show ¬(0 : Fin S1024x256.rank) ∈ dot_S1024x256_S256x64_S1024x64_1_0_0_1_n_n.lhsBatch by decide), dif_pos (show (0 : Fin S1024x256.rank) ∈ dot_S1024x256_S256x64_S1024x64_1_0_0_1_n_n.lhsNonContracting by decide)]
  rfl
theorem lhs_contr (i : S1024x64.Idx) (q : dot_S1024x256_S256x64_S1024x64_1_0_0_1_n_n.contr.Idx) :
    (dot_S1024x256_S256x64_S1024x64_1_0_0_1_n_n.lhsIdx i q 1).val = (q ⟨0, by decide⟩).val :=
  dot_S1024x256_S256x64_S1024x64_1_0_0_1_n_n.lhsIdx_val_of_single rfl i q
theorem rhs_contr (i : S1024x64.Idx) (q : dot_S1024x256_S256x64_S1024x64_1_0_0_1_n_n.contr.Idx) :
    (dot_S1024x256_S256x64_S1024x64_1_0_0_1_n_n.rhsIdx i q 0).val = (q ⟨0, by decide⟩).val :=
  dot_S1024x256_S256x64_S1024x64_1_0_0_1_n_n.rhsIdx_val_of_single rfl i q
theorem rhs_col (i : S1024x64.Idx) (q : dot_S1024x256_S256x64_S1024x64_1_0_0_1_n_n.contr.Idx) :
    (dot_S1024x256_S256x64_S1024x64_1_0_0_1_n_n.rhsIdx i q 1).val = (i 1).val := by
  unfold DotDims.rhsIdx
  rw [dif_neg (show ¬(1 : Fin S256x64.rank) ∈ dot_S1024x256_S256x64_S1024x64_1_0_0_1_n_n.rhsBatch by decide), dif_pos (show (1 : Fin S256x64.rank) ∈ dot_S1024x256_S256x64_S1024x64_1_0_0_1_n_n.rhsNonContracting by decide)]
  rfl

theorem head_apply (v0 : Vec Ideal S1024x256 .f32) (w : Vec Ideal S1x256x64 .f32) (b : Vec Ideal S1x1x64 .f32)
    (r : Fin 1024) (d : Fin 64) :
    k0_pay6 v0 w b (ix3 (0 : Fin 1) r d) = (∑ k : Fin 256, v0 (ix2 r k) * w (ix3 (0 : Fin 1) k d)) + b (ix3 (0 : Fin 1) (0 : Fin 1) d) := by
  unfold k0_pay6 k0_pay4
  refine (shapeCast_ab_1ab_apply _ shapeCasts_S1024x64_S1x1024x64 (0 : Fin 1) r d).trans ?_
  refine (truncf_apply (ψ := FTy.bf16) (φ := FTy.f32) _ bitsLt_bf16_f32 (ix2 r d)).trans ?_
  refine (addf_apply (φ := FTy.f32) _ _ (ix2 r d)).trans ?_
  refine congrArg₂ (fun a c : EReal => a + c) ?_ ?_
  · refine (Ideal.matmul_constant_zero_apply dot_S1024x256_S256x64_S1024x64_1_0_0_1_n_n none _ _ (ix2 r d)).trans ?_
    rw [← Equiv.sum_comp (contrEquiv1 dot_S1024x256_S256x64_S1024x64_1_0_0_1_n_n 256 rfl rfl).symm]
    refine Finset.sum_congr rfl fun k _ => ?_
    have hk := contrEquiv1_symm_val dot_S1024x256_S256x64_S1024x64_1_0_0_1_n_n 256 rfl rfl k
    have el : dot_S1024x256_S256x64_S1024x64_1_0_0_1_n_n.lhsIdx (ix2 r d) ((contrEquiv1 dot_S1024x256_S256x64_S1024x64_1_0_0_1_n_n 256 rfl rfl).symm k) = ix2 r k := funext fun a => Fin.ext (by
      match a with
      | ⟨0, _⟩ => exact lhs_row _ _
      | ⟨1, _⟩ => exact (lhs_contr _ _).trans hk)
    have er : dot_S1024x256_S256x64_S1024x64_1_0_0_1_n_n.rhsIdx (ix2 r d) ((contrEquiv1 dot_S1024x256_S256x64_S1024x64_1_0_0_1_n_n 256 rfl rfl).symm k) = ix2 k d := funext fun a => Fin.ext (by
      match a with
      | ⟨0, _⟩ => exact (rhs_contr _ _).trans hk
      | ⟨1, _⟩ => exact rhs_col _ _)
    rw [el, er]
    exact congrArg (v0 (ix2 r k) * ·) (shapeCast_1ab_ab_apply w shapeCasts_S1x256x64_S256x64 k d)
  · exact (broadcastTo_1b_ab_apply _ broadcasts_S1x64_S1024x64 r d).trans (shapeCast_1ab_ab_apply b shapeCasts_S1x1x64_S1x64 (0 : Fin 1) d)

/-! ## An output block as one function of the input blocks

Entry (h, r, d) of an output block is the inner product of row r of the input block with column d of head h's weight
matrix, plus entry d of head h's bias row. -/

/-- The projection at explicit coordinates: from a matrix `X` of rows, the weights `W` and the biases `B`. -/
def projAt {N : Nat} (X : (⟨2, ![N, 256]⟩ : Shape).Idx → EReal) (W : S4x256x64.Idx → EReal) (B : S4x1x64.Idx → EReal)
    (h : Fin 4) (n : Fin N) (d : Fin 64) : EReal :=
  (∑ k : Fin 256, X (ix2 n k) * W (ix3 h k d)) + B (ix3 h (0 : Fin 1) d)

/-- The same as a function of a rank-3 index (head, row, column). -/
def proj {N : Nat} (X : (⟨2, ![N, 256]⟩ : Shape).Idx → EReal) (W : S4x256x64.Idx → EReal) (B : S4x1x64.Idx → EReal) :
    (⟨3, ![4, N, 64]⟩ : Shape).Idx → EReal :=
  fun j => projAt X W B (j 0) (j 1) (j 2)

theorem projAt_eq {N : Nat} (X : (⟨2, ![N, 256]⟩ : Shape).Idx → EReal) (W : S4x256x64.Idx → EReal) (B : S4x1x64.Idx → EReal)
    (h : Fin 4) (n : Fin N) (d : Fin 64) :
    projAt X W B h n d = (∑ k : Fin 256, X (ix2 n k) * W (ix3 h k d)) + B (ix3 h (0 : Fin 1) d) := rfl

theorem proj_apply {N : Nat} (X : (⟨2, ![N, 256]⟩ : Shape).Idx → EReal) (W : S4x256x64.Idx → EReal) (B : S4x1x64.Idx → EReal)
    (h : Fin 4) (n : Fin N) (d : Fin 64) :
    proj X W B (ix3 h n d) = (∑ k : Fin 256, X (ix2 n k) * W (ix3 h k d)) + B (ix3 h (0 : Fin 1) d) := rfl

/-- The whole-block rectangle places an index at itself. -/
theorem idx_whole2 {n0 n1 : Nat} (inb) (a : Fin n0) (b : Fin n1) :
    (Rect.unit (s := ⟨2, ![n0, n1]⟩) ![0, 0] (⟨2, ![n0, n1]⟩ : Shape).size inb).idx (ix2 a b) = ix2 a b := by
  funext ax; apply Fin.ext
  match ax with
  | ⟨0, _⟩ => show 0 + 1 * a.val = a.val; omega
  | ⟨1, _⟩ => show 0 + 1 * b.val = b.val; omega

/-- Head `h`'s slab of a rank-3 buffer places (0, a, b) at (h, a, b). -/
theorem idx_slab {n0 n1 n2 : Nat} (h : Fin n0) (inb) (a : Fin n1) (b : Fin n2) :
    (Rect.unit (s := ⟨3, ![n0, n1, n2]⟩) ![h.val, 0, 0] (⟨3, ![1, n1, n2]⟩ : Shape).size inb).idx (ix3 (0 : Fin 1) a b) = ix3 h a b := by
  funext ax; apply Fin.ext
  match ax with
  | ⟨0, _⟩ => show h.val + 1 * 0 = h.val; omega
  | ⟨1, _⟩ => show 0 + 1 * a.val = a.val; omega
  | ⟨2, _⟩ => show 0 + 1 * b.val = b.val; omega

/-- Head `h`'s stored value, over the loads the body makes for it, at (0, r, d): the projection at (h, r, d). -/
theorem slab_apply (x0 : Vec Ideal S1024x256 .f32) (W : Vec Ideal S4x256x64 .f32) (B : Vec Ideal S4x1x64 .f32) (h : Fin 4)
    (inbw : ∀ a, (![h.val, 0, 0] : Fin 3 → Nat) a + S1x256x64.size a ≤ S4x256x64.size a)
    (inbb : ∀ a, (![h.val, 0, 0] : Fin 3 → Nat) a + S1x1x64.size a ≤ S4x1x64.size a) (r : Fin 1024) (d : Fin 64) :
    k0_pay6 (View.ld x0 r0_x) (View.ld W (Rect.unit (s := S4x256x64) ![h.val, 0, 0] S1x256x64.size inbw))
        (View.ld B (Rect.unit (s := S4x1x64) ![h.val, 0, 0] S1x1x64.size inbb)) (ix3 (0 : Fin 1) r d)
      = projAt x0 W B h r d := by
  refine (head_apply _ _ _ r d).trans ?_
  unfold projAt
  refine congrArg₂ (fun a c : EReal => a + c) (Finset.sum_congr rfl fun k _ => congrArg₂ (fun a c : EReal => a * c) ?_ ?_) ?_
  · exact congrArg x0 (idx_whole2 inb_S1024x256_S1024x256_0_0 r k)
  · exact congrArg W (idx_slab h inbw k d)
  · exact congrArg B (idx_slab h inbb (0 : Fin 1) d)

/-- An index of a head's output slab, by coordinates. -/
theorem slab_idx (x : S1x1024x64.Idx) : ∃ (r : Fin 1024) (d : Fin 64), x = ix3 (0 : Fin 1) r d := by
  obtain ⟨u, r, d, rfl⟩ : ∃ (u : Fin 1) (r : Fin 1024) (d : Fin 64), x = ix3 u r d := ⟨x 0, x 1, x 2, eq_ix3 x⟩
  obtain rfl : u = 0 := Subsingleton.elim _ _
  exact ⟨r, d, rfl⟩

/-- Output window 7's staging buffer after the body is the projection of the input block by the first weights and biases. -/
theorem out0_7_eq (x0 : Vec Ideal S1024x256 .f32) (W : Vec Ideal S4x256x64 .f32) (B : Vec Ideal S4x1x64 .f32) :
    out0_7 x0 W B = proj x0 W B := by
  funext y
  unfold out0_7
  refine View.canon_apply_of_pieces (Val := Elt Ideal) (S := S4x1024x64) (e := .bf16) (proj x0 W B) _ ?_ y (cover0_o _ _ _ _ y)
  intro p hp x
  simp only [List.mem_cons, List.not_mem_nil, or_false] at hp
  rcases hp with rfl | rfl | rfl | rfl
  · obtain ⟨r, d, rfl⟩ := slab_idx x
    refine (congrFun (q3_eq (View.ld x0 r0_x) (View.ld W r0_w3) (View.ld B r0_b3)) (ix3 (0 : Fin 1) r d)).trans ?_
    refine (slab_apply x0 W B (3 : Fin 4) inb_S4x256x64_S1x256x64_3_0_0 inb_S4x1x64_S1x1x64_3_0_0 r d).trans ?_
    exact (congrArg (proj x0 W B) (idx_slab (3 : Fin 4) inb_S4x1024x64_S1x1024x64_3_0_0 r d)).symm
  · obtain ⟨r, d, rfl⟩ := slab_idx x
    refine (congrFun (q2_eq (View.ld x0 r0_x) (View.ld W r0_w2) (View.ld B r0_b2)) (ix3 (0 : Fin 1) r d)).trans ?_
    refine (slab_apply x0 W B (2 : Fin 4) inb_S4x256x64_S1x256x64_2_0_0 inb_S4x1x64_S1x1x64_2_0_0 r d).trans ?_
    exact (congrArg (proj x0 W B) (idx_slab (2 : Fin 4) inb_S4x1024x64_S1x1024x64_2_0_0 r d)).symm
  · obtain ⟨r, d, rfl⟩ := slab_idx x
    refine (congrFun (q1_eq (View.ld x0 r0_x) (View.ld W r0_w1) (View.ld B r0_b1)) (ix3 (0 : Fin 1) r d)).trans ?_
    refine (slab_apply x0 W B (1 : Fin 4) inb_S4x256x64_S1x256x64_1_0_0 inb_S4x1x64_S1x1x64_1_0_0 r d).trans ?_
    exact (congrArg (proj x0 W B) (idx_slab (1 : Fin 4) inb_S4x1024x64_S1x1024x64_1_0_0 r d)).symm
  · obtain ⟨r, d, rfl⟩ := slab_idx x
    refine (congrFun (rfl : k0_pay6 (View.ld x0 r0_x) (View.ld W r0_w0) (View.ld B r0_b0) = _) (ix3 (0 : Fin 1) r d)).trans ?_
    refine (slab_apply x0 W B (0 : Fin 4) inb_S4x256x64_S1x256x64_0_0_0 inb_S4x1x64_S1x1x64_0_0_0 r d).trans ?_
    exact (congrArg (proj x0 W B) (idx_slab (0 : Fin 4) inb_S4x1024x64_S1x1024x64_0_0_0 r d)).symm

/-- Output window 8's staging buffer after the body is the projection of the input block by the second weights and biases. -/
theorem out0_8_eq (x0 : Vec Ideal S1024x256 .f32) (W : Vec Ideal S4x256x64 .f32) (B : Vec Ideal S4x1x64 .f32) :
    out0_8 x0 W B = proj x0 W B := by
  funext y
  unfold out0_8
  refine View.canon_apply_of_pieces (Val := Elt Ideal) (S := S4x1024x64) (e := .bf16) (proj x0 W B) _ ?_ y (cover0_o _ _ _ _ y)
  intro p hp x
  simp only [List.mem_cons, List.not_mem_nil, or_false] at hp
  rcases hp with rfl | rfl | rfl | rfl
  · obtain ⟨r, d, rfl⟩ := slab_idx x
    refine (congrFun (k3_eq (View.ld x0 r0_x) (View.ld W r0_w3) (View.ld B r0_b3)) (ix3 (0 : Fin 1) r d)).trans ?_
    refine (slab_apply x0 W B (3 : Fin 4) inb_S4x256x64_S1x256x64_3_0_0 inb_S4x1x64_S1x1x64_3_0_0 r d).trans ?_
    exact (congrArg (proj x0 W B) (idx_slab (3 : Fin 4) inb_S4x1024x64_S1x1024x64_3_0_0 r d)).symm
  · obtain ⟨r, d, rfl⟩ := slab_idx x
    refine (congrFun (k2_eq (View.ld x0 r0_x) (View.ld W r0_w2) (View.ld B r0_b2)) (ix3 (0 : Fin 1) r d)).trans ?_
    refine (slab_apply x0 W B (2 : Fin 4) inb_S4x256x64_S1x256x64_2_0_0 inb_S4x1x64_S1x1x64_2_0_0 r d).trans ?_
    exact (congrArg (proj x0 W B) (idx_slab (2 : Fin 4) inb_S4x1024x64_S1x1024x64_2_0_0 r d)).symm
  · obtain ⟨r, d, rfl⟩ := slab_idx x
    refine (congrFun (k1_eq (View.ld x0 r0_x) (View.ld W r0_w1) (View.ld B r0_b1)) (ix3 (0 : Fin 1) r d)).trans ?_
    refine (slab_apply x0 W B (1 : Fin 4) inb_S4x256x64_S1x256x64_1_0_0 inb_S4x1x64_S1x1x64_1_0_0 r d).trans ?_
    exact (congrArg (proj x0 W B) (idx_slab (1 : Fin 4) inb_S4x1024x64_S1x1024x64_1_0_0 r d)).symm
  · obtain ⟨r, d, rfl⟩ := slab_idx x
    refine (congrFun (k0_eq (View.ld x0 r0_x) (View.ld W r0_w0) (View.ld B r0_b0)) (ix3 (0 : Fin 1) r d)).trans ?_
    refine (slab_apply x0 W B (0 : Fin 4) inb_S4x256x64_S1x256x64_0_0_0 inb_S4x1x64_S1x1x64_0_0_0 r d).trans ?_
    exact (congrArg (proj x0 W B) (idx_slab (0 : Fin 4) inb_S4x1024x64_S1x1024x64_0_0_0 r d)).symm

/-- Output window 9's staging buffer after the body is the projection of the input block by the third weights and biases. -/
theorem out0_9_eq (x0 : Vec Ideal S1024x256 .f32) (W : Vec Ideal S4x256x64 .f32) (B : Vec Ideal S4x1x64 .f32) :
    out0_9 x0 W B = proj x0 W B := by
  funext y
  unfold out0_9
  refine View.canon_apply_of_pieces (Val := Elt Ideal) (S := S4x1024x64) (e := .bf16) (proj x0 W B) _ ?_ y (cover0_o _ _ _ _ y)
  intro p hp x
  simp only [List.mem_cons, List.not_mem_nil, or_false] at hp
  rcases hp with rfl | rfl | rfl | rfl
  · obtain ⟨r, d, rfl⟩ := slab_idx x
    refine (congrFun (v3_eq (View.ld x0 r0_x) (View.ld W r0_w3) (View.ld B r0_b3)) (ix3 (0 : Fin 1) r d)).trans ?_
    refine (slab_apply x0 W B (3 : Fin 4) inb_S4x256x64_S1x256x64_3_0_0 inb_S4x1x64_S1x1x64_3_0_0 r d).trans ?_
    exact (congrArg (proj x0 W B) (idx_slab (3 : Fin 4) inb_S4x1024x64_S1x1024x64_3_0_0 r d)).symm
  · obtain ⟨r, d, rfl⟩ := slab_idx x
    refine (congrFun (v2_eq (View.ld x0 r0_x) (View.ld W r0_w2) (View.ld B r0_b2)) (ix3 (0 : Fin 1) r d)).trans ?_
    refine (slab_apply x0 W B (2 : Fin 4) inb_S4x256x64_S1x256x64_2_0_0 inb_S4x1x64_S1x1x64_2_0_0 r d).trans ?_
    exact (congrArg (proj x0 W B) (idx_slab (2 : Fin 4) inb_S4x1024x64_S1x1024x64_2_0_0 r d)).symm
  · obtain ⟨r, d, rfl⟩ := slab_idx x
    refine (congrFun (v1_eq (View.ld x0 r0_x) (View.ld W r0_w1) (View.ld B r0_b1)) (ix3 (0 : Fin 1) r d)).trans ?_
    refine (slab_apply x0 W B (1 : Fin 4) inb_S4x256x64_S1x256x64_1_0_0 inb_S4x1x64_S1x1x64_1_0_0 r d).trans ?_
    exact (congrArg (proj x0 W B) (idx_slab (1 : Fin 4) inb_S4x1024x64_S1x1024x64_1_0_0 r d)).symm
  · obtain ⟨r, d, rfl⟩ := slab_idx x
    refine (congrFun (v0_eq (View.ld x0 r0_x) (View.ld W r0_w0) (View.ld B r0_b0)) (ix3 (0 : Fin 1) r d)).trans ?_
    refine (slab_apply x0 W B (0 : Fin 4) inb_S4x256x64_S1x256x64_0_0_0 inb_S4x1x64_S1x1x64_0_0_0 r d).trans ?_
    exact (congrArg (proj x0 W B) (idx_slab (0 : Fin 4) inb_S4x1024x64_S1x1024x64_0_0_0 r d)).symm

/-! ## From blocks to arrays

At grid point `t` the input window's block is rows `1024·t … 1024·t + 1023` of the input matrix, every weight and
bias window's block is its whole array, and each output window's block is rows `1024·t … 1024·t + 1023` (on the middle
axis) of its array. So what point `t` writes back is its block of ONE function of the region-entry arrays, and the
eight blocks fill each output array. -/

section Arrays
variable (V : (c : Dev nD) → (b : Ref sig .tc) → Buf (Elt Ideal) ((c : Thread nD τ).loc b))

/-- The block indices, decided over the eight grid points. -/
theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 3) = 0 ∧ win0_1.index t (1 : Fin 3) = 0 ∧ win0_1.index t (2 : Fin 3) = 0 :=
  (by decide +kernel : ∀ t : Fin grid0.N, _)
theorem index2 : ∀ t : Fin cfg0.N, win0_2.index t (0 : Fin 3) = 0 ∧ win0_2.index t (1 : Fin 3) = 0 ∧ win0_2.index t (2 : Fin 3) = 0 :=
  (by decide +kernel : ∀ t : Fin grid0.N, _)
theorem index3 : ∀ t : Fin cfg0.N, win0_3.index t (0 : Fin 3) = 0 ∧ win0_3.index t (1 : Fin 3) = 0 ∧ win0_3.index t (2 : Fin 3) = 0 :=
  (by decide +kernel : ∀ t : Fin grid0.N, _)
theorem index4 : ∀ t : Fin cfg0.N, win0_4.index t (0 : Fin 3) = 0 ∧ win0_4.index t (1 : Fin 3) = 0 ∧ win0_4.index t (2 : Fin 3) = 0 :=
  (by decide +kernel : ∀ t : Fin grid0.N, _)
theorem index5 : ∀ t : Fin cfg0.N, win0_5.index t (0 : Fin 3) = 0 ∧ win0_5.index t (1 : Fin 3) = 0 ∧ win0_5.index t (2 : Fin 3) = 0 :=
  (by decide +kernel : ∀ t : Fin grid0.N, _)
theorem index6 : ∀ t : Fin cfg0.N, win0_6.index t (0 : Fin 3) = 0 ∧ win0_6.index t (1 : Fin 3) = 0 ∧ win0_6.index t (2 : Fin 3) = 0 :=
  (by decide +kernel : ∀ t : Fin grid0.N, _)
theorem index7 : ∀ t : Fin cfg0.N, win0_7.index t (0 : Fin 3) = 0 ∧ win0_7.index t (1 : Fin 3) = t.val ∧ win0_7.index t (2 : Fin 3) = 0 :=
  (by decide +kernel : ∀ t : Fin grid0.N, _)
theorem index8 : ∀ t : Fin cfg0.N, win0_8.index t (0 : Fin 3) = 0 ∧ win0_8.index t (1 : Fin 3) = t.val ∧ win0_8.index t (2 : Fin 3) = 0 :=
  (by decide +kernel : ∀ t : Fin grid0.N, _)
theorem index9 : ∀ t : Fin cfg0.N, win0_9.index t (0 : Fin 3) = 0 ∧ win0_9.index t (1 : Fin 3) = t.val ∧ win0_9.index t (2 : Fin 3) = 0 :=
  (by decide +kernel : ∀ t : Fin grid0.N, _)

/-- The input block at point `t` is rows `1024·t + r` of the input matrix. -/
theorem iblk_x (c : Dev nD) (t : Fin cfg0.N) (r : Fin 1024) (k : Fin 256) (n : Fin 8192) (hn : n.val = t.val * 1024 + r.val) :
    (iblk0 V c 0 t : Vec Ideal S1024x256 .f32) (ix2 r k) = (V c main_arg0 : S8192x256.Idx → Elt Ideal .f32) (ix2 n k) := by
  obtain ⟨e0, e1⟩ := index0 t
  unfold iblk0
  rw [View.read_apply]
  show V c main_arg0 _ = V c main_arg0 _
  congr 1
  funext a; apply Fin.ext
  match a with
  | ⟨0, _⟩ => show win0_0.index t (0 : Fin 2) * 1024 + 1 * r.val = n.val; rw [e0, hn]; omega
  | ⟨1, _⟩ => show win0_0.index t (1 : Fin 2) * 256 + 1 * k.val = k.val; rw [e1]; omega

/-- Weight window 1's block at any point is its whole array. -/
theorem iblk_w1 (c : Dev nD) (t : Fin cfg0.N) (h : Fin 4) (k : Fin 256) (d : Fin 64) :
    (iblk0 V c 1 t : Vec Ideal S4x256x64 .f32) (ix3 h k d) = (V c main_v1 : S4x256x64.Idx → Elt Ideal .f32) (ix3 h k d) := by
  obtain ⟨e0, e1, e2⟩ := index1 t
  unfold iblk0
  rw [View.read_apply]
  show V c main_v1 _ = V c main_v1 _
  congr 1
  funext a; apply Fin.ext
  match a with
  | ⟨0, _⟩ => show win0_1.index t (0 : Fin 3) * 4 + 1 * h.val = h.val; rw [e0]; omega
  | ⟨1, _⟩ => show win0_1.index t (1 : Fin 3) * 256 + 1 * k.val = k.val; rw [e1]; omega
  | ⟨2, _⟩ => show win0_1.index t (2 : Fin 3) * 64 + 1 * d.val = d.val; rw [e2]; omega

/-- Weight window 3's block at any point is its whole array. -/
theorem iblk_w3 (c : Dev nD) (t : Fin cfg0.N) (h : Fin 4) (k : Fin 256) (d : Fin 64) :
    (iblk0 V c 3 t : Vec Ideal S4x256x64 .f32) (ix3 h k d) = (V c main_v3 : S4x256x64.Idx → Elt Ideal .f32) (ix3 h k d) := by
  obtain ⟨e0, e1, e2⟩ := index3 t
  unfold iblk0
  rw [View.read_apply]
  show V c main_v3 _ = V c main_v3 _
  congr 1
  funext a; apply Fin.ext
  match a with
  | ⟨0, _⟩ => show win0_3.index t (0 : Fin 3) * 4 + 1 * h.val = h.val; rw [e0]; omega
  | ⟨1, _⟩ => show win0_3.index t (1 : Fin 3) * 256 + 1 * k.val = k.val; rw [e1]; omega
  | ⟨2, _⟩ => show win0_3.index t (2 : Fin 3) * 64 + 1 * d.val = d.val; rw [e2]; omega

/-- Weight window 5's block at any point is its whole array. -/
theorem iblk_w5 (c : Dev nD) (t : Fin cfg0.N) (h : Fin 4) (k : Fin 256) (d : Fin 64) :
    (iblk0 V c 5 t : Vec Ideal S4x256x64 .f32) (ix3 h k d) = (V c main_v5 : S4x256x64.Idx → Elt Ideal .f32) (ix3 h k d) := by
  obtain ⟨e0, e1, e2⟩ := index5 t
  unfold iblk0
  rw [View.read_apply]
  show V c main_v5 _ = V c main_v5 _
  congr 1
  funext a; apply Fin.ext
  match a with
  | ⟨0, _⟩ => show win0_5.index t (0 : Fin 3) * 4 + 1 * h.val = h.val; rw [e0]; omega
  | ⟨1, _⟩ => show win0_5.index t (1 : Fin 3) * 256 + 1 * k.val = k.val; rw [e1]; omega
  | ⟨2, _⟩ => show win0_5.index t (2 : Fin 3) * 64 + 1 * d.val = d.val; rw [e2]; omega

/-- Bias window 2's block at any point is its whole array. -/
theorem iblk_b2 (c : Dev nD) (t : Fin cfg0.N) (h : Fin 4) (u : Fin 1) (d : Fin 64) :
    (iblk0 V c 2 t : Vec Ideal S4x1x64 .f32) (ix3 h u d) = (V c main_v6 : S4x1x64.Idx → Elt Ideal .f32) (ix3 h u d) := by
  obtain ⟨e0, e1, e2⟩ := index2 t
  unfold iblk0
  rw [View.read_apply]
  show V c main_v6 _ = V c main_v6 _
  congr 1
  funext a; apply Fin.ext
  match a with
  | ⟨0, _⟩ => show win0_2.index t (0 : Fin 3) * 4 + 1 * h.val = h.val; rw [e0]; omega
  | ⟨1, _⟩ => show win0_2.index t (1 : Fin 3) * 1 + 1 * u.val = u.val; rw [e1]; omega
  | ⟨2, _⟩ => show win0_2.index t (2 : Fin 3) * 64 + 1 * d.val = d.val; rw [e2]; omega

/-- Bias window 4's block at any point is its whole array. -/
theorem iblk_b4 (c : Dev nD) (t : Fin cfg0.N) (h : Fin 4) (u : Fin 1) (d : Fin 64) :
    (iblk0 V c 4 t : Vec Ideal S4x1x64 .f32) (ix3 h u d) = (V c main_v7 : S4x1x64.Idx → Elt Ideal .f32) (ix3 h u d) := by
  obtain ⟨e0, e1, e2⟩ := index4 t
  unfold iblk0
  rw [View.read_apply]
  show V c main_v7 _ = V c main_v7 _
  congr 1
  funext a; apply Fin.ext
  match a with
  | ⟨0, _⟩ => show win0_4.index t (0 : Fin 3) * 4 + 1 * h.val = h.val; rw [e0]; omega
  | ⟨1, _⟩ => show win0_4.index t (1 : Fin 3) * 1 + 1 * u.val = u.val; rw [e1]; omega
  | ⟨2, _⟩ => show win0_4.index t (2 : Fin 3) * 64 + 1 * d.val = d.val; rw [e2]; omega

/-- Bias window 6's block at any point is its whole array. -/
theorem iblk_b6 (c : Dev nD) (t : Fin cfg0.N) (h : Fin 4) (u : Fin 1) (d : Fin 64) :
    (iblk0 V c 6 t : Vec Ideal S4x1x64 .f32) (ix3 h u d) = (V c main_v8 : S4x1x64.Idx → Elt Ideal .f32) (ix3 h u d) := by
  obtain ⟨e0, e1, e2⟩ := index6 t
  unfold iblk0
  rw [View.read_apply]
  show V c main_v8 _ = V c main_v8 _
  congr 1
  funext a; apply Fin.ext
  match a with
  | ⟨0, _⟩ => show win0_6.index t (0 : Fin 3) * 4 + 1 * h.val = h.val; rw [e0]; omega
  | ⟨1, _⟩ => show win0_6.index t (1 : Fin 3) * 1 + 1 * u.val = u.val; rw [e1]; omega
  | ⟨2, _⟩ => show win0_6.index t (2 : Fin 3) * 64 + 1 * d.val = d.val; rw [e2]; omega

/-! ### Output window 7 -/

/-- What point `t` writes back to output window 7's array is block `t` of the projection of the region-entry arrays. -/
theorem flushed7_eq (c : Dev nD) (t : Fin cfg0.N) :
    (dat0 V c).flushed 7 t = ((cfg0.win 7).blk t).view.read (Elt Ideal) (proj (V c main_arg0) (V c main_v1) (V c main_v6)) := by
  show (cfg0.win 7).cut (grid0.coords t) ((dat0 V c).after 7 t) = _
  rw [after0_7, out0_7_eq (iblk0 V c 0 t) (iblk0 V c 1 t) (iblk0 V c 2 t)]
  have hN : cfg0.N = 8 := N_0
  have ht : t.val < 8 := hN ▸ t.isLt
  obtain ⟨e0, e1, e2⟩ := index7 t
  funext y
  obtain ⟨h, r, d, rfl⟩ : ∃ (h : Fin 4) (r : Fin 1024) (d : Fin 64), y = (ix3 h r d : S4x1024x64.Idx) :=
    ⟨y 0, y 1, y 2, eq_ix3 (n0 := 4) (n1 := 1024) (n2 := 64) y⟩
  have hemb : ((cfg0.win 7).blk t).view.emb (ix3 h r d : S4x1024x64.Idx)
      = (ix3 h (⟨t.val * 1024 + r.val, by omega⟩ : Fin 8192) d : S4x8192x64.Idx) := by
    funext a; apply Fin.ext
    match a with
    | ⟨0, _⟩ => show win0_7.index t (0 : Fin 3) * 4 + 1 * h.val = h.val; rw [e0]; omega
    | ⟨1, _⟩ => show win0_7.index t (1 : Fin 3) * 1024 + 1 * r.val = t.val * 1024 + r.val; rw [e1]; omega
    | ⟨2, _⟩ => show win0_7.index t (2 : Fin 3) * 64 + 1 * d.val = d.val; rw [e2]; omega
  show proj (iblk0 V c 0 t) (iblk0 V c 1 t) (iblk0 V c 2 t) (ix3 h r d)
    = proj (V c main_arg0) (V c main_v1) (V c main_v6) (((cfg0.win 7).blk t).view.emb (ix3 h r d : S4x1024x64.Idx))
  refine Eq.trans ?_ (congrArg (proj (V c main_arg0) (V c main_v1) (V c main_v6)) hemb).symm
  show projAt _ _ _ h r d = projAt _ _ _ h _ d
  unfold projAt
  refine congrArg₂ (fun a c : EReal => a + c) (Finset.sum_congr rfl fun k _ => congrArg₂ (fun a c : EReal => a * c) ?_ ?_) ?_
  · exact iblk_x V c t r k _ rfl
  · exact iblk_w1 V c t h k d
  · exact iblk_b2 V c t h (0 : Fin 1) d

/-- An index of output window 7's array is in point `t`'s block iff each coordinate is in the block's range. -/
theorem mem_blk7 (t : Fin cfg0.N) (i : S4x8192x64.Idx) :
    i ∈ ((cfg0.win 7).blk t).view.set ↔ ∀ a : Fin 3, win0_7.index t a * S4x1024x64.size a ≤ (i a).val ∧ (i a).val < win0_7.index t a * S4x1024x64.size a + S4x1024x64.size a := by
  show i ∈ ((View.whole main_v9_0).slice (win0_7.rect t)).set ↔ _
  rw [View.set_slice_whole, Rect.mem_set_unit]
  exact Iff.rfl

/-- Every index of the array is in the block of the point its row falls under. -/
theorem cover7 (i : S4x8192x64.Idx) : ∃ t : Fin cfg0.N, (cfg0.win 7).flush t = true ∧ i ∈ ((cfg0.win 7).blk t).view.set := by
  have hN : cfg0.N = 8 := N_0
  have h0 : (i 0).val < 4 := (i 0).isLt
  have h1 : (i 1).val < 8192 := (i 1).isLt
  have h2 : (i 2).val < 64 := (i 2).isLt
  refine ⟨⟨(i 1).val / 1024, by rw [hN]; omega⟩, flush0_7 _, ?_⟩
  rw [mem_blk7]
  obtain ⟨e0, e1, e2⟩ := index7 ⟨(i 1).val / 1024, by rw [hN]; omega⟩
  intro a
  match a with
  | ⟨0, _⟩ => show win0_7.index _ (0 : Fin 3) * 4 ≤ (i 0).val ∧ (i 0).val < win0_7.index _ (0 : Fin 3) * 4 + 4; rw [e0]; omega
  | ⟨1, _⟩ => show win0_7.index _ (1 : Fin 3) * 1024 ≤ (i 1).val ∧ (i 1).val < win0_7.index _ (1 : Fin 3) * 1024 + 1024; rw [e1]; show (i 1).val / 1024 * 1024 ≤ (i 1).val ∧ (i 1).val < (i 1).val / 1024 * 1024 + 1024; omega
  | ⟨2, _⟩ => show win0_7.index _ (2 : Fin 3) * 64 ≤ (i 2).val ∧ (i 2).val < win0_7.index _ (2 : Fin 3) * 64 + 64; rw [e2]; omega

/-- THE ARRAY after the region: the projection of the region-entry input matrix by the region-entry weights and biases. -/
theorem final0_7 (c : Dev nD) :
    (dat0 V c).arrAt 7 cfg0.N = proj (V c main_arg0) (V c main_v1) (V c main_v6) :=
  (dat0 V c).arrAt_eq_of_cover 7 (proj (V c main_arg0) (V c main_v1) (V c main_v6)) (fun t _ => flushed7_eq V c t) cover7

/-- The same, entry by entry. -/
theorem final0_7_apply (c : Dev nD) (h : Fin 4) (n : Fin 8192) (d : Fin 64) :
    ((dat0 V c).arrAt 7 cfg0.N : S4x8192x64.Idx → Elt Ideal .bf16) (ix3 h n d)
      = projAt (V c main_arg0) (V c main_v1) (V c main_v6) h n d := by
  rw [final0_7]; rfl

/-! ### Output window 8 -/

/-- What point `t` writes back to output window 8's array is block `t` of the projection of the region-entry arrays. -/
theorem flushed8_eq (c : Dev nD) (t : Fin cfg0.N) :
    (dat0 V c).flushed 8 t = ((cfg0.win 8).blk t).view.read (Elt Ideal) (proj (V c main_arg0) (V c main_v3) (V c main_v7)) := by
  show (cfg0.win 8).cut (grid0.coords t) ((dat0 V c).after 8 t) = _
  rw [after0_8, out0_8_eq (iblk0 V c 0 t) (iblk0 V c 3 t) (iblk0 V c 4 t)]
  have hN : cfg0.N = 8 := N_0
  have ht : t.val < 8 := hN ▸ t.isLt
  obtain ⟨e0, e1, e2⟩ := index8 t
  funext y
  obtain ⟨h, r, d, rfl⟩ : ∃ (h : Fin 4) (r : Fin 1024) (d : Fin 64), y = (ix3 h r d : S4x1024x64.Idx) :=
    ⟨y 0, y 1, y 2, eq_ix3 (n0 := 4) (n1 := 1024) (n2 := 64) y⟩
  have hemb : ((cfg0.win 8).blk t).view.emb (ix3 h r d : S4x1024x64.Idx)
      = (ix3 h (⟨t.val * 1024 + r.val, by omega⟩ : Fin 8192) d : S4x8192x64.Idx) := by
    funext a; apply Fin.ext
    match a with
    | ⟨0, _⟩ => show win0_8.index t (0 : Fin 3) * 4 + 1 * h.val = h.val; rw [e0]; omega
    | ⟨1, _⟩ => show win0_8.index t (1 : Fin 3) * 1024 + 1 * r.val = t.val * 1024 + r.val; rw [e1]; omega
    | ⟨2, _⟩ => show win0_8.index t (2 : Fin 3) * 64 + 1 * d.val = d.val; rw [e2]; omega
  show proj (iblk0 V c 0 t) (iblk0 V c 3 t) (iblk0 V c 4 t) (ix3 h r d)
    = proj (V c main_arg0) (V c main_v3) (V c main_v7) (((cfg0.win 8).blk t).view.emb (ix3 h r d : S4x1024x64.Idx))
  refine Eq.trans ?_ (congrArg (proj (V c main_arg0) (V c main_v3) (V c main_v7)) hemb).symm
  show projAt _ _ _ h r d = projAt _ _ _ h _ d
  unfold projAt
  refine congrArg₂ (fun a c : EReal => a + c) (Finset.sum_congr rfl fun k _ => congrArg₂ (fun a c : EReal => a * c) ?_ ?_) ?_
  · exact iblk_x V c t r k _ rfl
  · exact iblk_w3 V c t h k d
  · exact iblk_b4 V c t h (0 : Fin 1) d

/-- An index of output window 8's array is in point `t`'s block iff each coordinate is in the block's range. -/
theorem mem_blk8 (t : Fin cfg0.N) (i : S4x8192x64.Idx) :
    i ∈ ((cfg0.win 8).blk t).view.set ↔ ∀ a : Fin 3, win0_8.index t a * S4x1024x64.size a ≤ (i a).val ∧ (i a).val < win0_8.index t a * S4x1024x64.size a + S4x1024x64.size a := by
  show i ∈ ((View.whole main_v9_1).slice (win0_8.rect t)).set ↔ _
  rw [View.set_slice_whole, Rect.mem_set_unit]
  exact Iff.rfl

/-- Every index of the array is in the block of the point its row falls under. -/
theorem cover8 (i : S4x8192x64.Idx) : ∃ t : Fin cfg0.N, (cfg0.win 8).flush t = true ∧ i ∈ ((cfg0.win 8).blk t).view.set := by
  have hN : cfg0.N = 8 := N_0
  have h0 : (i 0).val < 4 := (i 0).isLt
  have h1 : (i 1).val < 8192 := (i 1).isLt
  have h2 : (i 2).val < 64 := (i 2).isLt
  refine ⟨⟨(i 1).val / 1024, by rw [hN]; omega⟩, flush0_8 _, ?_⟩
  rw [mem_blk8]
  obtain ⟨e0, e1, e2⟩ := index8 ⟨(i 1).val / 1024, by rw [hN]; omega⟩
  intro a
  match a with
  | ⟨0, _⟩ => show win0_8.index _ (0 : Fin 3) * 4 ≤ (i 0).val ∧ (i 0).val < win0_8.index _ (0 : Fin 3) * 4 + 4; rw [e0]; omega
  | ⟨1, _⟩ => show win0_8.index _ (1 : Fin 3) * 1024 ≤ (i 1).val ∧ (i 1).val < win0_8.index _ (1 : Fin 3) * 1024 + 1024; rw [e1]; show (i 1).val / 1024 * 1024 ≤ (i 1).val ∧ (i 1).val < (i 1).val / 1024 * 1024 + 1024; omega
  | ⟨2, _⟩ => show win0_8.index _ (2 : Fin 3) * 64 ≤ (i 2).val ∧ (i 2).val < win0_8.index _ (2 : Fin 3) * 64 + 64; rw [e2]; omega

/-- THE ARRAY after the region: the projection of the region-entry input matrix by the region-entry weights and biases. -/
theorem final0_8 (c : Dev nD) :
    (dat0 V c).arrAt 8 cfg0.N = proj (V c main_arg0) (V c main_v3) (V c main_v7) :=
  (dat0 V c).arrAt_eq_of_cover 8 (proj (V c main_arg0) (V c main_v3) (V c main_v7)) (fun t _ => flushed8_eq V c t) cover8

/-- The same, entry by entry. -/
theorem final0_8_apply (c : Dev nD) (h : Fin 4) (n : Fin 8192) (d : Fin 64) :
    ((dat0 V c).arrAt 8 cfg0.N : S4x8192x64.Idx → Elt Ideal .bf16) (ix3 h n d)
      = projAt (V c main_arg0) (V c main_v3) (V c main_v7) h n d := by
  rw [final0_8]; rfl

/-! ### Output window 9 -/

/-- What point `t` writes back to output window 9's array is block `t` of the projection of the region-entry arrays. -/
theorem flushed9_eq (c : Dev nD) (t : Fin cfg0.N) :
    (dat0 V c).flushed 9 t = ((cfg0.win 9).blk t).view.read (Elt Ideal) (proj (V c main_arg0) (V c main_v5) (V c main_v8)) := by
  show (cfg0.win 9).cut (grid0.coords t) ((dat0 V c).after 9 t) = _
  rw [after0_9, out0_9_eq (iblk0 V c 0 t) (iblk0 V c 5 t) (iblk0 V c 6 t)]
  have hN : cfg0.N = 8 := N_0
  have ht : t.val < 8 := hN ▸ t.isLt
  obtain ⟨e0, e1, e2⟩ := index9 t
  funext y
  obtain ⟨h, r, d, rfl⟩ : ∃ (h : Fin 4) (r : Fin 1024) (d : Fin 64), y = (ix3 h r d : S4x1024x64.Idx) :=
    ⟨y 0, y 1, y 2, eq_ix3 (n0 := 4) (n1 := 1024) (n2 := 64) y⟩
  have hemb : ((cfg0.win 9).blk t).view.emb (ix3 h r d : S4x1024x64.Idx)
      = (ix3 h (⟨t.val * 1024 + r.val, by omega⟩ : Fin 8192) d : S4x8192x64.Idx) := by
    funext a; apply Fin.ext
    match a with
    | ⟨0, _⟩ => show win0_9.index t (0 : Fin 3) * 4 + 1 * h.val = h.val; rw [e0]; omega
    | ⟨1, _⟩ => show win0_9.index t (1 : Fin 3) * 1024 + 1 * r.val = t.val * 1024 + r.val; rw [e1]; omega
    | ⟨2, _⟩ => show win0_9.index t (2 : Fin 3) * 64 + 1 * d.val = d.val; rw [e2]; omega
  show proj (iblk0 V c 0 t) (iblk0 V c 5 t) (iblk0 V c 6 t) (ix3 h r d)
    = proj (V c main_arg0) (V c main_v5) (V c main_v8) (((cfg0.win 9).blk t).view.emb (ix3 h r d : S4x1024x64.Idx))
  refine Eq.trans ?_ (congrArg (proj (V c main_arg0) (V c main_v5) (V c main_v8)) hemb).symm
  show projAt _ _ _ h r d = projAt _ _ _ h _ d
  unfold projAt
  refine congrArg₂ (fun a c : EReal => a + c) (Finset.sum_congr rfl fun k _ => congrArg₂ (fun a c : EReal => a * c) ?_ ?_) ?_
  · exact iblk_x V c t r k _ rfl
  · exact iblk_w5 V c t h k d
  · exact iblk_b6 V c t h (0 : Fin 1) d

/-- An index of output window 9's array is in point `t`'s block iff each coordinate is in the block's range. -/
theorem mem_blk9 (t : Fin cfg0.N) (i : S4x8192x64.Idx) :
    i ∈ ((cfg0.win 9).blk t).view.set ↔ ∀ a : Fin 3, win0_9.index t a * S4x1024x64.size a ≤ (i a).val ∧ (i a).val < win0_9.index t a * S4x1024x64.size a + S4x1024x64.size a := by
  show i ∈ ((View.whole main_v9_2).slice (win0_9.rect t)).set ↔ _
  rw [View.set_slice_whole, Rect.mem_set_unit]
  exact Iff.rfl

/-- Every index of the array is in the block of the point its row falls under. -/
theorem cover9 (i : S4x8192x64.Idx) : ∃ t : Fin cfg0.N, (cfg0.win 9).flush t = true ∧ i ∈ ((cfg0.win 9).blk t).view.set := by
  have hN : cfg0.N = 8 := N_0
  have h0 : (i 0).val < 4 := (i 0).isLt
  have h1 : (i 1).val < 8192 := (i 1).isLt
  have h2 : (i 2).val < 64 := (i 2).isLt
  refine ⟨⟨(i 1).val / 1024, by rw [hN]; omega⟩, flush0_9 _, ?_⟩
  rw [mem_blk9]
  obtain ⟨e0, e1, e2⟩ := index9 ⟨(i 1).val / 1024, by rw [hN]; omega⟩
  intro a
  match a with
  | ⟨0, _⟩ => show win0_9.index _ (0 : Fin 3) * 4 ≤ (i 0).val ∧ (i 0).val < win0_9.index _ (0 : Fin 3) * 4 + 4; rw [e0]; omega
  | ⟨1, _⟩ => show win0_9.index _ (1 : Fin 3) * 1024 ≤ (i 1).val ∧ (i 1).val < win0_9.index _ (1 : Fin 3) * 1024 + 1024; rw [e1]; show (i 1).val / 1024 * 1024 ≤ (i 1).val ∧ (i 1).val < (i 1).val / 1024 * 1024 + 1024; omega
  | ⟨2, _⟩ => show win0_9.index _ (2 : Fin 3) * 64 ≤ (i 2).val ∧ (i 2).val < win0_9.index _ (2 : Fin 3) * 64 + 64; rw [e2]; omega

/-- THE ARRAY after the region: the projection of the region-entry input matrix by the region-entry weights and biases. -/
theorem final0_9 (c : Dev nD) :
    (dat0 V c).arrAt 9 cfg0.N = proj (V c main_arg0) (V c main_v5) (V c main_v8) :=
  (dat0 V c).arrAt_eq_of_cover 9 (proj (V c main_arg0) (V c main_v5) (V c main_v8)) (fun t _ => flushed9_eq V c t) cover9

/-- The same, entry by entry. -/
theorem final0_9_apply (c : Dev nD) (h : Fin 4) (n : Fin 8192) (d : Fin 64) :
    ((dat0 V c).arrAt 9 cfg0.N : S4x8192x64.Idx → Elt Ideal .bf16) (ix3 h n d)
      = projAt (V c main_arg0) (V c main_v5) (V c main_v8) h n d := by
  rw [final0_9]; rfl

end Arrays

end Cert.KernelIdeal.Gen0Value

end
-- ==== Proof.Spec.lean ====
/-
  The mathematical content of both programs, as functions on extended reals over literal shapes.

  Inputs: node features `X : [8192, 256]`, an integer adjacency `E : [8192, 8192]`, three projections
  `(W, b) : [256, 256] × [256]`. With four heads of 64 features, column `64·h + d` of a projection is feature `d` of
  head `h`.  For head `h`, query node `n` and key node `m` the score is
  `(∑_d q[h,n,d]·k[h,m,d])·(1/8) + (E[m,n] − 1)·10000`; the result at `(n, 64·h + d)` is the softmax over `m` of the
  scores, weighting `v[h,m,d]`:  `∑_m (exp(s_m − max s) / ∑_{m'} exp(s_{m'} − max s)) · v[h,m,d]`.
-/
import Idealize.ShloMosaic.PureOps.Ideal
import Idealize.ShloMosaic.Lib.ValueIdx

noncomputable section

open Idealize.ShloMosaic Idealize.ShloMosaic.ValueIdx
open scoped BigOperators

namespace Cert.Attn

/-- Column `64·h + d`: feature `d` of head `h`. -/
def col (h : Fin 4) (d : Fin 64) : Fin 256 := ⟨h.val * 64 + d.val, by omega⟩

/-- A projection `x·W + b` at node `n`, head `h`, feature `d`. -/
def proj (X : (⟨2, ![8192, 256]⟩ : Shape).Idx → EReal) (W : (⟨2, ![256, 256]⟩ : Shape).Idx → EReal)
    (b : (⟨1, ![256]⟩ : Shape).Idx → EReal) (h : Fin 4) (n : Fin 8192) (d : Fin 64) : EReal :=
  (∑ k : Fin 256, X (ix2 n k) * W (ix2 k (col h d))) + b (ix1 (col h d))

/-- The additive graph mask at query `n`, key `m`: `(E[m, n] − 1)·10000` (the literals are 1 and 10000). -/
def mask (E : (⟨2, ![8192, 8192]⟩ : Shape).Idx → BitVec 32) (n m : Fin 8192) : EReal :=
  ((((E (ix2 m n)).toInt : ℝ) : EReal) - Ideal.ofBits .f32 0x3F800000#32) * Ideal.ofBits .f32 0x461C4000#32

/-- The score of head `h`, query `n`, key `m`: the scaled inner product (the literal is 1/8) plus the mask. -/
def score (Q K : Fin 4 → Fin 8192 → Fin 64 → EReal) (E : (⟨2, ![8192, 8192]⟩ : Shape).Idx → BitVec 32)
    (h : Fin 4) (n m : Fin 8192) : EReal :=
  (∑ d : Fin 64, Q h n d * K h m d) * Ideal.ofBits .f32 0x3E000000#32 + mask E n m

/-- The softmax-weighted sum over the keys, for scores `S` and values `V` of one (head, query, feature). -/
def attend (S V : Fin 8192 → EReal) : EReal :=
  ∑ m, Ideal.div (Ideal.exp (S m - Finset.univ.sup S)) (∑ m', Ideal.exp (S m' - Finset.univ.sup S)) * V m

/-- The result at node `n`, head `h`, feature `d`. -/
def out (X : (⟨2, ![8192, 256]⟩ : Shape).Idx → EReal) (E : (⟨2, ![8192, 8192]⟩ : Shape).Idx → BitVec 32)
    (Wq : (⟨2, ![256, 256]⟩ : Shape).Idx → EReal) (bq : (⟨1, ![256]⟩ : Shape).Idx → EReal)
    (Wk : (⟨2, ![256, 256]⟩ : Shape).Idx → EReal) (bk : (⟨1, ![256]⟩ : Shape).Idx → EReal)
    (Wv : (⟨2, ![256, 256]⟩ : Shape).Idx → EReal) (bv : (⟨1, ![256]⟩ : Shape).Idx → EReal)
    (n : Fin 8192) (h : Fin 4) (d : Fin 64) : EReal :=
  attend (fun m => score (proj X Wq bq) (proj X Wk bk) E h n m) (fun m => proj X Wv bv h m d)

/-- The head of a column. -/
def headOf (c : Fin 256) : Fin 4 := ⟨c.val / 64, by omega⟩
/-- The feature of a column within its head. -/
def featOf (c : Fin 256) : Fin 64 := ⟨c.val % 64, Nat.mod_lt _ (by decide)⟩

/-- The whole result array `[8192, 256]`, as one function of the arguments. -/
def G (X : (⟨2, ![8192, 256]⟩ : Shape).Idx → EReal) (E : (⟨2, ![8192, 8192]⟩ : Shape).Idx → BitVec 32)
    (Wq : (⟨2, ![256, 256]⟩ : Shape).Idx → EReal) (bq : (⟨1, ![256]⟩ : Shape).Idx → EReal)
    (Wk : (⟨2, ![256, 256]⟩ : Shape).Idx → EReal) (bk : (⟨1, ![256]⟩ : Shape).Idx → EReal)
    (Wv : (⟨2, ![256, 256]⟩ : Shape).Idx → EReal) (bv : (⟨1, ![256]⟩ : Shape).Idx → EReal) :
    (⟨2, ![8192, 256]⟩ : Shape).Idx → EReal :=
  fun i => out X E Wq bq Wk bk Wv bv ⟨(i 0).val, idx2_lt0 i⟩ (headOf ⟨(i 1).val, idx2_lt1 i⟩) (featOf ⟨(i 1).val, idx2_lt1 i⟩)

end Cert.Attn

end
-- ==== Proof.KernelIdeal.HostReads.lean ====
/- The host operations around the two regions, read at an index on the extended reals: the weights and biases as the
   first region finds them are re-laid copies of the arguments (column `64·h + d` of a projection matrix is feature `d`
   of head `h`), and the result is the second region's output with its head axis folded back into the columns. -/
import proofs.«150601_j68384469286917_2_alg».proof.Proof.KernelIdeal.Region0Value
import proofs.«150601_j68384469286917_2_alg».proof.Proof.Spec
import proofs.«150601_j68384469286917_2_alg».proof.Proof.Gen.KernelIdeal.Launch
import proofs.«150601_j68384469286917_2_alg».proof.Proof.Gen.KernelIdeal.Regions
import Idealize.ShloMosaic.Lib.StableHlo.Run
import Idealize.ShloMosaic.Lib.Pipeline.Value
import Idealize.ShloMosaic.Lib.ValueIdx

set_option maxRecDepth 16384

noncomputable section

namespace Cert.KernelIdeal.HostVal

open Cert.KernelIdeal Cert.KernelIdeal.Gen Idealize.ShloMosaic Idealize.ShloMosaic.TcCoe Idealize.SL.Sem
open Idealize.ShloMosaic.ValueIdx Idealize.ShloMosaic.StableHlo
open Cert.KernelIdeal.Gen0Value

/-! ## The three re-layouts, on any contents -/

section Layouts
variable {α : Type}

/-- A [256, 256] matrix split along its columns into [256, 4, 64] and its first two axes swapped reads, at
    (h, k, d), the matrix at row k, column 64·h + d. -/
theorem heads_of_columns (y : S256x256.Idx → α) (h : Fin 4) (k : Fin 256) (d : Fin 64) :
    transpose S4x256x64 [1, 0, 2] (shapeCast S256x4x64 y shapeCasts_S256x256_S256x4x64) transposes_S256x4x64_S4x256x64_1_0_2 (ix3 h k d)
      = y (ix2 k (Cert.Attn.col h d)) := by
  refine (transpose_apply [1, 0, 2] _ transposes_S256x4x64_S4x256x64_1_0_2 (ix3 h k d) (ix3 k h d) (fun b => match b with
    | ⟨0, _⟩ => rfl
    | ⟨1, _⟩ => rfl
    | ⟨2, _⟩ => rfl)).trans ?_
  exact shapeCast_apply y shapeCasts_S256x256_S256x4x64 (ix3 k h d) (ix2 k (Cert.Attn.col h d))
    (by rewrite [Shape.rowMajor_val_two, Shape.rowMajor_val_three]
        show k.val * 256 + (h.val * 64 + d.val) = (k.val * 4 + h.val) * 64 + d.val
        omega)

/-- A vector of 256 entries split into [4, 1, 64] reads, at (h, 0, d), the vector at 64·h + d. -/
theorem heads_of_vector (y : S256.Idx → α) (h : Fin 4) (d : Fin 64) :
    shapeCast S4x1x64 y shapeCasts_S256_S4x1x64 (ix3 h (0 : Fin 1) d) = y (ix1 (Cert.Attn.col h d)) :=
  shapeCast_apply y shapeCasts_S256_S4x1x64 (ix3 h (0 : Fin 1) d) (ix1 (Cert.Attn.col h d))
    (by rewrite [Shape.rowMajor_val_one, Shape.rowMajor_val_three]
        show h.val * 64 + d.val = (h.val * 1 + 0) * 64 + d.val
        omega)

/-- A [4, 8192, 64] array with its first two axes swapped and its last two merged reads, at (n, c), the array at
    (c / 64, n, c % 64). -/
theorem columns_of_heads (z : S4x8192x64.Idx → α) (i : S8192x256.Idx) :
    shapeCast S8192x256 (transpose S8192x4x64 [1, 0, 2] z transposes_S4x8192x64_S8192x4x64_1_0_2) shapeCasts_S8192x4x64_S8192x256 i
      = z (ix3 (Cert.Attn.headOf ⟨(i 1).val, idx2_lt1 i⟩) ⟨(i 0).val, idx2_lt0 i⟩ (Cert.Attn.featOf ⟨(i 1).val, idx2_lt1 i⟩)) := by
  have h0 : (i 0).val < 8192 := idx2_lt0 i
  have h1 : (i 1).val < 256 := idx2_lt1 i
  refine (shapeCast_apply _ shapeCasts_S8192x4x64_S8192x256 i
    (ix3 (⟨(i 0).val, h0⟩ : Fin 8192) (Cert.Attn.headOf ⟨(i 1).val, h1⟩) (Cert.Attn.featOf ⟨(i 1).val, h1⟩))
    (by rewrite [Shape.rowMajor_val_two, Shape.rowMajor_val_three]
        show ((i 0).val * 4 + (i 1).val / 64) * 64 + (i 1).val % 64 = (i 0).val * 256 + (i 1).val
        omega)).trans ?_
  exact transpose_apply [1, 0, 2] z transposes_S4x8192x64_S8192x4x64_1_0_2 _ _ (fun b => match b with
    | ⟨0, _⟩ => rfl
    | ⟨1, _⟩ => rfl
    | ⟨2, _⟩ => rfl)

end Layouts

/-! ## Before the first region -/

section Host
variable (W : Valuation τ sig (Elt Ideal))

/-- Weight array `main_v1` as the first region finds it: argument `main_arg2` with its columns grouped by head. -/
theorem v1_eq : (StableHlo.after (hostOps0 (F := Ideal)) W (Proc.devRef .tc main_v1) : S4x256x64.Idx → EReal)
    = transpose S4x256x64 [1, 0, 2] (shapeCast S256x4x64 (W (Proc.devRef .tc main_arg2) : S256x256.Idx → EReal) shapeCasts_S256x256_S256x4x64) transposes_S256x4x64_S4x256x64_1_0_2 := by
  after_results
  rfl

theorem v1_apply (h : Fin 4) (k : Fin 256) (d : Fin 64) :
    (StableHlo.after (hostOps0 (F := Ideal)) W (Proc.devRef .tc main_v1) : S4x256x64.Idx → EReal) (ix3 h k d) = (W (Proc.devRef .tc main_arg2) : S256x256.Idx → EReal) (ix2 k (Cert.Attn.col h d)) :=
  (congrFun (v1_eq W) (ix3 h k d)).trans (heads_of_columns _ h k d)

/-- Bias array `main_v6` as the first region finds it: argument `main_arg3` grouped by head. -/
theorem v6_eq : (StableHlo.after (hostOps0 (F := Ideal)) W (Proc.devRef .tc main_v6) : S4x1x64.Idx → EReal)
    = shapeCast S4x1x64 (W (Proc.devRef .tc main_arg3) : S256.Idx → EReal) shapeCasts_S256_S4x1x64 := by
  after_results
  rfl

theorem v6_apply (h : Fin 4) (d : Fin 64) :
    (StableHlo.after (hostOps0 (F := Ideal)) W (Proc.devRef .tc main_v6) : S4x1x64.Idx → EReal) (ix3 h (0 : Fin 1) d) = (W (Proc.devRef .tc main_arg3) : S256.Idx → EReal) (ix1 (Cert.Attn.col h d)) :=
  (congrFun (v6_eq W) (ix3 h (0 : Fin 1) d)).trans (heads_of_vector _ h d)

/-- Weight array `main_v3` as the first region finds it: argument `main_arg4` with its columns grouped by head. -/
theorem v3_eq : (StableHlo.after (hostOps0 (F := Ideal)) W (Proc.devRef .tc main_v3) : S4x256x64.Idx → EReal)
    = transpose S4x256x64 [1, 0, 2] (shapeCast S256x4x64 (W (Proc.devRef .tc main_arg4) : S256x256.Idx → EReal) shapeCasts_S256x256_S256x4x64) transposes_S256x4x64_S4x256x64_1_0_2 := by
  after_results
  rfl

theorem v3_apply (h : Fin 4) (k : Fin 256) (d : Fin 64) :
    (StableHlo.after (hostOps0 (F := Ideal)) W (Proc.devRef .tc main_v3) : S4x256x64.Idx → EReal) (ix3 h k d) = (W (Proc.devRef .tc main_arg4) : S256x256.Idx → EReal) (ix2 k (Cert.Attn.col h d)) :=
  (congrFun (v3_eq W) (ix3 h k d)).trans (heads_of_columns _ h k d)

/-- Bias array `main_v7` as the first region finds it: argument `main_arg5` grouped by head. -/
theorem v7_eq : (StableHlo.after (hostOps0 (F := Ideal)) W (Proc.devRef .tc main_v7) : S4x1x64.Idx → EReal)
    = shapeCast S4x1x64 (W (Proc.devRef .tc main_arg5) : S256.Idx → EReal) shapeCasts_S256_S4x1x64 := by
  after_results
  rfl

theorem v7_apply (h : Fin 4) (d : Fin 64) :
    (StableHlo.after (hostOps0 (F := Ideal)) W (Proc.devRef .tc main_v7) : S4x1x64.Idx → EReal) (ix3 h (0 : Fin 1) d) = (W (Proc.devRef .tc main_arg5) : S256.Idx → EReal) (ix1 (Cert.Attn.col h d)) :=
  (congrFun (v7_eq W) (ix3 h (0 : Fin 1) d)).trans (heads_of_vector _ h d)

/-- Weight array `main_v5` as the first region finds it: argument `main_arg6` with its columns grouped by head. -/
theorem v5_eq : (StableHlo.after (hostOps0 (F := Ideal)) W (Proc.devRef .tc main_v5) : S4x256x64.Idx → EReal)
    = transpose S4x256x64 [1, 0, 2] (shapeCast S256x4x64 (W (Proc.devRef .tc main_arg6) : S256x256.Idx → EReal) shapeCasts_S256x256_S256x4x64) transposes_S256x4x64_S4x256x64_1_0_2 := by
  after_results
  rfl

theorem v5_apply (h : Fin 4) (k : Fin 256) (d : Fin 64) :
    (StableHlo.after (hostOps0 (F := Ideal)) W (Proc.devRef .tc main_v5) : S4x256x64.Idx → EReal) (ix3 h k d) = (W (Proc.devRef .tc main_arg6) : S256x256.Idx → EReal) (ix2 k (Cert.Attn.col h d)) :=
  (congrFun (v5_eq W) (ix3 h k d)).trans (heads_of_columns _ h k d)

/-- Bias array `main_v8` as the first region finds it: argument `main_arg7` grouped by head. -/
theorem v8_eq : (StableHlo.after (hostOps0 (F := Ideal)) W (Proc.devRef .tc main_v8) : S4x1x64.Idx → EReal)
    = shapeCast S4x1x64 (W (Proc.devRef .tc main_arg7) : S256.Idx → EReal) shapeCasts_S256_S4x1x64 := by
  after_results
  rfl

theorem v8_apply (h : Fin 4) (d : Fin 64) :
    (StableHlo.after (hostOps0 (F := Ideal)) W (Proc.devRef .tc main_v8) : S4x1x64.Idx → EReal) (ix3 h (0 : Fin 1) d) = (W (Proc.devRef .tc main_arg7) : S256.Idx → EReal) (ix1 (Cert.Attn.col h d)) :=
  (congrFun (v8_eq W) (ix3 h (0 : Fin 1) d)).trans (heads_of_vector _ h d)

/-- No operation before the first region writes the first two arguments (the [8192, 256] matrix and the [8192, 8192] integer array). -/
theorem kept0 : StableHlo.after (hostOps0 (F := Ideal)) W (Proc.devRef .tc main_arg0) = W (Proc.devRef .tc main_arg0) :=
  StableHlo.after_of_writes_sub hostOps0 W hostOps0_writes (by decide)
theorem kept1 : StableHlo.after (hostOps0 (F := Ideal)) W (Proc.devRef .tc main_arg1) = W (Proc.devRef .tc main_arg1) :=
  StableHlo.after_of_writes_sub hostOps0 W hostOps0_writes (by decide)

/-- The first region's query projection of what it finds is the specification's projection of the arguments. -/
theorem proj_q (h : Fin 4) (n : Fin 8192) (d : Fin 64) :
    projAt (N := 8192) (StableHlo.after (hostOps0 (F := Ideal)) W (Proc.devRef .tc main_arg0)) (StableHlo.after (hostOps0 (F := Ideal)) W (Proc.devRef .tc main_v1)) (StableHlo.after (hostOps0 (F := Ideal)) W (Proc.devRef .tc main_v6)) h n d
      = Cert.Attn.proj (W (Proc.devRef .tc main_arg0)) (W (Proc.devRef .tc main_arg2)) (W (Proc.devRef .tc main_arg3)) h n d := by
  unfold projAt Cert.Attn.proj
  refine congrArg₂ (fun a c : EReal => a + c) (Finset.sum_congr rfl fun k _ => congrArg₂ (fun a c : EReal => a * c) ?_ ?_) ?_
  · exact congrFun (kept0 W) (ix2 n k)
  · exact v1_apply W h k d
  · exact v6_apply W h d

/-- The first region's key projection of what it finds is the specification's projection of the arguments. -/
theorem proj_k (h : Fin 4) (n : Fin 8192) (d : Fin 64) :
    projAt (N := 8192) (StableHlo.after (hostOps0 (F := Ideal)) W (Proc.devRef .tc main_arg0)) (StableHlo.after (hostOps0 (F := Ideal)) W (Proc.devRef .tc main_v3)) (StableHlo.after (hostOps0 (F := Ideal)) W (Proc.devRef .tc main_v7)) h n d
      = Cert.Attn.proj (W (Proc.devRef .tc main_arg0)) (W (Proc.devRef .tc main_arg4)) (W (Proc.devRef .tc main_arg5)) h n d := by
  unfold projAt Cert.Attn.proj
  refine congrArg₂ (fun a c : EReal => a + c) (Finset.sum_congr rfl fun k _ => congrArg₂ (fun a c : EReal => a * c) ?_ ?_) ?_
  · exact congrFun (kept0 W) (ix2 n k)
  · exact v3_apply W h k d
  · exact v7_apply W h d

/-- The first region's value projection of what it finds is the specification's projection of the arguments. -/
theorem proj_v (h : Fin 4) (n : Fin 8192) (d : Fin 64) :
    projAt (N := 8192) (StableHlo.after (hostOps0 (F := Ideal)) W (Proc.devRef .tc main_arg0)) (StableHlo.after (hostOps0 (F := Ideal)) W (Proc.devRef .tc main_v5)) (StableHlo.after (hostOps0 (F := Ideal)) W (Proc.devRef .tc main_v8)) h n d
      = Cert.Attn.proj (W (Proc.devRef .tc main_arg0)) (W (Proc.devRef .tc main_arg6)) (W (Proc.devRef .tc main_arg7)) h n d := by
  unfold projAt Cert.Attn.proj
  refine congrArg₂ (fun a c : EReal => a + c) (Finset.sum_congr rfl fun k _ => congrArg₂ (fun a c : EReal => a * c) ?_ ?_) ?_
  · exact congrFun (kept0 W) (ix2 n k)
  · exact v5_apply W h k d
  · exact v8_apply W h d

end Host

/-! ## After the second region -/

section Tail
variable (W3 : Valuation τ sig (Elt Ideal))

/-- The result array: the second region's output with its first two axes swapped and its last two merged. -/
theorem v12_eq : (StableHlo.after (hostOps2 (F := Ideal)) W3 (Proc.devRef .tc main_v12) : S8192x256.Idx → EReal)
    = shapeCast S8192x256 (transpose S8192x4x64 [1, 0, 2] (W3 (Proc.devRef .tc main_v10) : S4x8192x64.Idx → EReal) transposes_S4x8192x64_S8192x4x64_1_0_2) shapeCasts_S8192x4x64_S8192x256 := by
  after_results
  rfl

/-- Entry (n, c) of the result is the second region's output at head c / 64, row n, feature c % 64. -/
theorem v12_apply (i : S8192x256.Idx) :
    (StableHlo.after (hostOps2 (F := Ideal)) W3 (Proc.devRef .tc main_v12) : S8192x256.Idx → EReal) i
      = (W3 (Proc.devRef .tc main_v10) : S4x8192x64.Idx → EReal)
          (ix3 (Cert.Attn.headOf ⟨(i 1).val, idx2_lt1 i⟩) ⟨(i 0).val, idx2_lt0 i⟩ (Cert.Attn.featOf ⟨(i 1).val, idx2_lt1 i⟩)) :=
  (congrFun (v12_eq W3) i).trans (columns_of_heads _ i)

end Tail

end Cert.KernelIdeal.HostVal

end
-- ==== Proof.FiniteInputs.lean ====
import proofs.«150601_j68384469286917_2_alg».proof.Pre_finite_inputs
import proofs.«150601_j68384469286917_2_alg».proof.Proof.Gen.Pre_finite_inputs
import Idealize.ShloMosaic.Lib.ReduceAll
import Idealize.ShloMosaic.Lib.ValueIdx
import Idealize.ShloMosaic.PureOps.Ideal

/-!
# Finite inputs are real numbers

The precondition says of each of the seven float inputs that every entry `x` has
`|x| < +∞`.  On the extended reals `|x| = max x (−x)`, so the entry is neither `+∞` nor
`−∞`: it is a real number.
-/

noncomputable section

open Idealize.ShloMosaic

namespace Cert.FiniteInputs

open Cert.Pre_finite_inputs

/-- The pattern `0x7F800000` denotes `+∞`. -/
theorem ofBits_inf : Ideal.ofBits .f32 0x7F800000#32 = ⊤ := by
  simp [Ideal.ofBits, Ideal.ieee]

/-- An extended real whose absolute value is below `+∞` is a real number. -/
theorem real_of_abs_lt_inf (x : EReal)
    (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | coe r => exact ⟨r, rfl⟩
  | top => simp [Ideal.cmp] at h

instance : Subsingleton S_.Idx := ⟨fun a b => funext fun d => d.elim0⟩

/-- One conjunct: if `|x| < +∞` holds at every entry of an array, every entry is real. -/
theorem all_real {s : Shape} {axes : List (Fin s.rank)} (a : FVec Ideal s .f32)
    (hb : S_.BroadcastsInDim s (![] : Fin 0 → Fin s.rank)) (hr : s.ReducesTo axes S_)
    (hu : 0 < S_.numel)
    (e : Host.reduce IntOp.andi
          (cmpf .olt (Host.absf a) (broadcastInDim s ![] hb (constant S_ .f32 0x7F800000#32)))
          (constantI S_ 1 1#1) hr hu ValueIdx.ix0 = 1#1) :
    ∀ i, ∃ r : ℝ, a i = (r : EReal) := by
  intro i
  exact real_of_abs_lt_inf (a i) (Host.reduce_andi_all _ _ hr hu _ e i)

/-- Under the precondition every entry of the seven float inputs is a real number. -/
theorem finite_of_pre (a0 : FVec Ideal S8192x256 .f32) (a1 : IVec S8192x8192 32)
    (a2 : FVec Ideal S256x256 .f32) (a3 : FVec Ideal S256 .f32) (a4 : FVec Ideal S256x256 .f32)
    (a5 : FVec Ideal S256 .f32) (a6 : FVec Ideal S256x256 .f32) (a7 : FVec Ideal S256 .f32)
    (h : Cert.Pre_finite_inputs.fn (F := Ideal) a0 a1 a2 a3 a4 a5 a6 a7 = fun _ => 1#1) :
    (∀ i, ∃ r : ℝ, a0 i = (r : EReal)) ∧ (∀ i, ∃ r : ℝ, a2 i = (r : EReal))
      ∧ (∀ i, ∃ r : ℝ, a3 i = (r : EReal)) ∧ (∀ i, ∃ r : ℝ, a4 i = (r : EReal))
      ∧ (∀ i, ∃ r : ℝ, a5 i = (r : EReal)) ∧ (∀ i, ∃ r : ℝ, a6 i = (r : EReal))
      ∧ (∀ i, ∃ r : ℝ, a7 i = (r : EReal)) := by
  have h0 := congrFun h ValueIdx.ix0
  dsimp only [Cert.Pre_finite_inputs.fn, Cert.Pre_finite_inputs.fn_part1, andi] at h0
  simp only [IntOp.andi_eq_one] at h0
  obtain ⟨⟨⟨⟨⟨⟨e0, e2⟩, e3⟩, e4⟩, e5⟩, e6⟩, e7⟩ := h0
  exact ⟨all_real a0 _ _ _ e0, all_real a2 _ _ _ e2, all_real a3 _ _ _ e3, all_real a4 _ _ _ e4,
    all_real a5 _ _ _ e5, all_real a6 _ _ _ e6, all_real a7 _ _ _ e7⟩

end Cert.FiniteInputs

end
-- ==== Proof.OnlineSoftmax.lean ====
import Idealize.ShloMosaic.PureOps.Ideal

/-!
# The blockwise ("online") softmax-weighted sum equals the plain one

A softmax-weighted sum `∑ₖ softmax(s)ₖ · vₖ` can be accumulated block by block while only
a running maximum `m`, a running normaliser `l` and a running weighted sum `a` are kept:
when a new block arrives the maximum is raised to `m'`, the old `l` and `a` are multiplied
by `exp (m - m')` (which turns every old weight `exp (s - m)` into `exp (s - m')`), and the
block's own weights `exp (s - m')` are added.  At the end `a / l` is the softmax-weighted
sum.  This file proves that law on the extended reals, for real scores and values.
-/

noncomputable section

open Idealize.ShloMosaic

namespace Cert.OnlineSoftmax

/-- One block's update of the running maximum, normaliser and weighted sum. -/
def step {ι : Type} [Fintype ι] (st : EReal × EReal × EReal) (s v : ι → EReal) :
    EReal × EReal × EReal :=
  (max st.1 (Finset.univ.sup s),
   Ideal.exp (st.1 - max st.1 (Finset.univ.sup s)) * st.2.1
     + ∑ i, Ideal.exp (s i - max st.1 (Finset.univ.sup s)),
   Ideal.exp (st.1 - max st.1 (Finset.univ.sup s)) * st.2.2
     + ∑ i, Ideal.exp (s i - max st.1 (Finset.univ.sup s)) * v i)

/-- The state after the first `j` blocks, from `(−∞, 0, 0)`. -/
def run {ι : Type} [Fintype ι] (s v : ℕ → ι → EReal) : ℕ → EReal × EReal × EReal
  | 0 => (⊥, 0, 0)
  | j + 1 => step (run s v j) (s j) (v j)

/-! ### Coercion of finite sums, maxima and suprema of reals -/

/-- The coercion `ℝ → EReal` commutes with finite sums. -/
theorem coe_sum {α : Type} (t : Finset α) (f : α → ℝ) :
    ((∑ a ∈ t, f a : ℝ) : EReal) = ∑ a ∈ t, (f a : EReal) := by
  classical
  induction t using Finset.induction_on with
  | empty => simp
  | insert a t ha ih => rw [Finset.sum_insert ha, Finset.sum_insert ha, EReal.coe_add, ih]

/-- The coercion `ℝ → EReal` commutes with binary maxima (it is monotone). -/
theorem coe_max (a b : ℝ) : ((max a b : ℝ) : EReal) = max (a : EReal) (b : EReal) :=
  EReal.coe_strictMono.monotone.map_max

/-- Over a nonempty finite type the supremum of real numbers, taken in `EReal`, is attained,
    hence is itself a real number. -/
theorem exists_coe_sup {ι : Type} [Fintype ι] [Nonempty ι] (f : ι → ℝ) :
    ∃ m : ℝ, Finset.univ.sup (fun i => (f i : EReal)) = (m : EReal) := by
  obtain ⟨i, -, hi⟩ :=
    Finset.exists_mem_eq_sup Finset.univ Finset.univ_nonempty (fun i => (f i : EReal))
  exact ⟨f i, hi⟩

/-! ### Regrouping a sum or a supremum over `κ ≃ Fin J × ι` into blocks -/

/-- A sum over `κ` is the sum over the `J` blocks of the block sums. -/
theorem sum_blocks {J : ℕ} {ι κ : Type} [Fintype ι] [Fintype κ] (e : Fin J × ι ≃ κ)
    (F : κ → ℝ) (G : ℕ → ι → ℝ) (h : ∀ (j : Fin J) (i : ι), G j i = F (e (j, i))) :
    ∑ j ∈ Finset.range J, ∑ i, G j i = ∑ k, F k := by
  rw [Finset.sum_range, ← Equiv.sum_comp e F, Fintype.sum_prod_type]
  exact Finset.sum_congr rfl (fun j _ => Finset.sum_congr rfl (fun i _ => h j i))

/-- A supremum over `κ` is the supremum over the `J` blocks of the block suprema. -/
theorem sup_blocks {J : ℕ} {ι κ : Type} [Fintype ι] [Fintype κ] (e : Fin J × ι ≃ κ)
    (F : κ → EReal) (G : ℕ → ι → EReal) (h : ∀ (j : Fin J) (i : ι), G j i = F (e (j, i))) :
    (Finset.range J).sup (fun j => Finset.univ.sup (G j)) = Finset.univ.sup F := by
  apply le_antisymm
  · refine Finset.sup_le (fun j hj => Finset.sup_le (fun i _ => ?_))
    exact (h ⟨j, Finset.mem_range.mp hj⟩ i).le.trans (Finset.le_sup (Finset.mem_univ _))
  · refine Finset.sup_le (fun k _ => ?_)
    obtain ⟨⟨j, i⟩, rfl⟩ := e.surjective k
    rw [← h j i]
    exact (Finset.le_sup (f := G j) (Finset.mem_univ i)).trans
      (Finset.le_sup (f := fun j => Finset.univ.sup (G j)) (Finset.mem_range.mpr j.2))

/-! ### The run only looks at the blocks it has consumed -/

theorem run_congr {ι : Type} [Fintype ι] (s s' v v' : ℕ → ι → EReal) (n : ℕ)
    (hs : ∀ j < n, s j = s' j) (hv : ∀ j < n, v j = v' j) : run s v n = run s' v' n := by
  induction n with
  | zero => rfl
  | succ n ih =>
    show step (run s v n) (s n) (v n) = step (run s' v' n) (s' n) (v' n)
    rw [ih (fun j hj => hs j (Nat.lt_succ_of_lt hj)) (fun j hj => hv j (Nat.lt_succ_of_lt hj)),
      hs n (Nat.lt_succ_self n), hv n (Nat.lt_succ_self n)]

/-- The running maximum is the supremum of everything seen so far. -/
theorem run_fst {ι : Type} [Fintype ι] (s v : ℕ → ι → EReal) (n : ℕ) :
    (run s v n).1 = (Finset.range n).sup (fun j => Finset.univ.sup (s j)) := by
  induction n with
  | zero => rfl
  | succ n ih =>
    show max (run s v n).1 (Finset.univ.sup (s n)) = _
    rw [Finset.range_add_one, Finset.sup_insert, ← ih, max_comm]

/-! ### One block, on real data -/

/-- Raising the reference point from `M` to `M'` multiplies every weight by `exp (M - M')`. -/
theorem rescale_sum {ι : Type} [Fintype ι] (M M' : ℝ) (t : Finset ℕ) (x c : ℕ → ι → ℝ) :
    Real.exp (M - M') * ∑ j ∈ t, ∑ i, Real.exp (x j i - M) * c j i
      = ∑ j ∈ t, ∑ i, Real.exp (x j i - M') * c j i := by
  rw [Finset.mul_sum]
  refine Finset.sum_congr rfl (fun j _ => ?_)
  rw [Finset.mul_sum]
  refine Finset.sum_congr rfl (fun i _ => ?_)
  rw [← mul_assoc, ← Real.exp_add]
  congr 2
  ring

/-- The first block, from `(−∞, 0, 0)`: the old contribution is `exp (−∞) · 0 = 0`. -/
theorem step_bot {ι : Type} [Fintype ι] (b : ℝ) (x w : ι → ℝ)
    (hb : Finset.univ.sup (fun i => (x i : EReal)) = (b : EReal)) :
    step (⊥, 0, 0) (fun i => (x i : EReal)) (fun i => (w i : EReal))
      = ((b : EReal), ((∑ i, Real.exp (x i - b) : ℝ) : EReal),
          ((∑ i, Real.exp (x i - b) * w i : ℝ) : EReal)) := by
  unfold step
  dsimp only
  rw [hb, max_eq_right (bot_le : (⊥ : EReal) ≤ (b : EReal)), EReal.bot_sub, Ideal.exp_bot]
  simp only [zero_mul, zero_add, ← EReal.coe_sub, Ideal.exp_coe, ← EReal.coe_mul, ← coe_sum]

/-- A later block, from a real state `(M, L, A)`. -/
theorem step_coe {ι : Type} [Fintype ι] (M L A b : ℝ) (x w : ι → ℝ)
    (hb : Finset.univ.sup (fun i => (x i : EReal)) = (b : EReal)) :
    step ((M : EReal), (L : EReal), (A : EReal)) (fun i => (x i : EReal)) (fun i => (w i : EReal))
      = (((max M b : ℝ) : EReal),
         ((Real.exp (M - max M b) * L + ∑ i, Real.exp (x i - max M b) : ℝ) : EReal),
         ((Real.exp (M - max M b) * A + ∑ i, Real.exp (x i - max M b) * w i : ℝ) : EReal)) := by
  unfold step
  dsimp only
  rw [hb, ← coe_max]
  simp only [← EReal.coe_sub, Ideal.exp_coe, ← EReal.coe_mul, ← coe_sum, ← EReal.coe_add]

/-! ### The invariant -/

/-- After at least one block of real data the state is real: the maximum `M` so far, and the
    normaliser and weighted sum of everything so far taken relative to `M`. -/
theorem run_coe {ι : Type} [Fintype ι] [Nonempty ι] (x w : ℕ → ι → ℝ) (n : ℕ) :
    ∃ M : ℝ, run (fun j i => (x j i : EReal)) (fun j i => (w j i : EReal)) (n + 1)
      = ((M : EReal),
         ((∑ j ∈ Finset.range (n + 1), ∑ i, Real.exp (x j i - M) : ℝ) : EReal),
         ((∑ j ∈ Finset.range (n + 1), ∑ i, Real.exp (x j i - M) * w j i : ℝ) : EReal)) := by
  induction n with
  | zero =>
    obtain ⟨b, hb⟩ := exists_coe_sup (x 0)
    refine ⟨b, ?_⟩
    show step (⊥, 0, 0) _ _ = _
    rw [step_bot b (x 0) (w 0) hb, Finset.sum_range_one, Finset.sum_range_one]
  | succ n ih =>
    obtain ⟨M, hM⟩ := ih
    obtain ⟨b, hb⟩ := exists_coe_sup (x (n + 1))
    refine ⟨max M b, ?_⟩
    show step (run _ _ (n + 1)) _ _ = _
    rw [hM, step_coe M _ _ b (x (n + 1)) (w (n + 1)) hb,
      Finset.sum_range_succ _ (n + 1), Finset.sum_range_succ _ (n + 1),
      ← rescale_sum M (max M b) (Finset.range (n + 1)) x w]
    have h1 := rescale_sum M (max M b) (Finset.range (n + 1)) x (fun _ _ => 1)
    simp only [mul_one] at h1
    rw [h1]

/-! ### The law -/

theorem online_eq_softmax {J : ℕ} {ι κ : Type} [Fintype ι] [Nonempty ι] [Fintype κ] (hJ : 0 < J)
    (e : Fin J × ι ≃ κ) (s v : κ → ℝ) (sb vb : ℕ → ι → EReal)
    (hs : ∀ (j : Fin J) (i : ι), sb j i = ((s (e (j, i)) : ℝ) : EReal))
    (hv : ∀ (j : Fin J) (i : ι), vb j i = ((v (e (j, i)) : ℝ) : EReal)) :
    Ideal.div (run sb vb J).2.2 (run sb vb J).2.1
      = ∑ k, Ideal.div (Ideal.exp ((s k : EReal) - Finset.univ.sup fun k' => (s k' : EReal)))
              (∑ k', Ideal.exp ((s k' : EReal) - Finset.univ.sup fun k'' => (s k'' : EReal)))
            * (v k : EReal) := by
  obtain ⟨n, rfl⟩ : ∃ n, J = n + 1 := ⟨J - 1, by omega⟩
  haveI : Nonempty κ := ⟨e (⟨0, hJ⟩, Classical.arbitrary ι)⟩
  -- the blocks as real data, extended by zero past the last block
  let x : ℕ → ι → ℝ := fun j i => if h : j < n + 1 then s (e (⟨j, h⟩, i)) else 0
  let w : ℕ → ι → ℝ := fun j i => if h : j < n + 1 then v (e (⟨j, h⟩, i)) else 0
  have hx : ∀ (j : Fin (n + 1)) (i : ι), x j i = s (e (j, i)) := fun j i => by
    simp only [x, dif_pos j.2, Fin.eta]
  have hw : ∀ (j : Fin (n + 1)) (i : ι), w j i = v (e (j, i)) := fun j i => by
    simp only [w, dif_pos j.2, Fin.eta]
  have hrun : run sb vb (n + 1)
      = run (fun j i => (x j i : EReal)) (fun j i => (w j i : EReal)) (n + 1) := by
    apply run_congr
    · intro j hj; funext i; rw [hs ⟨j, hj⟩ i, ← hx ⟨j, hj⟩ i]
    · intro j hj; funext i; rw [hv ⟨j, hj⟩ i, ← hw ⟨j, hj⟩ i]
  obtain ⟨M, hM⟩ := run_coe x w n
  -- the final running maximum is the maximum of all scores
  have hsup : Finset.univ.sup (fun k => (s k : EReal)) = (M : EReal) := by
    have h1 := run_fst (fun j i => (x j i : EReal)) (fun j i => (w j i : EReal)) (n + 1)
    rw [hM] at h1
    rw [show ((M : EReal)) = _ from h1]
    exact (sup_blocks e _ _ (fun j i => by rw [hx])).symm
  have hL : ∑ j ∈ Finset.range (n + 1), ∑ i, Real.exp (x j i - M) = ∑ k, Real.exp (s k - M) :=
    sum_blocks e (fun k => Real.exp (s k - M)) (fun j i => Real.exp (x j i - M))
      (fun j i => by rw [hx])
  have hA : ∑ j ∈ Finset.range (n + 1), ∑ i, Real.exp (x j i - M) * w j i
      = ∑ k, Real.exp (s k - M) * v k :=
    sum_blocks e (fun k => Real.exp (s k - M) * v k) (fun j i => Real.exp (x j i - M) * w j i)
      (fun j i => by rw [hx, hw])
  have hLpos : 0 < ∑ k, Real.exp (s k - M) :=
    Finset.sum_pos (fun k _ => Real.exp_pos _) Finset.univ_nonempty
  rw [hrun, hM]
  dsimp only
  rw [hL, hA, hsup]
  simp only [← EReal.coe_sub, Ideal.exp_coe, ← coe_sum, Ideal.div_coe hLpos.ne', ← EReal.coe_mul]
  congr 1
  rw [Finset.sum_mul]
  exact Finset.sum_congr rfl (fun k _ => by ring)

end Cert.OnlineSoftmax
-- ==== Proof.SpecReal.lean ====
import proofs.«150601_j68384469286917_2_alg».proof.Proof.Spec
import proofs.«150601_j68384469286917_2_alg».proof.Proof.OnlineSoftmax

/-!
# The specification on real inputs

When every input is a real number, the projections and the scores of the specification are
real numbers too, and the softmax-weighted sum over the 8192 keys can be accumulated in 16
blocks of 512 keys by the online recurrence.
-/

noncomputable section

open Idealize.ShloMosaic Idealize.ShloMosaic.ValueIdx
open scoped BigOperators

namespace Cert.Attn

/-! ### The 8192 keys as 16 blocks of 512 -/

/-- Key `512·j + i` is key `i` of block `j`. -/
def blockEquiv : Fin 16 × Fin 512 ≃ Fin 8192 where
  toFun p := ⟨512 * p.1.val + p.2.val, by omega⟩
  invFun m := (⟨m.val / 512, by omega⟩, ⟨m.val % 512, by omega⟩)
  left_inv := by
    rintro ⟨j, i⟩
    ext
    · show (512 * j.val + i.val) / 512 = j.val
      omega
    · show (512 * j.val + i.val) % 512 = i.val
      omega
  right_inv := by
    intro m
    ext
    show 512 * (m.val / 512) + m.val % 512 = m.val
    omega

/-- For real scores and values the blockwise recurrence over 16 blocks of 512 keys ends in the
    softmax-weighted sum over all 8192 keys. -/
theorem attend_eq_run (S V : Fin 8192 → ℝ) (sb vb : ℕ → Fin 512 → EReal)
    (hs : ∀ (j : Fin 16) (i : Fin 512),
      sb j i = ((S ⟨512 * j.val + i.val, by omega⟩ : ℝ) : EReal))
    (hv : ∀ (j : Fin 16) (i : Fin 512),
      vb j i = ((V ⟨512 * j.val + i.val, by omega⟩ : ℝ) : EReal)) :
    Ideal.div (Cert.OnlineSoftmax.run sb vb 16).2.2 (Cert.OnlineSoftmax.run sb vb 16).2.1
      = attend (fun m => (S m : EReal)) (fun m => (V m : EReal)) := by
  rw [Cert.OnlineSoftmax.online_eq_softmax (by norm_num) blockEquiv S V sb vb hs hv]
  rfl

/-! ### The three float literals -/

/-- The pattern of `1.0` denotes the real `1`. -/
theorem ofBits_one : Ideal.ofBits .f32 0x3F800000#32 = ((1 : ℝ) : EReal) := by
  simp [Ideal.ofBits, Ideal.ieee, -EReal.coe_mul]; norm_num

/-- The pattern of `10000.0` denotes the real `10000`. -/
theorem ofBits_10000 : Ideal.ofBits .f32 0x461C4000#32 = ((10000 : ℝ) : EReal) := by
  simp [Ideal.ofBits, Ideal.ieee, -EReal.coe_mul]; norm_num

/-- The pattern of `0.125` denotes the real `1/8`. -/
theorem ofBits_eighth : Ideal.ofBits .f32 0x3E000000#32 = (((1 / 8 : ℝ)) : EReal) := by
  simp [Ideal.ofBits, Ideal.ieee, -EReal.coe_mul]; norm_num

/-! ### Real inputs give real projections and real scores -/

/-- A projection of real features by real weights and a real bias is real. -/
theorem proj_real {X : (⟨2, ![8192, 256]⟩ : Shape).Idx → EReal}
    {W : (⟨2, ![256, 256]⟩ : Shape).Idx → EReal} {b : (⟨1, ![256]⟩ : Shape).Idx → EReal}
    (hX : ∀ i, ∃ r : ℝ, X i = (r : EReal)) (hW : ∀ i, ∃ r : ℝ, W i = (r : EReal))
    (hb : ∀ i, ∃ r : ℝ, b i = (r : EReal)) :
    ∃ q : Fin 4 → Fin 8192 → Fin 64 → ℝ, ∀ h n d, proj X W b h n d = ((q h n d : ℝ) : EReal) := by
  choose x hx using hX
  choose w hw using hW
  choose c hc using hb
  refine ⟨fun h n d => (∑ k : Fin 256, x (ix2 n k) * w (ix2 k (col h d))) + c (ix1 (col h d)),
    fun h n d => ?_⟩
  simp only [proj, hx, hw, hc, ← EReal.coe_mul, ← Cert.OnlineSoftmax.coe_sum, ← EReal.coe_add]

/-- The score of real queries and keys is real: the integer mask term is real as well. -/
theorem score_real (q k : Fin 4 → Fin 8192 → Fin 64 → ℝ)
    (E : (⟨2, ![8192, 8192]⟩ : Shape).Idx → BitVec 32) :
    ∃ s : Fin 4 → Fin 8192 → Fin 8192 → ℝ, ∀ h n m,
      score (fun h n d => (q h n d : EReal)) (fun h n d => (k h n d : EReal)) E h n m
        = ((s h n m : ℝ) : EReal) := by
  refine ⟨fun h n m => (∑ d : Fin 64, q h n d * k h m d) * (1 / 8)
      + (((E (ix2 m n)).toInt : ℝ) - 1) * 10000, fun h n m => ?_⟩
  simp only [score, mask, ofBits_one, ofBits_10000, ofBits_eighth, ← EReal.coe_mul,
    ← Cert.OnlineSoftmax.coe_sum, ← EReal.coe_sub, ← EReal.coe_add]

end Cert.Attn

end
-- ==== Proof.SpecRun.lean ====
import proofs.«150601_j68384469286917_2_alg».proof.Proof.SpecReal

/-!
# From the blockwise recurrence to the specification

For real inputs, the quotient of the two accumulators the online recurrence ends with, run over the
16 blocks of 512 keys of one (head, query, feature) with the specification's scores and values,
is the specification's result there.
-/

noncomputable section

open Idealize.ShloMosaic Idealize.ShloMosaic.ValueIdx
open scoped BigOperators

namespace Cert.Attn

/-- The scores and values of one (head, query, feature) are real when the inputs are, so the
    recurrence over their blocks ends in the softmax-weighted sum the specification states. -/
theorem out_of_run {X : (⟨2, ![8192, 256]⟩ : Shape).Idx → EReal} {E : (⟨2, ![8192, 8192]⟩ : Shape).Idx → BitVec 32}
    {Wq Wk Wv : (⟨2, ![256, 256]⟩ : Shape).Idx → EReal} {bq bk bv : (⟨1, ![256]⟩ : Shape).Idx → EReal}
    (hX : ∀ i, ∃ r : ℝ, X i = (r : EReal)) (hWq : ∀ i, ∃ r : ℝ, Wq i = (r : EReal)) (hbq : ∀ i, ∃ r : ℝ, bq i = (r : EReal))
    (hWk : ∀ i, ∃ r : ℝ, Wk i = (r : EReal)) (hbk : ∀ i, ∃ r : ℝ, bk i = (r : EReal))
    (hWv : ∀ i, ∃ r : ℝ, Wv i = (r : EReal)) (hbv : ∀ i, ∃ r : ℝ, bv i = (r : EReal))
    (h : Fin 4) (n : Fin 8192) (d : Fin 64) (sb vb : ℕ → Fin 512 → EReal)
    (hs : ∀ (j : Fin 16) (i : Fin 512),
      sb j i = score (proj X Wq bq) (proj X Wk bk) E h n ⟨512 * j.val + i.val, by omega⟩)
    (hv : ∀ (j : Fin 16) (i : Fin 512),
      vb j i = proj X Wv bv h ⟨512 * j.val + i.val, by omega⟩ d) :
    Ideal.div (Cert.OnlineSoftmax.run sb vb 16).2.2 (Cert.OnlineSoftmax.run sb vb 16).2.1
      = out X E Wq bq Wk bk Wv bv n h d := by
  obtain ⟨q, hq⟩ := proj_real hX hWq hbq
  obtain ⟨k, hk⟩ := proj_real hX hWk hbk
  obtain ⟨v, hv'⟩ := proj_real hX hWv hbv
  obtain ⟨s, hsr⟩ := score_real q k E
  have eq : proj X Wq bq = fun h n d => ((q h n d : ℝ) : EReal) :=
    funext fun h => funext fun n => funext fun d => hq h n d
  have ek : proj X Wk bk = fun h n d => ((k h n d : ℝ) : EReal) :=
    funext fun h => funext fun n => funext fun d => hk h n d
  have hS : (fun m => score (proj X Wq bq) (proj X Wk bk) E h n m) = fun m => ((s h n m : ℝ) : EReal) :=
    funext fun m => by rw [eq, ek]; exact hsr h n m
  have hV : (fun m => proj X Wv bv h m d) = fun m => ((v h m d : ℝ) : EReal) :=
    funext fun m => hv' h m d
  unfold out
  rw [hS, hV]
  exact attend_eq_run (s h n) (fun m => v h m d) sb vb
    (fun j i => (hs j i).trans (congrFun hS _)) (fun j i => (hv j i).trans (congrFun hV _))

end Cert.Attn

end
-- ==== Proof.KernelIdeal.Bridge.lean ====
/- The kernel's result as the specification: what the second region reads is the specification's three projections
   and the integer array, each row of its output is then the specification's softmax-weighted sum, and the last host
   operations lay those rows out as the result array. -/
import proofs.«150601_j68384469286917_2_alg».proof.Defs
import proofs.«150601_j68384469286917_2_alg».proof.Proof.KernelIdeal.Run
import proofs.«150601_j68384469286917_2_alg».proof.Proof.KernelIdeal.Region0Value
import proofs.«150601_j68384469286917_2_alg».proof.Proof.KernelIdeal.HostReads
import proofs.«150601_j68384469286917_2_alg».proof.Proof.FiniteInputs
import proofs.«150601_j68384469286917_2_alg».proof.Proof.SpecReal
import proofs.«150601_j68384469286917_2_alg».proof.Proof.SpecRun

set_option maxRecDepth 16384

noncomputable section

namespace Cert.KernelIdeal.Bridge

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-! ## The arguments, named as the specification names them -/

/-- The node features. -/
abbrev aX (c : Dev nD) : (⟨2, ![8192, 256]⟩ : Shape).Idx → EReal := m ((c.tc : Thread nD τ).loc main_arg0)
/-- The integer adjacency. -/
abbrev aE (c : Dev nD) : (⟨2, ![8192, 8192]⟩ : Shape).Idx → BitVec 32 := m ((c.tc : Thread nD τ).loc main_arg1)
/-- The three projections' weights and biases. -/
abbrev aWq (c : Dev nD) : (⟨2, ![256, 256]⟩ : Shape).Idx → EReal := m ((c.tc : Thread nD τ).loc main_arg2)
abbrev abq (c : Dev nD) : (⟨1, ![256]⟩ : Shape).Idx → EReal := m ((c.tc : Thread nD τ).loc main_arg3)
abbrev aWk (c : Dev nD) : (⟨2, ![256, 256]⟩ : Shape).Idx → EReal := m ((c.tc : Thread nD τ).loc main_arg4)
abbrev abk (c : Dev nD) : (⟨1, ![256]⟩ : Shape).Idx → EReal := m ((c.tc : Thread nD τ).loc main_arg5)
abbrev aWv (c : Dev nD) : (⟨2, ![256, 256]⟩ : Shape).Idx → EReal := m ((c.tc : Thread nD τ).loc main_arg6)
abbrev abv (c : Dev nD) : (⟨1, ![256]⟩ : Shape).Idx → EReal := m ((c.tc : Thread nD τ).loc main_arg7)

/-- The result array the certificate names: the specification's, of the launch contents of the eight arguments. -/
def v0 (c : Dev nD) : Buf (Elt Ideal) ((c.tc : Thread nD τ).loc main_v12) :=
  Cert.Attn.G (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))

/-! ## What the second region reads -/

/-- The second region's four inputs as it finds them, as arrays of extended reals and of integers. -/
abbrev rQ (c : Dev nD) : S4x8192x64.Idx → EReal := T2 (F := Ideal) m ρ c main_v9_0
abbrev rK (c : Dev nD) : S4x8192x64.Idx → EReal := T2 (F := Ideal) m ρ c main_v9_1
abbrev rV (c : Dev nD) : S4x8192x64.Idx → EReal := T2 (F := Ideal) m ρ c main_v9_2
abbrev rE (c : Dev nD) : S8192x8192.Idx → BitVec 32 := T2 (F := Ideal) m ρ c main_arg1

/-- Its first input is the query projection of the arguments. -/
theorem q_entry (c : Dev nD) (h : Fin 4) (n : Fin 8192) (d : Fin 64) :
    rQ m ρ c (ix3 h n d)
      = Cert.Attn.proj (aX m c) (aWq m c) (abq m c) h n d := by
  have e : (T2 (F := Ideal) m ρ c main_v9_0 : S4x8192x64.Idx → EReal)
      = ((dat0 (T1 m ρ) c).arrAt 7 cfg0.N : S4x8192x64.Idx → Elt Ideal .bf16) := V2_main_v9_0 m ρ c
  exact (congrFun e (ix3 h n d)).trans
    ((Gen0Value.final0_7_apply (T1 m ρ) c h n d).trans (HostVal.proj_q (W0 m ρ c) h n d))

/-- Its second input is the key projection of the arguments. -/
theorem k_entry (c : Dev nD) (h : Fin 4) (n : Fin 8192) (d : Fin 64) :
    rK m ρ c (ix3 h n d)
      = Cert.Attn.proj (aX m c) (aWk m c) (abk m c) h n d := by
  have e : (T2 (F := Ideal) m ρ c main_v9_1 : S4x8192x64.Idx → EReal)
      = ((dat0 (T1 m ρ) c).arrAt 8 cfg0.N : S4x8192x64.Idx → Elt Ideal .bf16) := V2_main_v9_1 m ρ c
  exact (congrFun e (ix3 h n d)).trans
    ((Gen0Value.final0_8_apply (T1 m ρ) c h n d).trans (HostVal.proj_k (W0 m ρ c) h n d))

/-- Its third input is the value projection of the arguments. -/
theorem v_entry (c : Dev nD) (h : Fin 4) (n : Fin 8192) (d : Fin 64) :
    rV m ρ c (ix3 h n d)
      = Cert.Attn.proj (aX m c) (aWv m c) (abv m c) h n d := by
  have e : (T2 (F := Ideal) m ρ c main_v9_2 : S4x8192x64.Idx → EReal)
      = ((dat0 (T1 m ρ) c).arrAt 9 cfg0.N : S4x8192x64.Idx → Elt Ideal .bf16) := V2_main_v9_2 m ρ c
  exact (congrFun e (ix3 h n d)).trans
    ((Gen0Value.final0_9_apply (T1 m ρ) c h n d).trans (HostVal.proj_v (W0 m ρ c) h n d))

/-- Its fourth input is the integer array as launched. -/
theorem e_entry (c : Dev nD) : rE m ρ c = aE m c := V2_main_arg1 m ρ c

/-! ## One row of the second region's output -/

/-- Under the precondition every float argument is real, so the blockwise recurrence over one (head, query,
    feature)'s scores and values, as the second region reads them, ends in the specification's result there. -/
theorem row_value (hpre : @Cert.Pre_KernelIdeal Cert.Pre_finite_inputs.Gen.facts m) (c : Dev nD)
    (h : Fin 4) (n : Fin 8192) (d : Fin 64) (sb vb : ℕ → Fin 512 → EReal)
    (hs : ∀ (j : Fin 16) (i : Fin 512), sb j i
      = (∑ d' : Fin 64, rQ m ρ c (ix3 h n d')
            * rK m ρ c (ix3 h ⟨512 * j.val + i.val, by omega⟩ d'))
          * Ideal.ofBits .f32 0x3E000000#32
        + ((((rE m ρ c (ix2 ⟨512 * j.val + i.val, by omega⟩ n)).toInt : ℝ) : EReal)
            - Ideal.ofBits .f32 0x3F800000#32) * Ideal.ofBits .f32 0x461C4000#32)
    (hv : ∀ (j : Fin 16) (i : Fin 512), vb j i
      = rV m ρ c (ix3 h ⟨512 * j.val + i.val, by omega⟩ d)) :
    Ideal.div (Cert.OnlineSoftmax.run sb vb 16).2.2 (Cert.OnlineSoftmax.run sb vb 16).2.1
      = Cert.Attn.out (aX m c) (aE m c) (aWq m c) (abq m c) (aWk m c) (abk m c) (aWv m c) (abv m c) n h d := by
  obtain ⟨hX, hWq, hbq, hWk, hbk, hWv, hbv⟩ :=
    Cert.FiniteInputs.finite_of_pre (aX m c) (aE m c) (aWq m c) (abq m c) (aWk m c) (abk m c) (aWv m c) (abv m c) (hpre c)
  refine Cert.Attn.out_of_run hX hWq hbq hWk hbk hWv hbv h n d sb vb (fun j i => ?_) (fun j i => ?_)
  · refine (hs j i).trans ?_
    simp only [q_entry m ρ c, k_entry m ρ c]
    rw [e_entry m ρ c]
    rfl
  · exact (hv j i).trans (v_entry m ρ c h _ d)

/-! ## The result array -/

/-- If every row of the second region's output is the specification's result there, the array the last host
    operations produce is the specification's result array. -/
theorem kernel_value_of (hpre : @Cert.Pre_KernelIdeal Cert.Pre_finite_inputs.Gen.facts m) (c : Dev nD)
    (hfinal : ∀ (h : Fin 4) (n : Fin 8192) (d : Fin 64),
      ((dat1 (T2 (F := Ideal) m ρ) c).arrAt 4 cfg1.N : S4x8192x64.Idx → EReal) (ix3 h n d)
        = Cert.Attn.out (aX m c) (aE m c) (aWq m c) (abq m c) (aWk m c) (abk m c) (aWv m c) (abv m c) n h d) :
    W4 (F := Ideal) m ρ c (Proc.devRef .tc main_v12) = v0 m c := by
  show (StableHlo.after (hostOps2 (F := Ideal)) (W3 m ρ c) (Proc.devRef .tc main_v12) : S8192x256.Idx → EReal) = v0 m c
  funext i
  rw [HostVal.v12_apply (W3 m ρ c) i]
  have e : (W3 (F := Ideal) m ρ c (Proc.devRef .tc main_v10) : S4x8192x64.Idx → EReal)
      = ((dat1 (T2 (F := Ideal) m ρ) c).arrAt 4 cfg1.N : S4x8192x64.Idx → EReal) := W3_main_v10 m ρ c
  rw [e, hfinal]
  rfl

end Cert.KernelIdeal.Bridge

end
-- ==== Proof.KernelIdeal.Region1Pay.lean ====
/-
  The attention kernel's arithmetic for one key block, read at an index, at the exact reading of floats (a float an
  extended real, every operation exact): the block's scores, and the update of the running maximum, normaliser and
  weighted sum of one query row as one step of the blockwise softmax recurrence.
-/
import proofs.«150601_j68384469286917_2_alg».proof.Proof.Gen.KernelIdeal.Skeleton
import proofs.«150601_j68384469286917_2_alg».proof.Proof.OnlineSoftmax
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay1

open Cert.KernelIdeal Cert.KernelIdeal.Gen Idealize.ShloMosaic Idealize.ShloMosaic.ValueIdx
open scoped BigOperators

/-! ## Layout operations on a trailing unit axis, read at an index -/

section Layout
variable {α : Type}

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- An `[a, b, 1]` array broadcast to `[a, b, c]` reads, at `(p, q, x)`, the operand's one entry of row `(p, q)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (x : Fin c) :
    broadcastTo ⟨3, ![a, b, c]⟩ v h (ix3 p q x) = v (ix3 p q (0 : Fin 1)) := by
  refine broadcastTo_apply v h (ix3 p q x) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A `[1, a, b]` array broadcast to `[m, a, b]` reads, at `(k, i, j)`, the operand at `(0, i, j)`. -/
theorem broadcastTo_1ab_mab_apply {m a b : ℕ} (v : (⟨3, ![1, a, b]⟩ : Shape).Idx → α)
    (h : (⟨3, ![1, a, b]⟩ : Shape).Broadcasts ⟨3, ![m, a, b]⟩) (k : Fin m) (i : Fin a) (j : Fin b) :
    broadcastTo ⟨3, ![m, a, b]⟩ v h (ix3 k i j) = v (ix3 (0 : Fin 1) i j) := by
  refine broadcastTo_apply v h (ix3 k i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

end Layout

/-! ## The float words -/

/-- The word of −∞ denotes the bottom element. -/
theorem ofBits_neg_inf : Ideal.ofBits .f32 0xFF800000#32 = ⊥ := by
  simp [Ideal.ofBits, Ideal.ieee]

/-! ## The state before the first block, and the result after the last -/

/-- The running maximum starts at −∞. -/
theorem pay6_eq : k1_pay6 (F := Ideal) = fun _ => (⊥ : EReal) := by
  unfold k1_pay6
  try dsimp only
  rw [shapeCast_self]
  funext i
  exact ofBits_neg_inf

/-- The running normaliser starts at zero. -/
theorem pay7_eq : k1_pay7 (F := Ideal) = fun _ => (0 : EReal) := by
  unfold k1_pay7
  try dsimp only
  rw [shapeCast_self]
  funext i
  exact Ideal.ofBits_zero_f32

/-- The running weighted sum starts at zero. -/
theorem pay8_eq : k1_pay8 (F := Ideal) = fun _ => (0 : EReal) := by
  unfold k1_pay8
  try dsimp only
  rw [shapeCast_self]
  funext i
  exact Ideal.ofBits_zero_f32

theorem init_max (h : Fin 4) (r : Fin 256) : k1_pay6 (F := Ideal) (ix3 h r (0 : Fin 1)) = ⊥ := congrFun pay6_eq _
theorem init_norm (h : Fin 4) (r : Fin 256) : k1_pay7 (F := Ideal) (ix3 h r (0 : Fin 1)) = 0 := congrFun pay7_eq _
theorem init_acc (h : Fin 4) (r : Fin 256) (d : Fin 64) : k1_pay8 (F := Ideal) (ix3 h r d) = 0 := congrFun pay8_eq _

/-- The result of row (h, r), feature d: the weighted sum over the normaliser. -/
theorem final_row (aa : Vec Ideal S4x256x64 .f32) (ll : Vec Ideal S4x256x1 .f32) (h : Fin 4) (r : Fin 256) (d : Fin 64) :
    k1_pay5 (F := Ideal) aa ll (ix3 h r d) = Ideal.div (aa (ix3 h r d)) (ll (ix3 h r (0 : Fin 1))) := by
  unfold k1_pay5
  try dsimp only
  rw [divf_apply, broadcastTo_ab1_abc_apply]

/-! ## The two matrix products, read at an index -/

theorem qk_lhs_0 (i : S4x256x512.Idx) (q : dot_S4x256x64_S4x512x64_S4x256x512_2_2_1_1_0_0.contr.Idx) :
    (dot_S4x256x64_S4x512x64_S4x256x512_2_2_1_1_0_0.lhsIdx i q 0).val = (i 0).val := by
  unfold DotDims.lhsIdx
  rw [dif_pos (show (0 : Fin S4x256x64.rank) ∈ dot_S4x256x64_S4x512x64_S4x256x512_2_2_1_1_0_0.lhsBatch by decide)]
  rfl
theorem qk_lhs_1 (i : S4x256x512.Idx) (q : dot_S4x256x64_S4x512x64_S4x256x512_2_2_1_1_0_0.contr.Idx) :
    (dot_S4x256x64_S4x512x64_S4x256x512_2_2_1_1_0_0.lhsIdx i q 1).val = (i 1).val := by
  unfold DotDims.lhsIdx
  rw [dif_neg (show ¬(1 : Fin S4x256x64.rank) ∈ dot_S4x256x64_S4x512x64_S4x256x512_2_2_1_1_0_0.lhsBatch by decide), dif_pos (show (1 : Fin S4x256x64.rank) ∈ dot_S4x256x64_S4x512x64_S4x256x512_2_2_1_1_0_0.lhsNonContracting by decide)]
  rfl
theorem qk_lhs_2 (i : S4x256x512.Idx) (q : dot_S4x256x64_S4x512x64_S4x256x512_2_2_1_1_0_0.contr.Idx) :
    (dot_S4x256x64_S4x512x64_S4x256x512_2_2_1_1_0_0.lhsIdx i q 2).val = (q ⟨0, by decide⟩).val :=
  dot_S4x256x64_S4x512x64_S4x256x512_2_2_1_1_0_0.lhsIdx_val_of_single rfl i q
theorem qk_rhs_0 (i : S4x256x512.Idx) (q : dot_S4x256x64_S4x512x64_S4x256x512_2_2_1_1_0_0.contr.Idx) :
    (dot_S4x256x64_S4x512x64_S4x256x512_2_2_1_1_0_0.rhsIdx i q 0).val = (i 0).val := by
  unfold DotDims.rhsIdx
  rw [dif_pos (show (0 : Fin S4x512x64.rank) ∈ dot_S4x256x64_S4x512x64_S4x256x512_2_2_1_1_0_0.rhsBatch by decide)]
  rfl
theorem qk_rhs_1 (i : S4x256x512.Idx) (q : dot_S4x256x64_S4x512x64_S4x256x512_2_2_1_1_0_0.contr.Idx) :
    (dot_S4x256x64_S4x512x64_S4x256x512_2_2_1_1_0_0.rhsIdx i q 1).val = (i 2).val := by
  unfold DotDims.rhsIdx
  rw [dif_neg (show ¬(1 : Fin S4x512x64.rank) ∈ dot_S4x256x64_S4x512x64_S4x256x512_2_2_1_1_0_0.rhsBatch by decide), dif_pos (show (1 : Fin S4x512x64.rank) ∈ dot_S4x256x64_S4x512x64_S4x256x512_2_2_1_1_0_0.rhsNonContracting by decide)]
  rfl
theorem qk_rhs_2 (i : S4x256x512.Idx) (q : dot_S4x256x64_S4x512x64_S4x256x512_2_2_1_1_0_0.contr.Idx) :
    (dot_S4x256x64_S4x512x64_S4x256x512_2_2_1_1_0_0.rhsIdx i q 2).val = (q ⟨0, by decide⟩).val :=
  dot_S4x256x64_S4x512x64_S4x256x512_2_2_1_1_0_0.rhsIdx_val_of_single rfl i q

/-- Scores: the batched product over the feature axis, into the zero accumulator, at (h, r, j). -/
theorem qk_apply (a : FVec Ideal S4x256x64 .bf16) (b : FVec Ideal S4x512x64 .bf16) (h : Fin 4) (r : Fin 256) (j : Fin 512) :
    matmul dot_S4x256x64_S4x512x64_S4x256x512_2_2_1_1_0_0 none a b (constant (F := Ideal) S4x256x512 .f32 0x00000000#32) (ix3 h r j)
      = ∑ d : Fin 64, a (ix3 h r d) * b (ix3 h j d) := by
  simp only [matmul]
  rw [Ideal.matmul_constant_zero_apply, ← Equiv.sum_comp (contrEquiv1 dot_S4x256x64_S4x512x64_S4x256x512_2_2_1_1_0_0 64 rfl rfl).symm]
  refine Finset.sum_congr rfl fun k _ => ?_
  have hk := contrEquiv1_symm_val dot_S4x256x64_S4x512x64_S4x256x512_2_2_1_1_0_0 64 rfl rfl k
  have el : dot_S4x256x64_S4x512x64_S4x256x512_2_2_1_1_0_0.lhsIdx (ix3 h r j) ((contrEquiv1 dot_S4x256x64_S4x512x64_S4x256x512_2_2_1_1_0_0 64 rfl rfl).symm k) = ix3 h r k := funext fun c => Fin.ext (by
    match c with
    | ⟨0, _⟩ => exact qk_lhs_0 _ _
    | ⟨1, _⟩ => exact qk_lhs_1 _ _
    | ⟨2, _⟩ => exact (qk_lhs_2 _ _).trans hk)
  have er : dot_S4x256x64_S4x512x64_S4x256x512_2_2_1_1_0_0.rhsIdx (ix3 h r j) ((contrEquiv1 dot_S4x256x64_S4x512x64_S4x256x512_2_2_1_1_0_0 64 rfl rfl).symm k) = ix3 h j k := funext fun c => Fin.ext (by
    match c with
    | ⟨0, _⟩ => exact qk_rhs_0 _ _
    | ⟨1, _⟩ => exact qk_rhs_1 _ _
    | ⟨2, _⟩ => exact (qk_rhs_2 _ _).trans hk)
  rw [el, er]

theorem pv_lhs_0 (i : S4x256x64.Idx) (q : dot_S4x256x512_S4x512x64_S4x256x64_2_1_1_2_0_0.contr.Idx) :
    (dot_S4x256x512_S4x512x64_S4x256x64_2_1_1_2_0_0.lhsIdx i q 0).val = (i 0).val := by
  unfold DotDims.lhsIdx
  rw [dif_pos (show (0 : Fin S4x256x512.rank) ∈ dot_S4x256x512_S4x512x64_S4x256x64_2_1_1_2_0_0.lhsBatch by decide)]
  rfl
theorem pv_lhs_1 (i : S4x256x64.Idx) (q : dot_S4x256x512_S4x512x64_S4x256x64_2_1_1_2_0_0.contr.Idx) :
    (dot_S4x256x512_S4x512x64_S4x256x64_2_1_1_2_0_0.lhsIdx i q 1).val = (i 1).val := by
  unfold DotDims.lhsIdx
  rw [dif_neg (show ¬(1 : Fin S4x256x512.rank) ∈ dot_S4x256x512_S4x512x64_S4x256x64_2_1_1_2_0_0.lhsBatch by decide), dif_pos (show (1 : Fin S4x256x512.rank) ∈ dot_S4x256x512_S4x512x64_S4x256x64_2_1_1_2_0_0.lhsNonContracting by decide)]
  rfl
theorem pv_lhs_2 (i : S4x256x64.Idx) (q : dot_S4x256x512_S4x512x64_S4x256x64_2_1_1_2_0_0.contr.Idx) :
    (dot_S4x256x512_S4x512x64_S4x256x64_2_1_1_2_0_0.lhsIdx i q 2).val = (q ⟨0, by decide⟩).val :=
  dot_S4x256x512_S4x512x64_S4x256x64_2_1_1_2_0_0.lhsIdx_val_of_single rfl i q
theorem pv_rhs_0 (i : S4x256x64.Idx) (q : dot_S4x256x512_S4x512x64_S4x256x64_2_1_1_2_0_0.contr.Idx) :
    (dot_S4x256x512_S4x512x64_S4x256x64_2_1_1_2_0_0.rhsIdx i q 0).val = (i 0).val := by
  unfold DotDims.rhsIdx
  rw [dif_pos (show (0 : Fin S4x512x64.rank) ∈ dot_S4x256x512_S4x512x64_S4x256x64_2_1_1_2_0_0.rhsBatch by decide)]
  rfl
theorem pv_rhs_1 (i : S4x256x64.Idx) (q : dot_S4x256x512_S4x512x64_S4x256x64_2_1_1_2_0_0.contr.Idx) :
    (dot_S4x256x512_S4x512x64_S4x256x64_2_1_1_2_0_0.rhsIdx i q 1).val = (q ⟨0, by decide⟩).val :=
  dot_S4x256x512_S4x512x64_S4x256x64_2_1_1_2_0_0.rhsIdx_val_of_single rfl i q
theorem pv_rhs_2 (i : S4x256x64.Idx) (q : dot_S4x256x512_S4x512x64_S4x256x64_2_1_1_2_0_0.contr.Idx) :
    (dot_S4x256x512_S4x512x64_S4x256x64_2_1_1_2_0_0.rhsIdx i q 2).val = (i 2).val := by
  unfold DotDims.rhsIdx
  rw [dif_neg (show ¬(2 : Fin S4x512x64.rank) ∈ dot_S4x256x512_S4x512x64_S4x256x64_2_1_1_2_0_0.rhsBatch by decide), dif_pos (show (2 : Fin S4x512x64.rank) ∈ dot_S4x256x512_S4x512x64_S4x256x64_2_1_1_2_0_0.rhsNonContracting by decide)]
  rfl

/-- Weighted values: the batched product over the key axis, into the zero accumulator, at (h, r, d). -/
theorem pv_apply (p : FVec Ideal S4x256x512 .bf16) (v : FVec Ideal S4x512x64 .bf16) (h : Fin 4) (r : Fin 256) (d : Fin 64) :
    matmul dot_S4x256x512_S4x512x64_S4x256x64_2_1_1_2_0_0 none p v (constant (F := Ideal) S4x256x64 .f32 0x00000000#32) (ix3 h r d)
      = ∑ j : Fin 512, p (ix3 h r j) * v (ix3 h j d) := by
  simp only [matmul]
  rw [Ideal.matmul_constant_zero_apply, ← Equiv.sum_comp (contrEquiv1 dot_S4x256x512_S4x512x64_S4x256x64_2_1_1_2_0_0 512 rfl rfl).symm]
  refine Finset.sum_congr rfl fun k _ => ?_
  have hk := contrEquiv1_symm_val dot_S4x256x512_S4x512x64_S4x256x64_2_1_1_2_0_0 512 rfl rfl k
  have el : dot_S4x256x512_S4x512x64_S4x256x64_2_1_1_2_0_0.lhsIdx (ix3 h r d) ((contrEquiv1 dot_S4x256x512_S4x512x64_S4x256x64_2_1_1_2_0_0 512 rfl rfl).symm k) = ix3 h r k := funext fun c => Fin.ext (by
    match c with
    | ⟨0, _⟩ => exact pv_lhs_0 _ _
    | ⟨1, _⟩ => exact pv_lhs_1 _ _
    | ⟨2, _⟩ => exact (pv_lhs_2 _ _).trans hk)
  have er : dot_S4x256x512_S4x512x64_S4x256x64_2_1_1_2_0_0.rhsIdx (ix3 h r d) ((contrEquiv1 dot_S4x256x512_S4x512x64_S4x256x64_2_1_1_2_0_0 512 rfl rfl).symm k) = ix3 h k d := funext fun c => Fin.ext (by
    match c with
    | ⟨0, _⟩ => exact pv_rhs_0 _ _
    | ⟨1, _⟩ => exact (pv_rhs_1 _ _).trans hk
    | ⟨2, _⟩ => exact pv_rhs_2 _ _)
  rw [el, er]

/-! ## The block's scores -/

/-- The score of head `h`, query row `r`, key `j` of the block: the scaled inner product plus the mask. -/
theorem pay10_apply (v3 : Vec Ideal S4x256x64 .bf16) (v8 : Vec Ideal S4x512x64 .bf16) (v16 : Vec Ideal S512x256 .i32)
    (h : Fin 4) (r : Fin 256) (j : Fin 512) :
    k1_pay10 (F := Ideal) v3 v8 v16 (ix3 h r j)
      = (∑ d : Fin 64, v3 (ix3 h r d) * v8 (ix3 h j d)) * Ideal.ofBits .f32 0x3E000000#32
        + ((((v16 (ix2 j r)).toInt : ℝ) : EReal) - Ideal.ofBits .f32 0x3F800000#32) * Ideal.ofBits .f32 0x461C4000#32 := by
  unfold k1_pay10
  try dsimp only
  rw [addf_apply, mulf_apply, shapeCast_self, shapeCast_self, qk_apply, broadcastTo_1ab_mab_apply, shapeCast_ab_1ab_apply,
    mulf_apply, subf_apply, transpose_ix2_apply]
  rfl

/-! ## The lane reductions of a block, read at a row -/

/-- A fold of `max` from the bottom element is the supremum. -/
theorem fold_max_bot_eq_sup {ι : Type} (s : Finset ι) (f : ι → EReal) : s.fold max ⊥ f = s.sup f := by
  classical
  induction s using Finset.induction_on with
  | empty => rw [Finset.fold_empty, Finset.sup_empty]
  | insert a s ha ih => rw [Finset.fold_insert ha, Finset.sup_insert, ih]

/-- The reduced index (h, r) with key `k` put back on the last axis is (h, r, k). -/
theorem lift_ix3 (h : Fin 4) (r : Fin 256) (k : Fin (S4x256x512.size 2)) :
    reduces_S4x256x512_S4x256.lift (ix2 h r) k = ix3 h r (⟨k.val, k.isLt⟩ : Fin 512) := by
  funext c; apply Fin.ext
  match c with
  | ⟨0, _⟩ => rfl
  | ⟨1, _⟩ => rfl
  | ⟨2, _⟩ => rfl

/-- The maximum over the keys of the block, from −∞, is the supremum of the row. -/
theorem rowMax_apply (src : FVec Ideal S4x256x512 .f32) (h : Fin 4) (r : Fin 256) :
    multiReduction (F := Ideal) .maximumf [2] S4x256 src 0xFF800000#32 reduces_S4x256x512_S4x256 (.inl rfl) rfl (ix2 h r)
      = Finset.univ.sup fun j : Fin 512 => src (ix3 h r j) := by
  refine (Ideal.multiReduction_maximumf_single src 0xFF800000#32 reduces_S4x256x512_S4x256 (.inl rfl) rfl (ix2 h r)).trans ?_
  rw [Ideal.ofBits_def, ofBits_neg_inf]
  have hf : (src ∘ reduces_S4x256x512_S4x256.lift (ix2 h r)) = fun j : Fin 512 => src (ix3 h r j) :=
    funext fun k => congrArg src (lift_ix3 h r k)
  rw [hf]
  exact fold_max_bot_eq_sup Finset.univ _

/-- The sum over the keys of the block, from the zero word. -/
theorem rowSum_apply (src : FVec Ideal S4x256x512 .f32) (h : Fin 4) (r : Fin 256) :
    multiReduction (F := Ideal) .add [2] S4x256 src 0x00000000#32 reduces_S4x256x512_S4x256 (.inl rfl) rfl (ix2 h r)
      = ∑ j : Fin 512, src (ix3 h r j) := by
  refine (Ideal.multiReduction_add_single src 0x00000000#32 reduces_S4x256x512_S4x256 (.inl rfl) rfl (ix2 h r)).trans ?_
  exact Finset.sum_congr rfl fun k _ => congrArg src (lift_ix3 h r k)

/-- The exponential of a vector, read at an index. -/
theorem exp_apply {s : Shape} {φ : FTy} (x : FVec Ideal s φ) (i : s.Idx) : exp x i = Ideal.exp (x i) := rfl

/-! ## One key block updates a row's state by one step of the recurrence -/

section Step
variable (v3 : Vec Ideal S4x256x64 .bf16) (v8 v11 : Vec Ideal S4x512x64 .bf16) (v16 : Vec Ideal S512x256 .i32)
  (mm ll : Vec Ideal S4x256x1 .f32) (aa : Vec Ideal S4x256x64 .f32) (h : Fin 4) (r : Fin 256)

/-- The new running maximum of row (h, r). -/
theorem pay11_apply :
    k1_pay11 (F := Ideal) v3 v8 v16 mm (ix3 h r (0 : Fin 1))
      = max (mm (ix3 h r (0 : Fin 1))) (Finset.univ.sup fun j : Fin 512 => k1_pay10 (F := Ideal) v3 v8 v16 (ix3 h r j)) := by
  unfold k1_pay11
  try dsimp only
  rw [maximumf_apply, shapeCast_ab_ab1_apply, rowMax_apply]

/-- The factor that rescales the old normaliser and weighted sum. -/
theorem pay12_apply :
    k1_pay12 (F := Ideal) v3 v8 v16 mm mm (ix3 h r (0 : Fin 1))
      = Ideal.exp (mm (ix3 h r (0 : Fin 1))
          - max (mm (ix3 h r (0 : Fin 1))) (Finset.univ.sup fun j : Fin 512 => k1_pay10 (F := Ideal) v3 v8 v16 (ix3 h r j))) := by
  unfold k1_pay12
  try dsimp only
  rw [exp_apply, subf_apply, pay11_apply]

/-- The new maximum broadcast along the keys. -/
theorem pay13_apply (j : Fin 512) :
    k1_pay13 (F := Ideal) v3 v8 v16 mm (ix3 h r j)
      = max (mm (ix3 h r (0 : Fin 1))) (Finset.univ.sup fun j : Fin 512 => k1_pay10 (F := Ideal) v3 v8 v16 (ix3 h r j)) := by
  unfold k1_pay13
  try dsimp only
  rw [broadcastTo_ab1_abc_apply, pay11_apply]

end Step

/-- The new normaliser of row (h, r): the old one rescaled plus the block's weights. -/
theorem pay2_apply (v25 : FVec Ideal S4x256x512 .f32) (v32 : FVec Ideal S4x256x1 .f32) (v33 : FVec Ideal S4x256x512 .f32)
    (v36 : Vec Ideal S4x256x1 .f32) (h : Fin 4) (r : Fin 256) :
    k1_pay2 (F := Ideal) v25 v32 v33 v36 (ix3 h r (0 : Fin 1))
      = v32 (ix3 h r (0 : Fin 1)) * v36 (ix3 h r (0 : Fin 1))
        + ∑ j : Fin 512, Ideal.exp (v25 (ix3 h r j) - v33 (ix3 h r j)) := by
  unfold k1_pay2
  try dsimp only
  rw [shapeCast_self, addf_apply, mulf_apply, shapeCast_ab_ab1_apply, rowSum_apply]
  rfl

/-- The new weighted sum of row (h, r), feature d: the old one rescaled plus the block's weighted values. -/
theorem pay3_apply (v12 : FVec Ideal S4x512x64 .bf16) (v25 : FVec Ideal S4x256x512 .f32) (v32 : FVec Ideal S4x256x1 .f32)
    (v33 : FVec Ideal S4x256x512 .f32) (v46 : Vec Ideal S4x256x64 .f32) (h : Fin 4) (r : Fin 256) (d : Fin 64) :
    k1_pay3 (F := Ideal) v12 v25 v32 v33 v46 (ix3 h r d)
      = v32 (ix3 h r (0 : Fin 1)) * v46 (ix3 h r d)
        + ∑ j : Fin 512, Ideal.exp (v25 (ix3 h r j) - v33 (ix3 h r j)) * v12 (ix3 h j d) := by
  unfold k1_pay3
  try dsimp only
  rw [shapeCast_self, addf_apply, mulf_apply, broadcastTo_ab1_abc_apply, pv_apply]
  rfl

/-- One key block updates (maximum, normaliser, weighted sum) of row (h, r), feature d, by one step of the blockwise
    softmax recurrence on the block's 512 scores and values. -/
theorem step_row (v3 : Vec Ideal S4x256x64 .bf16) (v8 v11 : Vec Ideal S4x512x64 .bf16) (v16 : Vec Ideal S512x256 .i32)
    (mm ll : Vec Ideal S4x256x1 .f32) (aa : Vec Ideal S4x256x64 .f32) (h : Fin 4) (r : Fin 256) (d : Fin 64) :
    (k1_pay4 (F := Ideal) (k1_pay11 (F := Ideal) v3 v8 v16 mm) (ix3 h r (0 : Fin 1)),
     k1_pay2 (F := Ideal) (k1_pay10 (F := Ideal) v3 v8 v16) (k1_pay12 (F := Ideal) v3 v8 v16 mm mm)
       (k1_pay13 (F := Ideal) v3 v8 v16 mm) ll (ix3 h r (0 : Fin 1)),
     k1_pay3 (F := Ideal) (k1_pay9 (F := Ideal) v11) (k1_pay10 (F := Ideal) v3 v8 v16) (k1_pay12 (F := Ideal) v3 v8 v16 mm mm)
       (k1_pay13 (F := Ideal) v3 v8 v16 mm) aa (ix3 h r d))
      = Cert.OnlineSoftmax.step (mm (ix3 h r (0 : Fin 1)), ll (ix3 h r (0 : Fin 1)), aa (ix3 h r d))
          (fun j : Fin 512 => k1_pay10 (F := Ideal) v3 v8 v16 (ix3 h r j)) (fun j : Fin 512 => v11 (ix3 h j d)) := by
  have e4 : k1_pay4 (F := Ideal) (k1_pay11 (F := Ideal) v3 v8 v16 mm) = k1_pay11 (F := Ideal) v3 v8 v16 mm := by
    unfold k1_pay4
    try dsimp only
    rw [shapeCast_self]
  have e9 : k1_pay9 (F := Ideal) v11 = v11 := by
    unfold k1_pay9
    try dsimp only
    rw [shapeCast_self]
  rw [e4, e9, pay11_apply, pay2_apply, pay3_apply, pay12_apply]
  simp only [pay13_apply]
  rfl

end Cert.KernelIdeal.Pay1

end
-- ==== Proof.KernelIdeal.Region1Blocks.lean ====
/- The attention region's blocks as entries of the arrays the region finds. Its grid is 32 query blocks by 16 key
   blocks, the key block innermost: point `t` is query block `t / 16` and key block `t % 16`. The query window's block
   is 256 rows of the query array, the key and value windows hold their whole arrays (of which the body loads the 512
   rows of the current key block), the edge window's block is 512 by 256 entries of the edge array, and the output
   window's block is 256 rows of the output array. Nothing here depends on the float instance. -/
import proofs.«150601_j68384469286917_2_alg».proof.Proof.KernelIdeal.Region1
import Idealize.ShloMosaic.Lib.Pipeline.Value
import Idealize.ShloMosaic.Lib.ValueIdx

set_option maxRecDepth 16384

noncomputable section

namespace Cert.KernelIdeal.Blk1

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]

/-! ## The index maps and the load offsets, decided over the 512 grid points -/

theorem index0 : ∀ t : Fin cfg1.N, win1_0.index t (0 : Fin 3) = 0 ∧ win1_0.index t (1 : Fin 3) = t.val / 16 ∧ win1_0.index t (2 : Fin 3) = 0 :=
  (by decide +kernel : ∀ t : Fin grid1.N, _)
theorem index1 : ∀ t : Fin cfg1.N, win1_1.index t (0 : Fin 3) = 0 ∧ win1_1.index t (1 : Fin 3) = 0 ∧ win1_1.index t (2 : Fin 3) = 0 :=
  (by decide +kernel : ∀ t : Fin grid1.N, _)
theorem index2 : ∀ t : Fin cfg1.N, win1_2.index t (0 : Fin 3) = 0 ∧ win1_2.index t (1 : Fin 3) = 0 ∧ win1_2.index t (2 : Fin 3) = 0 :=
  (by decide +kernel : ∀ t : Fin grid1.N, _)
theorem index3 : ∀ t : Fin cfg1.N, win1_3.index t (0 : Fin 2) = t.val % 16 ∧ win1_3.index t (1 : Fin 2) = t.val / 16 :=
  (by decide +kernel : ∀ t : Fin grid1.N, _)
theorem index4 : ∀ t : Fin cfg1.N, win1_4.index t (0 : Fin 3) = 0 ∧ win1_4.index t (1 : Fin 3) = t.val / 16 ∧ win1_4.index t (2 : Fin 3) = 0 :=
  (by decide +kernel : ∀ t : Fin grid1.N, _)

/-- The body's key and value loads start at row `512 · (t % 16)`. -/
theorem off1 : ∀ t : Fin cfg1.N, k1_off1 (grid1.coords t) (0 : Fin 3) = 0 ∧ k1_off1 (grid1.coords t) (1 : Fin 3) = 512 * (t.val % 16) ∧ k1_off1 (grid1.coords t) (2 : Fin 3) = 0 :=
  (by decide +kernel : ∀ t : Fin grid1.N, _)

theorem lt_N (t : Fin cfg1.N) : t.val < 512 := (N_1 : grid1.N = 512) ▸ t.isLt

/-! ## Rows of a whole [4, 8192, 64] array through a [4, 512, 64] rectangle -/

/-- A load of 512 rows starting at row `512 · ki` reads, at (h, j, d), the array at (h, 512 · ki + j, d). -/
theorem ld_rows {Val : EltTy → Type} {e : EltTy} (x : S4x8192x64.Idx → Val e) (off : Fin 3 → Nat) (inb : ∀ a, off a + S4x512x64.size a ≤ S4x8192x64.size a)
    (ki : Nat) (e0 : off (0 : Fin 3) = 0) (e1 : off (1 : Fin 3) = 512 * ki) (e2 : off (2 : Fin 3) = 0)
    (h : Fin 4) (j : Fin 512) (d : Fin 64) (n : Fin 8192) (hn : n.val = 512 * ki + j.val) :
    View.ld x (Rect.unit (s := S4x8192x64) off S4x512x64.size inb) (ix3 h j d) = x (ix3 h n d) := by
  show x ((Rect.unit (s := S4x8192x64) off S4x512x64.size inb).idx (ix3 h j d)) = x (ix3 h n d)
  congr 1
  funext a; apply Fin.ext
  match a with
  | ⟨0, _⟩ => show off (0 : Fin 3) + 1 * h.val = h.val; rw [e0]; omega
  | ⟨1, _⟩ => show off (1 : Fin 3) + 1 * j.val = n.val; rw [e1, hn]; omega
  | ⟨2, _⟩ => show off (2 : Fin 3) + 1 * d.val = d.val; rw [e2]; omega

/-- The same at the body's own rectangle at point `t`. -/
theorem ld_rows_at {Val : EltTy → Type} {e : EltTy} (x : S4x8192x64.Idx → Val e) (t : Fin cfg1.N) (h : Fin 4) (j : Fin 512) (d : Fin 64) :
    View.ld x (Rect.unit (s := S4x8192x64) (k1_off1 (grid1.coords t)) S4x512x64.size (k1_off1_inb (grid1.coords t))) (ix3 h j d)
      = x (ix3 h (⟨512 * (t.val % 16) + j.val, by have := lt_N t; omega⟩ : Fin 8192) d) := by
  obtain ⟨e0, e1, e2⟩ := off1 t
  exact ld_rows x _ _ (t.val % 16) e0 e1 e2 h j d _ rfl

section Blocks
variable (V : (c : Dev nD) → (b : Ref sig .tc) → Buf (Elt F) ((c : Thread nD τ).loc b))

/-! ## The input blocks -/

/-- The query block at point `t` is rows `256 · (t / 16) + r` of the query array. -/
theorem q_blk (c : Dev nD) (t : Fin cfg1.N) (h : Fin 4) (r : Fin 256) (d : Fin 64) :
    (iblk1 V c 0 t : Vec F S4x256x64 .bf16) (ix3 h r d)
      = (V c main_v9_0 : S4x8192x64.Idx → Elt F .bf16) (ix3 h (⟨256 * (t.val / 16) + r.val, by have := lt_N t; omega⟩ : Fin 8192) d) := by
  obtain ⟨e0, e1, e2⟩ := index0 t
  unfold iblk1
  rw [View.read_apply]
  show V c main_v9_0 _ = V c main_v9_0 _
  congr 1
  funext a; apply Fin.ext
  match a with
  | ⟨0, _⟩ => show win1_0.index t (0 : Fin 3) * 4 + 1 * h.val = h.val; rw [e0]; omega
  | ⟨1, _⟩ => show win1_0.index t (1 : Fin 3) * 256 + 1 * r.val = 256 * (t.val / 16) + r.val; rw [e1]; omega
  | ⟨2, _⟩ => show win1_0.index t (2 : Fin 3) * 64 + 1 * d.val = d.val; rw [e2]; omega

/-- The k window's block at any point is its whole array. -/
theorem k_whole (c : Dev nD) (t : Fin cfg1.N) (h : Fin 4) (n : Fin 8192) (d : Fin 64) :
    (iblk1 V c 1 t : Vec F S4x8192x64 .bf16) (ix3 h n d) = (V c main_v9_1 : S4x8192x64.Idx → Elt F .bf16) (ix3 h n d) := by
  obtain ⟨e0, e1, e2⟩ := index1 t
  unfold iblk1
  rw [View.read_apply]
  show V c main_v9_1 _ = V c main_v9_1 _
  congr 1
  funext a; apply Fin.ext
  match a with
  | ⟨0, _⟩ => show win1_1.index t (0 : Fin 3) * 4 + 1 * h.val = h.val; rw [e0]; omega
  | ⟨1, _⟩ => show win1_1.index t (1 : Fin 3) * 8192 + 1 * n.val = n.val; rw [e1]; omega
  | ⟨2, _⟩ => show win1_1.index t (2 : Fin 3) * 64 + 1 * d.val = d.val; rw [e2]; omega

/-- The 512 rows the body loads of the k window at point `t` are rows `512 · (t % 16) + j` of the k array. -/
theorem k_rows (c : Dev nD) (t : Fin cfg1.N) (h : Fin 4) (j : Fin 512) (d : Fin 64) :
    View.ld (iblk1 V c 1 t : Vec F S4x8192x64 .bf16) (Rect.unit (s := S4x8192x64) (k1_off1 (grid1.coords t)) S4x512x64.size (k1_off1_inb (grid1.coords t))) (ix3 h j d)
      = (V c main_v9_1 : S4x8192x64.Idx → Elt F .bf16) (ix3 h (⟨512 * (t.val % 16) + j.val, by have := lt_N t; omega⟩ : Fin 8192) d) :=
  (ld_rows_at (iblk1 V c 1 t : Vec F S4x8192x64 .bf16) t h j d).trans (k_whole V c t h _ d)

/-- The v window's block at any point is its whole array. -/
theorem v_whole (c : Dev nD) (t : Fin cfg1.N) (h : Fin 4) (n : Fin 8192) (d : Fin 64) :
    (iblk1 V c 2 t : Vec F S4x8192x64 .bf16) (ix3 h n d) = (V c main_v9_2 : S4x8192x64.Idx → Elt F .bf16) (ix3 h n d) := by
  obtain ⟨e0, e1, e2⟩ := index2 t
  unfold iblk1
  rw [View.read_apply]
  show V c main_v9_2 _ = V c main_v9_2 _
  congr 1
  funext a; apply Fin.ext
  match a with
  | ⟨0, _⟩ => show win1_2.index t (0 : Fin 3) * 4 + 1 * h.val = h.val; rw [e0]; omega
  | ⟨1, _⟩ => show win1_2.index t (1 : Fin 3) * 8192 + 1 * n.val = n.val; rw [e1]; omega
  | ⟨2, _⟩ => show win1_2.index t (2 : Fin 3) * 64 + 1 * d.val = d.val; rw [e2]; omega

/-- The 512 rows the body loads of the v window at point `t` are rows `512 · (t % 16) + j` of the v array. -/
theorem v_rows (c : Dev nD) (t : Fin cfg1.N) (h : Fin 4) (j : Fin 512) (d : Fin 64) :
    View.ld (iblk1 V c 2 t : Vec F S4x8192x64 .bf16) (Rect.unit (s := S4x8192x64) (k1_off1 (grid1.coords t)) S4x512x64.size (k1_off1_inb (grid1.coords t))) (ix3 h j d)
      = (V c main_v9_2 : S4x8192x64.Idx → Elt F .bf16) (ix3 h (⟨512 * (t.val % 16) + j.val, by have := lt_N t; omega⟩ : Fin 8192) d) :=
  (ld_rows_at (iblk1 V c 2 t : Vec F S4x8192x64 .bf16) t h j d).trans (v_whole V c t h _ d)

/-- The edge block at point `t` is rows `512 · (t % 16) + i`, columns `256 · (t / 16) + r` of the edge array. -/
theorem e_blk (c : Dev nD) (t : Fin cfg1.N) (i : Fin 512) (r : Fin 256) :
    (iblk1 V c 3 t : Vec F S512x256 .i32) (ix2 i r)
      = (V c main_arg1 : S8192x8192.Idx → Elt F .i32) (ix2 (⟨512 * (t.val % 16) + i.val, by have := lt_N t; omega⟩ : Fin 8192) (⟨256 * (t.val / 16) + r.val, by have := lt_N t; omega⟩ : Fin 8192)) := by
  obtain ⟨e0, e1⟩ := index3 t
  unfold iblk1
  rw [View.read_apply]
  show V c main_arg1 _ = V c main_arg1 _
  congr 1
  funext a; apply Fin.ext
  match a with
  | ⟨0, _⟩ => show win1_3.index t (0 : Fin 2) * 512 + 1 * i.val = 512 * (t.val % 16) + i.val; rw [e0]; omega
  | ⟨1, _⟩ => show win1_3.index t (1 : Fin 2) * 256 + 1 * r.val = 256 * (t.val / 16) + r.val; rw [e1]; omega

end Blocks

/-! ## The output window -/

/-- Point `t`'s output block read off a whole-array function: rows `256 · (t / 16) + r`. -/
theorem blk_read4 (G : S4x8192x64.Idx → Elt F .f32) (t : Fin cfg1.N) (h : Fin 4) (r : Fin 256) (d : Fin 64) :
    (((cfg1.win 4).blk t).view.read (Elt F) G : Vec F S4x256x64 .f32) (ix3 h r d)
      = G (ix3 h (⟨256 * (t.val / 16) + r.val, by have := lt_N t; omega⟩ : Fin 8192) d) := by
  obtain ⟨e0, e1, e2⟩ := index4 t
  rw [View.read_apply]
  show G _ = G _
  congr 1
  funext a; apply Fin.ext
  match a with
  | ⟨0, _⟩ => show win1_4.index t (0 : Fin 3) * 4 + 1 * h.val = h.val; rw [e0]; omega
  | ⟨1, _⟩ => show win1_4.index t (1 : Fin 3) * 256 + 1 * r.val = 256 * (t.val / 16) + r.val; rw [e1]; omega
  | ⟨2, _⟩ => show win1_4.index t (2 : Fin 3) * 64 + 1 * d.val = d.val; rw [e2]; omega

/-- An index of the output array is in point `t`'s block iff each coordinate is in the block's range. -/
theorem mem_blk4 (t : Fin cfg1.N) (i : S4x8192x64.Idx) :
    i ∈ ((cfg1.win 4).blk t).view.set ↔ ∀ a : Fin 3, win1_4.index t a * S4x256x64.size a ≤ (i a).val ∧ (i a).val < win1_4.index t a * S4x256x64.size a + S4x256x64.size a := by
  show i ∈ ((View.whole main_v10).slice (win1_4.rect t)).set ↔ _
  rw [View.set_slice_whole, Rect.mem_set_unit]
  exact Iff.rfl

/-- The point that writes back the block holding row `n`: the last key block of query block `n / 256`. -/
def flushPoint (n : Fin 8192) : Fin cfg1.N := ⟨16 * (n.val / 256) + 15, by have hN : cfg1.N = 512 := N_1; omega⟩

theorem flushPoint_flush (n : Fin 8192) : (cfg1.win 4).flush (flushPoint n) = true :=
  (flush1_4 (flushPoint n)).mpr (by show (16 * (n.val / 256) + 15) % 16 = 15; omega)

/-- Entry (h, n, d) of the output array lies in the block of `flushPoint n`, -/
theorem mem_flushPoint (h : Fin 4) (n : Fin 8192) (d : Fin 64) :
    (ix3 h n d : S4x8192x64.Idx) ∈ ((cfg1.win 4).blk (flushPoint n)).view.set := by
  rw [mem_blk4]
  obtain ⟨e0, e1, e2⟩ := index4 (flushPoint n)
  have hq : (flushPoint n).val / 16 = n.val / 256 := by show (16 * (n.val / 256) + 15) / 16 = n.val / 256; omega
  intro a
  match a with
  | ⟨0, _⟩ => show win1_4.index _ (0 : Fin 3) * 4 ≤ h.val ∧ h.val < win1_4.index _ (0 : Fin 3) * 4 + 4; rw [e0]; omega
  | ⟨1, _⟩ => show win1_4.index _ (1 : Fin 3) * 256 ≤ n.val ∧ n.val < win1_4.index _ (1 : Fin 3) * 256 + 256; rw [e1, hq]; omega
  | ⟨2, _⟩ => show win1_4.index _ (2 : Fin 3) * 64 ≤ d.val ∧ d.val < win1_4.index _ (2 : Fin 3) * 64 + 64; rw [e2]; omega

/-- at the in-block index (h, n % 256, d). -/
theorem emb_flushPoint (h : Fin 4) (n : Fin 8192) (d : Fin 64) :
    ((cfg1.win 4).blk (flushPoint n)).view.emb (ix3 h (⟨n.val % 256, Nat.mod_lt _ (by decide)⟩ : Fin 256) d : S4x256x64.Idx)
      = (ix3 h n d : S4x8192x64.Idx) := by
  obtain ⟨e0, e1, e2⟩ := index4 (flushPoint n)
  have hq : (flushPoint n).val / 16 = n.val / 256 := by show (16 * (n.val / 256) + 15) / 16 = n.val / 256; omega
  funext a; apply Fin.ext
  match a with
  | ⟨0, _⟩ => show win1_4.index _ (0 : Fin 3) * 4 + 1 * h.val = h.val; rw [e0]; omega
  | ⟨1, _⟩ => show win1_4.index _ (1 : Fin 3) * 256 + 1 * (n.val % 256) = n.val; rw [e1, hq]; omega
  | ⟨2, _⟩ => show win1_4.index _ (2 : Fin 3) * 64 + 1 * d.val = d.val; rw [e2]; omega

/-- Every index of the output array is in the block of a point that writes back: the cover the whole-array post asks. -/
theorem out_cover (i : S4x8192x64.Idx) : ∃ t : Fin cfg1.N, (cfg1.win 4).flush t = true ∧ i ∈ ((cfg1.win 4).blk t).view.set := by
  obtain ⟨h, n, d, rfl⟩ : ∃ (h : Fin 4) (n : Fin 8192) (d : Fin 64), i = ix3 h n d := ⟨i 0, i 1, i 2, eq_ix3 i⟩
  exact ⟨flushPoint n, flushPoint_flush n, mem_flushPoint h n d⟩

end Cert.KernelIdeal.Blk1

end
-- ==== Proof.KernelIdeal.Region1Value.lean ====
/-
  The attention region's value at the exact reading of floats. What each case of the body leaves in the three running
  buffers is one update of them from the blocks the body reads; along the sixteen key blocks of a query block a row's
  (maximum, normaliser, weighted sum) follows the blockwise softmax recurrence, and the last key block stores the
  weighted sum over the normaliser.
-/
import proofs.«150601_j68384469286917_2_alg».proof.Proof.KernelIdeal.Region1
import proofs.«150601_j68384469286917_2_alg».proof.Proof.KernelIdeal.Region1Pay
import proofs.«150601_j68384469286917_2_alg».proof.Proof.KernelIdeal.Region1Blocks
import proofs.«150601_j68384469286917_2_alg».proof.Proof.OnlineSoftmax
import Idealize.ShloMosaic.Lib.Pipeline.Value
import Idealize.ShloMosaic.Lib.ValueIdx
import Idealize.ShloMosaic.Lib.Tactic

set_option maxRecDepth 16384

noncomputable section

namespace Cert.KernelIdeal.Val1

open Cert.KernelIdeal Cert.KernelIdeal.Gen Idealize.ShloMosaic Idealize.ShloMosaic.TcCoe Idealize.SL.Sem Idealize.ShloMosaic.Tactic
open Idealize.ShloMosaic.ValueIdx
open Idealize.ShloMosaic.Pipeline (Dat)
open scoped BigOperators

section AnyFloat
variable {F : FTy → Type} [FloatOps F]
variable (V : (c : Dev nD) → (b : Ref sig .tc) → Buf (Elt F) ((c : Thread nD τ).loc b))

theorem hz3 : (![0, 0, 0] : Fin 3 → Nat) = fun _ => 0 := funext fun a => by fin_cases a <;> rfl

theorem hz2 : (![0, 0] : Fin 2 → Nat) = fun _ => 0 := funext fun a => by fin_cases a <;> rfl

/-! ## What each case of the body leaves in the running buffers and the output block -/

/-- The 512 rows of a [4, 8192, 64] array that the body loads at grid point `i`: those of key block `i 1`. -/
def rows (i : grid1.Coords) (x : Vec F S4x8192x64 .bf16) : Vec F S4x512x64 .bf16 :=
  View.ld x (Rect.unit (s := S4x8192x64) (k1_off1 i) S4x512x64.size (Facts₀.k1_off1_inb i))

/-- One key block's update of the three running buffers `xs`, from the query block `q`, the key and value rows `kb`,
    `vb` and the edge block `e`. -/
def upd (q : Vec F S4x256x64 .bf16) (kb vb : Vec F S4x512x64 .bf16) (e : Vec F S512x256 .i32)
    (xs : Vec F S4x256x1 .f32 × Vec F S4x256x1 .f32 × Vec F S4x256x64 .f32) :
    Vec F S4x256x1 .f32 × Vec F S4x256x1 .f32 × Vec F S4x256x64 .f32 :=
  (k1_pay4 (k1_pay11 q kb e xs.1),
   k1_pay2 (k1_pay10 q kb e) (k1_pay12 q kb e xs.1 xs.1) (k1_pay13 q kb e xs.1) xs.2.1,
   k1_pay3 (k1_pay9 vb) (k1_pay10 q kb e) (k1_pay12 q kb e xs.1 xs.1) (k1_pay13 q kb e xs.1) xs.2.2)

section Pieces
variable (c : Dev nD) (i : grid1.Coords) (arg2 : Memref sig .tc .vmem S4x256x64 .bf16) (harg2 : arg2.IsWhole) (arg3 : Memref sig .tc .vmem S4x8192x64 .bf16) (harg3 : arg3.IsWhole) (arg4 : Memref sig .tc .vmem S4x8192x64 .bf16) (harg4 : arg4.IsWhole) (arg5 : Memref sig .tc .vmem S512x256 .i32) (harg5 : arg5.IsWhole) (arg6 : Memref sig .tc .vmem S4x256x64 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x64 .f32) (harg9 : arg9.IsWhole)

theorem pieceB_0 (hc0 : ¬cond1_0 i) (hc1 : ¬cond1_1 i) (x0 : Vec F S4x256x64 .bf16) (x1 : Vec F S4x8192x64 .bf16) (x2 : Vec F S4x8192x64 .bf16) (x3 : Vec F S512x256 .i32) (xs0 : Vec F S4x256x1 .f32) (xs1 : Vec F S4x256x1 .f32) (xs2 : Vec F S4x256x64 .f32) :
    View.canon (kernelRun1_B c i arg2 harg2 arg3 harg3 arg4 harg4 arg5 harg5 arg6 harg6 arg7 harg7 arg8 harg8 arg9 harg9 hc0 hc1 x0 x1 x2 x3 xs0 xs1 xs2).1
      = (upd x0 (rows i x1) (rows i x2) x3 (xs0, xs1, xs2)).1 := by
  unfold kernelRun1_B
  dsimp only
  sl_unfold_run_names
  rw [View.canon_unit_zero hz3]
  simp only [View.readAt_eq_ld, harg2.read_unread, harg3.read_unread, harg4.read_unread, harg5.read_unread, harg6.read_unread, harg7.read_unread, harg8.read_unread, harg9.read_unread, View.ld_unit_zero (S := S4x256x64) hz3, View.ld_unit_zero (S := S4x256x1) hz3, View.ld_unit_zero (S := S512x256) hz2]
  rfl

theorem pieceB_1 (hc0 : ¬cond1_0 i) (hc1 : ¬cond1_1 i) (x0 : Vec F S4x256x64 .bf16) (x1 : Vec F S4x8192x64 .bf16) (x2 : Vec F S4x8192x64 .bf16) (x3 : Vec F S512x256 .i32) (xs0 : Vec F S4x256x1 .f32) (xs1 : Vec F S4x256x1 .f32) (xs2 : Vec F S4x256x64 .f32) :
    View.canon (kernelRun1_B c i arg2 harg2 arg3 harg3 arg4 harg4 arg5 harg5 arg6 harg6 arg7 harg7 arg8 harg8 arg9 harg9 hc0 hc1 x0 x1 x2 x3 xs0 xs1 xs2).2.1
      = (upd x0 (rows i x1) (rows i x2) x3 (xs0, xs1, xs2)).2.1 := by
  unfold kernelRun1_B
  dsimp only
  sl_unfold_run_names
  rw [View.canon_unit_zero hz3]
  simp only [View.readAt_eq_ld, harg2.read_unread, harg3.read_unread, harg4.read_unread, harg5.read_unread, harg6.read_unread, harg7.read_unread, harg8.read_unread, harg9.read_unread, View.ld_unit_zero (S := S4x256x64) hz3, View.ld_unit_zero (S := S4x256x1) hz3, View.ld_unit_zero (S := S512x256) hz2]
  rfl

theorem pieceB_2 (hc0 : ¬cond1_0 i) (hc1 : ¬cond1_1 i) (x0 : Vec F S4x256x64 .bf16) (x1 : Vec F S4x8192x64 .bf16) (x2 : Vec F S4x8192x64 .bf16) (x3 : Vec F S512x256 .i32) (xs0 : Vec F S4x256x1 .f32) (xs1 : Vec F S4x256x1 .f32) (xs2 : Vec F S4x256x64 .f32) :
    View.canon (kernelRun1_B c i arg2 harg2 arg3 harg3 arg4 harg4 arg5 harg5 arg6 harg6 arg7 harg7 arg8 harg8 arg9 harg9 hc0 hc1 x0 x1 x2 x3 xs0 xs1 xs2).2.2.1
      = (upd x0 (rows i x1) (rows i x2) x3 (xs0, xs1, xs2)).2.2 := by
  unfold kernelRun1_B
  dsimp only
  sl_unfold_run_names
  rw [View.canon_unit_zero hz3]
  simp only [View.readAt_eq_ld, harg2.read_unread, harg3.read_unread, harg4.read_unread, harg5.read_unread, harg6.read_unread, harg7.read_unread, harg8.read_unread, harg9.read_unread, View.ld_unit_zero (S := S4x256x64) hz3, View.ld_unit_zero (S := S4x256x1) hz3, View.ld_unit_zero (S := S512x256) hz2]
  rfl

end Pieces

section Pieces2
variable (c : Dev nD) (i : grid1.Coords) (arg2 : Memref sig .tc .vmem S4x256x64 .bf16) (harg2 : arg2.IsWhole) (arg3 : Memref sig .tc .vmem S4x8192x64 .bf16) (harg3 : arg3.IsWhole) (arg4 : Memref sig .tc .vmem S4x8192x64 .bf16) (harg4 : arg4.IsWhole) (arg5 : Memref sig .tc .vmem S512x256 .i32) (harg5 : arg5.IsWhole) (arg6 : Memref sig .tc .vmem S4x256x64 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x64 .f32) (harg9 : arg9.IsWhole)

theorem pieceC_0 (hc0 : ¬cond1_0 i) (hc1 : cond1_1 i) (x0 : Vec F S4x256x64 .bf16) (x1 : Vec F S4x8192x64 .bf16) (x2 : Vec F S4x8192x64 .bf16) (x3 : Vec F S512x256 .i32) (xs0 : Vec F S4x256x1 .f32) (xs1 : Vec F S4x256x1 .f32) (xs2 : Vec F S4x256x64 .f32) :
    View.canon (kernelRun1_C c i arg2 harg2 arg3 harg3 arg4 harg4 arg5 harg5 arg6 harg6 arg7 harg7 arg8 harg8 arg9 harg9 hc0 hc1 x0 x1 x2 x3 xs0 xs1 xs2).2.1
      = (upd x0 (rows i x1) (rows i x2) x3 (xs0, xs1, xs2)).1 := by
  unfold kernelRun1_C
  dsimp only
  sl_unfold_run_names
  rw [View.canon_unit_zero hz3]
  simp only [View.readAt_eq_ld, harg2.read_unread, harg3.read_unread, harg4.read_unread, harg5.read_unread, harg6.read_unread, harg7.read_unread, harg8.read_unread, harg9.read_unread, View.ld_unit_zero (S := S4x256x64) hz3, View.ld_unit_zero (S := S4x256x1) hz3, View.ld_unit_zero (S := S512x256) hz2, View.readCov_unit_zero (S := S4x256x1) _ hz3, View.readCov_unit_zero (S := S4x256x64) _ hz3]
  rfl

theorem pieceC_1 (hc0 : ¬cond1_0 i) (hc1 : cond1_1 i) (x0 : Vec F S4x256x64 .bf16) (x1 : Vec F S4x8192x64 .bf16) (x2 : Vec F S4x8192x64 .bf16) (x3 : Vec F S512x256 .i32) (xs0 : Vec F S4x256x1 .f32) (xs1 : Vec F S4x256x1 .f32) (xs2 : Vec F S4x256x64 .f32) :
    View.canon (kernelRun1_C c i arg2 harg2 arg3 harg3 arg4 harg4 arg5 harg5 arg6 harg6 arg7 harg7 arg8 harg8 arg9 harg9 hc0 hc1 x0 x1 x2 x3 xs0 xs1 xs2).2.2.1
      = (upd x0 (rows i x1) (rows i x2) x3 (xs0, xs1, xs2)).2.1 := by
  unfold kernelRun1_C
  dsimp only
  sl_unfold_run_names
  rw [View.canon_unit_zero hz3]
  simp only [View.readAt_eq_ld, harg2.read_unread, harg3.read_unread, harg4.read_unread, harg5.read_unread, harg6.read_unread, harg7.read_unread, harg8.read_unread, harg9.read_unread, View.ld_unit_zero (S := S4x256x64) hz3, View.ld_unit_zero (S := S4x256x1) hz3, View.ld_unit_zero (S := S512x256) hz2, View.readCov_unit_zero (S := S4x256x1) _ hz3, View.readCov_unit_zero (S := S4x256x64) _ hz3]
  rfl

theorem pieceC_2 (hc0 : ¬cond1_0 i) (hc1 : cond1_1 i) (x0 : Vec F S4x256x64 .bf16) (x1 : Vec F S4x8192x64 .bf16) (x2 : Vec F S4x8192x64 .bf16) (x3 : Vec F S512x256 .i32) (xs0 : Vec F S4x256x1 .f32) (xs1 : Vec F S4x256x1 .f32) (xs2 : Vec F S4x256x64 .f32) :
    View.canon (kernelRun1_C c i arg2 harg2 arg3 harg3 arg4 harg4 arg5 harg5 arg6 harg6 arg7 harg7 arg8 harg8 arg9 harg9 hc0 hc1 x0 x1 x2 x3 xs0 xs1 xs2).2.2.2.1
      = (upd x0 (rows i x1) (rows i x2) x3 (xs0, xs1, xs2)).2.2 := by
  unfold kernelRun1_C
  dsimp only
  sl_unfold_run_names
  rw [View.canon_unit_zero hz3]
  simp only [View.readAt_eq_ld, harg2.read_unread, harg3.read_unread, harg4.read_unread, harg5.read_unread, harg6.read_unread, harg7.read_unread, harg8.read_unread, harg9.read_unread, View.ld_unit_zero (S := S4x256x64) hz3, View.ld_unit_zero (S := S4x256x1) hz3, View.ld_unit_zero (S := S512x256) hz2, View.readCov_unit_zero (S := S4x256x1) _ hz3, View.readCov_unit_zero (S := S4x256x64) _ hz3]
  rfl

theorem pieceC_out (hc0 : ¬cond1_0 i) (hc1 : cond1_1 i) (x0 : Vec F S4x256x64 .bf16) (x1 : Vec F S4x8192x64 .bf16) (x2 : Vec F S4x8192x64 .bf16) (x3 : Vec F S512x256 .i32) (xs0 : Vec F S4x256x1 .f32) (xs1 : Vec F S4x256x1 .f32) (xs2 : Vec F S4x256x64 .f32) :
    View.canon (kernelRun1_C c i arg2 harg2 arg3 harg3 arg4 harg4 arg5 harg5 arg6 harg6 arg7 harg7 arg8 harg8 arg9 harg9 hc0 hc1 x0 x1 x2 x3 xs0 xs1 xs2).1
      = k1_pay5 (upd x0 (rows i x1) (rows i x2) x3 (xs0, xs1, xs2)).2.2 (upd x0 (rows i x1) (rows i x2) x3 (xs0, xs1, xs2)).2.1 := by
  unfold kernelRun1_C
  dsimp only
  sl_unfold_run_names
  rw [View.canon_unit_zero hz3]
  simp only [View.readAt_eq_ld, harg2.read_unread, harg3.read_unread, harg4.read_unread, harg5.read_unread, harg6.read_unread, harg7.read_unread, harg8.read_unread, harg9.read_unread, View.ld_unit_zero (S := S4x256x64) hz3, View.ld_unit_zero (S := S4x256x1) hz3, View.ld_unit_zero (S := S512x256) hz2, View.readCov_unit_zero (S := S4x256x1) _ hz3, View.readCov_unit_zero (S := S4x256x64) _ hz3]
  rfl

theorem pieceA_0 (hc0 : cond1_0 i) (hc1 : ¬cond1_1 i) (x0 : Vec F S4x256x64 .bf16) (x1 : Vec F S4x8192x64 .bf16) (x2 : Vec F S4x8192x64 .bf16) (x3 : Vec F S512x256 .i32)  :
    View.canon (kernelRun1_A c i arg2 harg2 arg3 harg3 arg4 harg4 arg5 harg5 arg6 harg6 arg7 harg7 arg8 harg8 arg9 harg9 hc0 hc1 x0 x1 x2 x3).1
      = (upd x0 (rows i x1) (rows i x2) x3 (k1_pay6, k1_pay7, k1_pay8)).1 := by
  unfold kernelRun1_A
  dsimp only
  sl_unfold_run_names
  rw [View.canon_cons_unit_zero hz3]
  simp only [View.readAt_eq_ld, harg2.read_unread, harg3.read_unread, harg4.read_unread, harg5.read_unread, harg6.read_unread, harg7.read_unread, harg8.read_unread, harg9.read_unread, View.ld_unit_zero (S := S4x256x64) hz3, View.ld_unit_zero (S := S4x256x1) hz3, View.ld_unit_zero (S := S512x256) hz2, View.readCov_unit_zero (S := S4x256x1) _ hz3, View.readCov_unit_zero (S := S4x256x64) _ hz3]
  rfl

theorem pieceA_1 (hc0 : cond1_0 i) (hc1 : ¬cond1_1 i) (x0 : Vec F S4x256x64 .bf16) (x1 : Vec F S4x8192x64 .bf16) (x2 : Vec F S4x8192x64 .bf16) (x3 : Vec F S512x256 .i32)  :
    View.canon (kernelRun1_A c i arg2 harg2 arg3 harg3 arg4 harg4 arg5 harg5 arg6 harg6 arg7 harg7 arg8 harg8 arg9 harg9 hc0 hc1 x0 x1 x2 x3).2.1
      = (upd x0 (rows i x1) (rows i x2) x3 (k1_pay6, k1_pay7, k1_pay8)).2.1 := by
  unfold kernelRun1_A
  dsimp only
  sl_unfold_run_names
  rw [View.canon_cons_unit_zero hz3]
  simp only [View.readAt_eq_ld, harg2.read_unread, harg3.read_unread, harg4.read_unread, harg5.read_unread, harg6.read_unread, harg7.read_unread, harg8.read_unread, harg9.read_unread, View.ld_unit_zero (S := S4x256x64) hz3, View.ld_unit_zero (S := S4x256x1) hz3, View.ld_unit_zero (S := S512x256) hz2, View.readCov_unit_zero (S := S4x256x1) _ hz3, View.readCov_unit_zero (S := S4x256x64) _ hz3]
  rfl

theorem pieceA_2 (hc0 : cond1_0 i) (hc1 : ¬cond1_1 i) (x0 : Vec F S4x256x64 .bf16) (x1 : Vec F S4x8192x64 .bf16) (x2 : Vec F S4x8192x64 .bf16) (x3 : Vec F S512x256 .i32)  :
    View.canon (kernelRun1_A c i arg2 harg2 arg3 harg3 arg4 harg4 arg5 harg5 arg6 harg6 arg7 harg7 arg8 harg8 arg9 harg9 hc0 hc1 x0 x1 x2 x3).2.2.1
      = (upd x0 (rows i x1) (rows i x2) x3 (k1_pay6, k1_pay7, k1_pay8)).2.2 := by
  unfold kernelRun1_A
  dsimp only
  sl_unfold_run_names
  rw [View.canon_cons_unit_zero hz3]
  simp only [View.readAt_eq_ld, harg2.read_unread, harg3.read_unread, harg4.read_unread, harg5.read_unread, harg6.read_unread, harg7.read_unread, harg8.read_unread, harg9.read_unread, View.ld_unit_zero (S := S4x256x64) hz3, View.ld_unit_zero (S := S4x256x1) hz3, View.ld_unit_zero (S := S512x256) hz2, View.readCov_unit_zero (S := S4x256x1) _ hz3, View.readCov_unit_zero (S := S4x256x64) _ hz3]
  rfl

end Pieces2

/-! ## The three cases at a grid point -/

/-- The blocks the body reads at point `t`: the query block, the whole key and value arrays, the edge block. -/
def qblk (c : Dev nD) (t : Fin cfg1.N) : Vec F S4x256x64 .bf16 := iblk1 V c 0 t
def karr (c : Dev nD) (t : Fin cfg1.N) : Vec F S4x8192x64 .bf16 := iblk1 V c 1 t
def varr (c : Dev nD) (t : Fin cfg1.N) : Vec F S4x8192x64 .bf16 := iblk1 V c 2 t
def eblk (c : Dev nD) (t : Fin cfg1.N) : Vec F S512x256 .i32 := iblk1 V c 3 t

/-- The update of the running buffers at point `t`. -/
def updAt (c : Dev nD) (t : Fin cfg1.N) (xs : Vec F S4x256x1 .f32 × Vec F S4x256x1 .f32 × Vec F S4x256x64 .f32) : Vec F S4x256x1 .f32 × Vec F S4x256x1 .f32 × Vec F S4x256x64 .f32 :=
  upd (qblk V c t) (rows (grid1.coords t) (karr V c t)) (rows (grid1.coords t) (varr V c t)) (eblk V c t) xs

/-- A middle key block leaves the update of what it found. -/
theorem sB_eq (c : Dev nD) (t : Fin cfg1.N) (h0 : ¬t.val % 16 = 0) (h1 : ¬t.val % 16 = 15) (xs : Vec F S4x256x1 .f32 × Vec F S4x256x1 .f32 × Vec F S4x256x64 .f32) :
    sB V c t h0 h1 xs = updAt V c t xs := by
  unfold sB updAt
  refine Prod.ext ?_ (Prod.ext ?_ ?_)
  · dsimp only
    rw [View.read_writes_eq_canon _ _ _ (scoverB_0 V c t h0 h1 xs)]
    unfold runB
    exact pieceB_0 (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (qblk V c t) (karr V c t) (varr V c t) (eblk V c t) xs.1 xs.2.1 xs.2.2
  · dsimp only
    rw [View.read_writes_eq_canon _ _ _ (scoverB_1 V c t h0 h1 xs)]
    unfold runB
    exact pieceB_1 (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (qblk V c t) (karr V c t) (varr V c t) (eblk V c t) xs.1 xs.2.1 xs.2.2
  · dsimp only
    rw [View.read_writes_eq_canon _ _ _ (scoverB_2 V c t h0 h1 xs)]
    unfold runB
    exact pieceB_2 (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (qblk V c t) (karr V c t) (varr V c t) (eblk V c t) xs.1 xs.2.1 xs.2.2

/-- The last key block leaves the update of what it found, -/
theorem sC_eq (c : Dev nD) (t : Fin cfg1.N) (h0 : ¬t.val % 16 = 0) (h1 : t.val % 16 = 15) (xs : Vec F S4x256x1 .f32 × Vec F S4x256x1 .f32 × Vec F S4x256x64 .f32) :
    sC V c t h0 h1 xs = updAt V c t xs := by
  unfold sC updAt
  refine Prod.ext ?_ (Prod.ext ?_ ?_)
  · dsimp only
    rw [View.read_writes_eq_canon _ _ _ (scoverC_0 V c t h0 h1 xs)]
    unfold runC
    exact pieceC_0 (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (qblk V c t) (karr V c t) (varr V c t) (eblk V c t) xs.1 xs.2.1 xs.2.2
  · dsimp only
    rw [View.read_writes_eq_canon _ _ _ (scoverC_1 V c t h0 h1 xs)]
    unfold runC
    exact pieceC_1 (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (qblk V c t) (karr V c t) (varr V c t) (eblk V c t) xs.1 xs.2.1 xs.2.2
  · dsimp only
    rw [View.read_writes_eq_canon _ _ _ (scoverC_2 V c t h0 h1 xs)]
    unfold runC
    exact pieceC_2 (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (qblk V c t) (karr V c t) (varr V c t) (eblk V c t) xs.1 xs.2.1 xs.2.2

/-- and stores the weighted sum over the normaliser into the output block. -/
theorem oC_eq (c : Dev nD) (t : Fin cfg1.N) (h0 : ¬t.val % 16 = 0) (h1 : t.val % 16 = 15) (xs : Vec F S4x256x1 .f32 × Vec F S4x256x1 .f32 × Vec F S4x256x64 .f32) :
    oC V c t h0 h1 xs = k1_pay5 (updAt V c t xs).2.2 (updAt V c t xs).2.1 := by
  unfold oC updAt
  rw [View.read_writes_eq_canon _ _ _ (coverC_4 V c t h0 h1 xs)]
  unfold runC
  exact pieceC_out (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (qblk V c t) (karr V c t) (varr V c t) (eblk V c t) xs.1 xs.2.1 xs.2.2

/-- The first key block of a query block leaves the update of the initial state. -/
theorem sA_eq (c : Dev nD) (t : Fin cfg1.N) (h0 : t.val % 16 = 0) (h1 : ¬t.val % 16 = 15) :
    sA V c t h0 h1 = updAt V c t (k1_pay6, k1_pay7, k1_pay8) := by
  unfold sA updAt
  refine Prod.ext ?_ (Prod.ext ?_ ?_)
  · dsimp only
    rw [View.read_writes_eq_canon _ _ _ (scoverA_0 V c t h0 h1)]
    unfold runA
    exact pieceA_0 (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (qblk V c t) (karr V c t) (varr V c t) (eblk V c t)
  · dsimp only
    rw [View.read_writes_eq_canon _ _ _ (scoverA_1 V c t h0 h1)]
    unfold runA
    exact pieceA_1 (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (qblk V c t) (karr V c t) (varr V c t) (eblk V c t)
  · dsimp only
    rw [View.read_writes_eq_canon _ _ _ (scoverA_2 V c t h0 h1)]
    unfold runA
    exact pieceA_2 (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (qblk V c t) (karr V c t) (varr V c t) (eblk V c t)

end AnyFloat

/-! ## A chain of block updates that starts afresh every sixteenth point is the blockwise recurrence -/

/-- States `st n`, each one step from the state before on block `n`, except at the multiples of 16 where the step is from
    the initial state: `st n` is the run over the blocks of `n`'s group of sixteen, up to and including `n`. -/
theorem chain_eq_run {ι : Type} [Fintype ι] (N : ℕ) (st : (n : ℕ) → n < N → EReal × EReal × EReal) (s v : ℕ → ι → EReal)
    (hA : ∀ n (hn : n < N), n % 16 = 0 → st n hn = Cert.OnlineSoftmax.step (⊥, 0, 0) (s n) (v n))
    (hB : ∀ n (hn : n + 1 < N), (n + 1) % 16 ≠ 0 →
      st (n + 1) hn = Cert.OnlineSoftmax.step (st n (Nat.lt_of_succ_lt hn)) (s (n + 1)) (v (n + 1))) :
    ∀ n (hn : n < N), st n hn
      = Cert.OnlineSoftmax.run (fun j => s (16 * (n / 16) + j)) (fun j => v (16 * (n / 16) + j)) (n % 16 + 1) := by
  intro n
  induction n with
  | zero =>
    intro hn
    rw [hA 0 hn rfl]
    rfl
  | succ n ih =>
    intro hn
    by_cases h0 : (n + 1) % 16 = 0
    · rw [hA (n + 1) hn h0, h0]
      have e : 16 * ((n + 1) / 16) = n + 1 := by omega
      show _ = Cert.OnlineSoftmax.step (⊥, 0, 0) (s (16 * ((n + 1) / 16) + 0)) (v (16 * ((n + 1) / 16) + 0))
      rw [e]
    · rw [hB n hn h0, ih (Nat.lt_of_succ_lt hn)]
      have e1 : (n + 1) / 16 = n / 16 := by omega
      have e2 : (n + 1) % 16 = n % 16 + 1 := by omega
      have e3 : 16 * (n / 16) + (n % 16 + 1) = n + 1 := by omega
      rw [e1, e2]
      show _ = Cert.OnlineSoftmax.step _ (s (16 * (n / 16) + (n % 16 + 1))) (v (16 * (n / 16) + (n % 16 + 1)))
      rw [e3]

/-! ## A row of the running buffers along the key blocks of its query block -/

section AtIdeal
variable (V : (c : Dev nD) → (b : Ref sig .tc) → Buf (Elt Ideal) ((c : Thread nD τ).loc b))

/-- Row (h, r) of the running maximum and normaliser, and its feature d of the running weighted sum. -/
def rowOf (h : Fin 4) (r : Fin 256) (d : Fin 64) (xs : Vec Ideal S4x256x1 .f32 × Vec Ideal S4x256x1 .f32 × Vec Ideal S4x256x64 .f32) : EReal × EReal × EReal :=
  (xs.1 (ix3 h r (0 : Fin 1)), xs.2.1 (ix3 h r (0 : Fin 1)), xs.2.2 (ix3 h r d))

/-- One update is one step of the recurrence on the row, on the block's 512 scores and values. -/
theorem rowOf_upd (q : Vec Ideal S4x256x64 .bf16) (kb vb : Vec Ideal S4x512x64 .bf16) (e : Vec Ideal S512x256 .i32)
    (xs : Vec Ideal S4x256x1 .f32 × Vec Ideal S4x256x1 .f32 × Vec Ideal S4x256x64 .f32) (h : Fin 4) (r : Fin 256) (d : Fin 64) :
    rowOf h r d (upd q kb vb e xs)
      = Cert.OnlineSoftmax.step (rowOf h r d xs) (fun j : Fin 512 => k1_pay10 (F := Ideal) q kb e (ix3 h r j))
          (fun j : Fin 512 => vb (ix3 h j d)) :=
  Pay1.step_row q kb vb e xs.1 xs.2.1 xs.2.2 h r d

/-- The initial state's row is (−∞, 0, 0). -/
theorem rowOf_init (h : Fin 4) (r : Fin 256) (d : Fin 64) :
    rowOf h r d (k1_pay6 (F := Ideal), k1_pay7 (F := Ideal), k1_pay8 (F := Ideal)) = (⊥, 0, 0) := by
  show (k1_pay6 (F := Ideal) (ix3 h r (0 : Fin 1)), k1_pay7 (F := Ideal) (ix3 h r (0 : Fin 1)), k1_pay8 (F := Ideal) (ix3 h r d)) = _
  rw [Pay1.init_max, Pay1.init_norm, Pay1.init_acc]

/-- The scores of row (h, r) against the 512 keys the body loads at point `n` (zero past the grid). -/
def sblk (c : Dev nD) (h : Fin 4) (r : Fin 256) (n : ℕ) : Fin 512 → EReal := fun j =>
  if hn : n < cfg1.N then
    k1_pay10 (F := Ideal) (qblk V c ⟨n, hn⟩) (rows (grid1.coords ⟨n, hn⟩) (karr V c ⟨n, hn⟩)) (eblk V c ⟨n, hn⟩) (ix3 h r j)
  else 0
/-- Feature d of head h of the 512 value rows the body loads at point `n` (zero past the grid). -/
def vblk (c : Dev nD) (h : Fin 4) (d : Fin 64) (n : ℕ) : Fin 512 → EReal := fun j =>
  if hn : n < cfg1.N then rows (grid1.coords ⟨n, hn⟩) (varr V c ⟨n, hn⟩) (ix3 h j d) else 0

theorem sblk_at (c : Dev nD) (h : Fin 4) (r : Fin 256) (t : Fin cfg1.N) :
    sblk V c h r t.val = fun j : Fin 512 =>
      k1_pay10 (F := Ideal) (qblk V c t) (rows (grid1.coords t) (karr V c t)) (eblk V c t) (ix3 h r j) :=
  funext fun j => dif_pos t.isLt
theorem vblk_at (c : Dev nD) (h : Fin 4) (d : Fin 64) (t : Fin cfg1.N) :
    vblk V c h d t.val = fun j : Fin 512 => rows (grid1.coords t) (varr V c t) (ix3 h j d) :=
  funext fun j => dif_pos t.isLt

/-- The update at point `t` is one step on the row, on that point's block. -/
theorem rowOf_updAt (c : Dev nD) (t : Fin cfg1.N) (xs : Vec Ideal S4x256x1 .f32 × Vec Ideal S4x256x1 .f32 × Vec Ideal S4x256x64 .f32) (h : Fin 4) (r : Fin 256) (d : Fin 64) :
    rowOf h r d (updAt V c t xs)
      = Cert.OnlineSoftmax.step (rowOf h r d xs) (sblk V c h r t.val) (vblk V c h d t.val) := by
  rw [sblk_at, vblk_at]
  unfold updAt
  exact rowOf_upd _ _ _ _ xs h r d

/-- After point `n`, key block n % 16 of query block n / 16, a row's state is the recurrence run over the key blocks
    0 … n % 16 of that query block. -/
theorem rows_run (c : Dev nD) (h : Fin 4) (r : Fin 256) (d : Fin 64) : ∀ (n : ℕ) (hn : n < cfg1.N),
    rowOf h r d (outsAt1 V c n hn).2
      = Cert.OnlineSoftmax.run (fun j => sblk V c h r (16 * (n / 16) + j)) (fun j => vblk V c h d (16 * (n / 16) + j))
          (n % 16 + 1) :=
  chain_eq_run cfg1.N (fun n hn => rowOf h r d (outsAt1 V c n hn).2) (sblk V c h r) (vblk V c h d)
    (fun n hn h0 => by
      have h1 : ¬n % 16 = 15 := by omega
      refine (congrArg (fun p => rowOf h r d p.2) (outsAt1_A V c ⟨n, hn⟩ h0 h1)).trans ?_
      dsimp only
      rw [sA_eq, rowOf_updAt, rowOf_init])
    (fun n hn h0 => by
      by_cases h1 : (n + 1) % 16 = 15
      · refine (congrArg (fun p => rowOf h r d p.2) (outsAt1_C V c ⟨n + 1, hn⟩ h0 h1)).trans ?_
        dsimp only
        rw [sC_eq, rowOf_updAt]
        rfl
      · refine (congrArg (fun p => rowOf h r d p.2) (outsAt1_B V c ⟨n + 1, hn⟩ h0 h1)).trans ?_
        dsimp only
        rw [sB_eq, rowOf_updAt]
        rfl)

/-- At the last key block of a query block the output block holds, at row (h, r), feature d, the weighted sum over the
    normaliser of the recurrence run over all sixteen key blocks. -/
theorem out_row (c : Dev nD) (t : Fin cfg1.N) (h1 : t.val % 16 = 15) (h : Fin 4) (r : Fin 256) (d : Fin 64) :
    ((dat1 V c).after 4 t : Vec Ideal S4x256x64 .f32) (ix3 h r d)
      = Ideal.div
          (Cert.OnlineSoftmax.run (fun j => sblk V c h r (16 * (t.val / 16) + j)) (fun j => vblk V c h d (16 * (t.val / 16) + j)) 16).2.2
          (Cert.OnlineSoftmax.run (fun j => sblk V c h r (16 * (t.val / 16) + j)) (fun j => vblk V c h d (16 * (t.val / 16) + j)) 16).2.1 := by
  have h0 : ¬t.val % 16 = 0 := by omega
  have hrun := rows_run V c h r d t.val t.isLt
  rw [h1] at hrun
  have hC := outsAt1_C V c t h0 h1
  have e1 : (outsAt1 V c t.val t.isLt).1
      = k1_pay5 (F := Ideal) (outsAt1 V c t.val t.isLt).2.2.2 (outsAt1 V c t.val t.isLt).2.2.1 := by
    rw [hC]
    dsimp only
    rw [oC_eq, sC_eq]
  rw [after1_4, e1, Pay1.final_row, ← hrun]
  rfl

end AtIdeal

/-! ## The result array -/

section Final
variable (V : (c : Dev nD) → (b : Ref sig .tc) → Buf (Elt Ideal) ((c : Thread nD τ).loc b))

/-- The region's four argument arrays as it finds them: queries, keys, values (head-major) and the adjacency. -/
abbrev qArr (c : Dev nD) : S4x8192x64.Idx → EReal := V c main_v9_0
abbrev kArr (c : Dev nD) : S4x8192x64.Idx → EReal := V c main_v9_1
abbrev vArr (c : Dev nD) : S4x8192x64.Idx → EReal := V c main_v9_2
abbrev eArr (c : Dev nD) : S8192x8192.Idx → BitVec 32 := V c main_arg1

/-- The scores of query node `n` of head `h` against the 512 keys of key block `j` (zero past the sixteenth block). -/
def sbG (c : Dev nD) (h : Fin 4) (n : Fin 8192) (j : ℕ) (i : Fin 512) : EReal :=
  if hj : j < 16 then
    (∑ d : Fin 64, qArr V c (ix3 h n d)
        * kArr V c (ix3 h (⟨512 * j + i.val, by have := i.isLt; omega⟩ : Fin 8192) d))
      * Ideal.ofBits .f32 0x3E000000#32
    + ((((eArr V c (ix2 (⟨512 * j + i.val, by have := i.isLt; omega⟩ : Fin 8192) n)).toInt : ℝ) : EReal)
        - Ideal.ofBits .f32 0x3F800000#32) * Ideal.ofBits .f32 0x461C4000#32
  else 0

/-- Feature `d` of head `h` of the 512 values of key block `j` (zero past the sixteenth block). -/
def vbG (c : Dev nD) (h : Fin 4) (d : Fin 64) (j : ℕ) (i : Fin 512) : EReal :=
  if hj : j < 16 then
    vArr V c (ix3 h (⟨512 * j + i.val, by have := i.isLt; omega⟩ : Fin 8192) d)
  else 0

theorem sbG_apply (c : Dev nD) (h : Fin 4) (n : Fin 8192) (j : Fin 16) (i : Fin 512) :
    sbG V c h n j.val i
      = (∑ d : Fin 64, qArr V c (ix3 h n d) * kArr V c (ix3 h (⟨512 * j.val + i.val, by omega⟩ : Fin 8192) d))
          * Ideal.ofBits .f32 0x3E000000#32
        + ((((eArr V c (ix2 (⟨512 * j.val + i.val, by omega⟩ : Fin 8192) n)).toInt : ℝ) : EReal)
            - Ideal.ofBits .f32 0x3F800000#32) * Ideal.ofBits .f32 0x461C4000#32 := by
  unfold sbG
  rw [dif_pos j.isLt]
theorem vbG_apply (c : Dev nD) (h : Fin 4) (d : Fin 64) (j : Fin 16) (i : Fin 512) :
    vbG V c h d j.val i = vArr V c (ix3 h (⟨512 * j.val + i.val, by omega⟩ : Fin 8192) d) := by
  unfold vbG
  rw [dif_pos j.isLt]

/-- Entry (h, n, d) of the result: the weighted sum over the normaliser after all sixteen key blocks. -/
def outG (c : Dev nD) (h : Fin 4) (n : Fin 8192) (d : Fin 64) : EReal :=
  Ideal.div (Cert.OnlineSoftmax.run (sbG V c h n) (vbG V c h d) 16).2.2 (Cert.OnlineSoftmax.run (sbG V c h n) (vbG V c h d) 16).2.1

/-- The result array as one function of its index. -/
def arrG (c : Dev nD) : S4x8192x64.Idx → Elt Ideal .f32 := fun i =>
  outG V c ⟨(i 0).val, (i 0).isLt⟩ ⟨(i 1).val, (i 1).isLt⟩ ⟨(i 2).val, (i 2).isLt⟩

theorem arrG_apply (c : Dev nD) (h : Fin 4) (n : Fin 8192) (d : Fin 64) : arrG V c (ix3 h n d) = outG V c h n d := rfl

/-- The block of scores at point `t`, row `r`, is the scores of node 256·(t / 16) + r against key block t % 16. -/
theorem sblk_eq (c : Dev nD) (h : Fin 4) (r : Fin 256) (t : Fin cfg1.N) (n : Fin 8192) (hn : n.val = 256 * (t.val / 16) + r.val)
    (j : ℕ) (hj : j = t.val % 16) : sblk V c h r t.val = sbG V c h n j := by
  obtain ⟨nv, hlt⟩ := n
  dsimp only at hn
  subst hn
  subst hj
  rw [sblk_at]
  funext i
  have hq : ∀ d : Fin 64, qblk V c t (ix3 h r d) = _ := fun d => Blk1.q_blk V c t h r d
  have hk : ∀ d : Fin 64, rows (grid1.coords t) (karr V c t) (ix3 h i d) = _ := fun d => Blk1.k_rows V c t h i d
  have he : eblk V c t (ix2 i r) = _ := Blk1.e_blk V c t i r
  rw [Pay1.pay10_apply, he]
  simp only [hq, hk]
  unfold sbG
  rw [dif_pos (Nat.mod_lt _ (by decide))]

/-- The block of values at point `t` is key block t % 16 of the value array. -/
theorem vblk_eq (c : Dev nD) (h : Fin 4) (d : Fin 64) (t : Fin cfg1.N) (j : ℕ) (hj : j = t.val % 16) :
    vblk V c h d t.val = vbG V c h d j := by
  subst hj
  rw [vblk_at]
  funext i
  have hv : rows (grid1.coords t) (varr V c t) (ix3 h i d) = _ := Blk1.v_rows V c t h i d
  rw [hv]
  unfold vbG
  rw [dif_pos (Nat.mod_lt _ (by decide))]

/-- Two vectors over the output block's shape that agree at every (h, r, d) are equal. -/
theorem vec_ext {α : Type} (A B : S4x256x64.Idx → α) (hAB : ∀ (h : Fin 4) (r : Fin 256) (d : Fin 64), A (ix3 h r d) = B (ix3 h r d)) :
    A = B :=
  funext fun y => by rw [eq_ix3 y]; exact hAB _ _ _

/-- What a flushing point writes back is its block of the result function. -/
theorem flushed_eq (c : Dev nD) (t : Fin cfg1.N) (hf : (cfg1.win 4).flush t = true) :
    (dat1 V c).flushed 4 t = ((cfg1.win 4).blk t).view.read (Elt Ideal) (arrG V c) := by
  have h15 : t.val % 16 = 15 := (flush1_4 t).mp hf
  have hN := Blk1.lt_N t
  refine vec_ext _ _ fun h r d => ?_
  show ((dat1 V c).after 4 t : Vec Ideal S4x256x64 .f32) (ix3 h r d) = _
  rw [out_row V c t h15 h r d, Blk1.blk_read4, arrG_apply]
  unfold outG
  have hrun : Cert.OnlineSoftmax.run (fun j => sblk V c h r (16 * (t.val / 16) + j)) (fun j => vblk V c h d (16 * (t.val / 16) + j)) 16
      = Cert.OnlineSoftmax.run (sbG V c h ⟨256 * (t.val / 16) + r.val, by omega⟩) (vbG V c h d) 16 := by
    apply Cert.OnlineSoftmax.run_congr
    · intro j hj
      exact sblk_eq V c h r ⟨16 * (t.val / 16) + j, by have hc : cfg1.N = 512 := N_1; omega⟩ _ (by show 256 * (t.val / 16) + r.val = 256 * ((16 * (t.val / 16) + j) / 16) + r.val; omega) j (by show j = (16 * (t.val / 16) + j) % 16; omega)
    · intro j hj
      exact vblk_eq V c h d ⟨16 * (t.val / 16) + j, by have hc : cfg1.N = 512 := N_1; omega⟩ j (by show j = (16 * (t.val / 16) + j) % 16; omega)
  rw [hrun]

/-- THE RESULT ARRAY after the region: entry (h, n, d) is the weighted sum over the normaliser of the blockwise softmax
    recurrence run over the sixteen key blocks, on the scores of node n against each block and the block's values. -/
theorem final1 (c : Dev nD) : (dat1 V c).arrAt 4 cfg1.N = arrG V c :=
  (dat1 V c).arrAt_eq_of_cover 4 (arrG V c) (flushed_eq V c) Blk1.out_cover

theorem final1_apply (c : Dev nD) (h : Fin 4) (n : Fin 8192) (d : Fin 64) :
    ((dat1 V c).arrAt 4 cfg1.N : S4x8192x64.Idx → Elt Ideal .f32) (ix3 h n d)
      = Ideal.div (Cert.OnlineSoftmax.run (sbG V c h n) (vbG V c h d) 16).2.2 (Cert.OnlineSoftmax.run (sbG V c h n) (vbG V c h d) 16).2.1 := by
  rw [final1]
  rfl

end Final

end Cert.KernelIdeal.Val1

end
-- ==== Proof.KernelIdeal.Final.lean ====
/-
  The kernel program's result array is the specification at the argument arrays: the array the attention region
  leaves, row by row the blockwise recurrence over sixteen key blocks, is the softmax-weighted sum once the
  precondition makes every score a real number; the closing transpose and reshape put entry (head, node, feature) at
  (node, 64·head + feature).
-/
import proofs.«150601_j68384469286917_2_alg».proof.Proof.KernelIdeal.Bridge
import proofs.«150601_j68384469286917_2_alg».proof.Proof.KernelIdeal.Region1Value

noncomputable section

namespace Cert.KernelIdeal.Bridge

open Idealize.ShloMosaic Idealize.ShloMosaic.ValueIdx Idealize.SL.Sem Cert.KernelIdeal Cert.KernelIdeal.Gen

/-- Under the precondition the result buffer ends holding the specification. -/
theorem kernel_value (m : (ℓ : Loc nD τ sig) → Buf (Elt Ideal) ℓ) (ρ : Dev nD → PrngReg)
    (hpre : @Cert.Pre_KernelIdeal Cert.Pre_finite_inputs.Gen.facts m) (c : Dev nD) :
    W4 (F := Ideal) m ρ c (Proc.devRef .tc main_v12) = v0 m c :=
  kernel_value_of m ρ hpre c fun h n d =>
    (Cert.KernelIdeal.Val1.final1_apply (T2 (F := Ideal) m ρ) c h n d).trans
      (row_value m ρ hpre c h n d _ _
        (Cert.KernelIdeal.Val1.sbG_apply (T2 (F := Ideal) m ρ) c h n)
        (Cert.KernelIdeal.Val1.vbG_apply (T2 (F := Ideal) m ρ) c h d))

end Cert.KernelIdeal.Bridge

end
-- ==== Proof.RefValue.lean ====
/-
  The reference program's result is the specification function of the argument arrays, index by index, at the exact
  reading of floats (a float an extended real, every operation exact).
-/
import proofs.«150601_j68384469286917_2_alg».proof.Proof.Gen.ReferenceIdeal.Read
import proofs.«150601_j68384469286917_2_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.Attn
open scoped BigOperators

/-! ## The three projections in head-major layout -/

/-- Row-major position of (n, h, d) in [8192, 4, 64] is position (n, 64·h + d) in [8192, 256]. -/
theorem idx_v4_v5 (h : Fin 4) (n : Fin 8192) (d : Fin 64) :
    idx_main_v4 (idx_main_v5 (ix3 h n d)) = ix2 n (col h d) :=
  funext fun a => Fin.ext (by
    have hh := h.isLt; have hn := n.isLt; have hd := d.isLt
    match a with
    | ⟨0, _⟩ => show ((n.val * 4 + h.val) * 64 + d.val) / 256 = n.val; omega
    | ⟨1, _⟩ => show ((n.val * 4 + h.val) * 64 + d.val) % 256 = h.val * 64 + d.val; omega)

theorem lidx_v0 (n : Fin 8192) (c k : Fin 256) : lidx_main_v0 (ix2 n c) k = ix2 n k :=
  funext fun a => by match a with | ⟨0, _⟩ => rfl | ⟨1, _⟩ => rfl
theorem ridx_v0 (n : Fin 8192) (c k : Fin 256) : ridx_main_v0 (ix2 n c) k = ix2 k c :=
  funext fun a => by match a with | ⟨0, _⟩ => rfl | ⟨1, _⟩ => rfl
theorem idx_v1_v2 (n : Fin 8192) (c : Fin 256) : idx_main_v1 (idx_main_v2 (ix2 n c)) = ix1 c :=
  funext fun a => by match a with | ⟨0, _⟩ => rfl

/-- The query projection at head `h`, node `n`, feature `d`. -/
theorem q_apply (x0 : (⟨S8192x256, .f32⟩ : BufTy).Contents (Elt Ideal)) (x2 : (⟨S256x256, .f32⟩ : BufTy).Contents (Elt Ideal))
    (x3 : (⟨S256, .f32⟩ : BufTy).Contents (Elt Ideal)) (h : Fin 4) (n : Fin 8192) (d : Fin 64) :
    val_main_v5 (F := Ideal) x0 x2 x3 (ix3 h n d) = proj x0 x2 x3 h n d := by
  rw [val_main_v5_apply, val_main_v4_apply, idx_v4_v5, val_main_v3_apply, val_main_v0_apply, val_main_v2_apply,
    val_main_v1_apply, idx_v1_v2]
  simp only [lidx_v0, ridx_v0, Ideal.addf_def, proj]

theorem idx_v10_v11 (h : Fin 4) (n : Fin 8192) (d : Fin 64) :
    idx_main_v10 (idx_main_v11 (ix3 h n d)) = ix2 n (col h d) :=
  funext fun a => Fin.ext (by
    have hh := h.isLt; have hn := n.isLt; have hd := d.isLt
    match a with
    | ⟨0, _⟩ => show ((n.val * 4 + h.val) * 64 + d.val) / 256 = n.val; omega
    | ⟨1, _⟩ => show ((n.val * 4 + h.val) * 64 + d.val) % 256 = h.val * 64 + d.val; omega)
theorem lidx_v6 (n : Fin 8192) (c k : Fin 256) : lidx_main_v6 (ix2 n c) k = ix2 n k :=
  funext fun a => by match a with | ⟨0, _⟩ => rfl | ⟨1, _⟩ => rfl
theorem ridx_v6 (n : Fin 8192) (c k : Fin 256) : ridx_main_v6 (ix2 n c) k = ix2 k c :=
  funext fun a => by match a with | ⟨0, _⟩ => rfl | ⟨1, _⟩ => rfl
theorem idx_v7_v8 (n : Fin 8192) (c : Fin 256) : idx_main_v7 (idx_main_v8 (ix2 n c)) = ix1 c :=
  funext fun a => by match a with | ⟨0, _⟩ => rfl

/-- The key projection at head `h`, node `n`, feature `d`. -/
theorem k_apply (x0 : (⟨S8192x256, .f32⟩ : BufTy).Contents (Elt Ideal)) (x4 : (⟨S256x256, .f32⟩ : BufTy).Contents (Elt Ideal))
    (x5 : (⟨S256, .f32⟩ : BufTy).Contents (Elt Ideal)) (h : Fin 4) (n : Fin 8192) (d : Fin 64) :
    val_main_v11 (F := Ideal) x0 x4 x5 (ix3 h n d) = proj x0 x4 x5 h n d := by
  rw [val_main_v11_apply, val_main_v10_apply, idx_v10_v11, val_main_v9_apply, val_main_v6_apply, val_main_v8_apply,
    val_main_v7_apply, idx_v7_v8]
  simp only [lidx_v6, ridx_v6, Ideal.addf_def, proj]

theorem idx_v16_v17 (h : Fin 4) (n : Fin 8192) (d : Fin 64) :
    idx_main_v16 (idx_main_v17 (ix3 h n d)) = ix2 n (col h d) :=
  funext fun a => Fin.ext (by
    have hh := h.isLt; have hn := n.isLt; have hd := d.isLt
    match a with
    | ⟨0, _⟩ => show ((n.val * 4 + h.val) * 64 + d.val) / 256 = n.val; omega
    | ⟨1, _⟩ => show ((n.val * 4 + h.val) * 64 + d.val) % 256 = h.val * 64 + d.val; omega)
theorem lidx_v12 (n : Fin 8192) (c k : Fin 256) : lidx_main_v12 (ix2 n c) k = ix2 n k :=
  funext fun a => by match a with | ⟨0, _⟩ => rfl | ⟨1, _⟩ => rfl
theorem ridx_v12 (n : Fin 8192) (c k : Fin 256) : ridx_main_v12 (ix2 n c) k = ix2 k c :=
  funext fun a => by match a with | ⟨0, _⟩ => rfl | ⟨1, _⟩ => rfl
theorem idx_v13_v14 (n : Fin 8192) (c : Fin 256) : idx_main_v13 (idx_main_v14 (ix2 n c)) = ix1 c :=
  funext fun a => by match a with | ⟨0, _⟩ => rfl

/-- The value projection at head `h`, node `n`, feature `d`. -/
theorem v_apply (x0 : (⟨S8192x256, .f32⟩ : BufTy).Contents (Elt Ideal)) (x6 : (⟨S256x256, .f32⟩ : BufTy).Contents (Elt Ideal))
    (x7 : (⟨S256, .f32⟩ : BufTy).Contents (Elt Ideal)) (h : Fin 4) (n : Fin 8192) (d : Fin 64) :
    val_main_v17 (F := Ideal) x0 x6 x7 (ix3 h n d) = proj x0 x6 x7 h n d := by
  rw [val_main_v17_apply, val_main_v16_apply, idx_v16_v17, val_main_v15_apply, val_main_v12_apply, val_main_v14_apply,
    val_main_v13_apply, idx_v13_v14]
  simp only [lidx_v12, ridx_v12, Ideal.addf_def, proj]

/-! ## The scores -/

/-- The word `8.0` denotes the real 8. -/
theorem ofBits_eight : Ideal.ofBits .f32 0x41000000#32 = ((8 : ℝ) : EReal) := by
  simp [Ideal.ofBits, Ideal.ieee, -EReal.coe_mul]; norm_num
/-- The word `0.125` denotes the real 1/8. -/
theorem ofBits_eighth : Ideal.ofBits .f32 0x3E000000#32 = ((1 / 8 : ℝ) : EReal) := by
  simp [Ideal.ofBits, Ideal.ieee, -EReal.coe_mul]; norm_num
/-- The word of −∞ denotes the bottom element. -/
theorem ofBits_neg_inf : Ideal.ofBits .f32 0xFF800000#32 = ⊥ := by
  simp [Ideal.ofBits, Ideal.ieee]

/-- Dividing by the word 8.0 is multiplying by the word 1/8, on every extended real. -/
theorem div_eight (a : EReal) : Ideal.div a (Ideal.ofBits .f32 0x41000000#32) = a * Ideal.ofBits .f32 0x3E000000#32 := by
  rw [ofBits_eight, ofBits_eighth]
  exact Ideal.div_coe (by norm_num) a

theorem lidx_v24 (h : Fin 4) (n m : Fin 8192) (k : Fin 64) : lidx_main_v24 (ix3 h n m) k = ix3 h n k :=
  funext fun a => by match a with | ⟨0, _⟩ => rfl | ⟨1, _⟩ => rfl | ⟨2, _⟩ => rfl
theorem ridx_v24 (h : Fin 4) (n m : Fin 8192) (k : Fin 64) : ridx_main_v24 (ix3 h n m) k = ix3 h m k :=
  funext fun a => by match a with | ⟨0, _⟩ => rfl | ⟨1, _⟩ => rfl | ⟨2, _⟩ => rfl
theorem idx_v27_v28 (h : Fin 4) (n m : Fin 8192) : idx_main_v27 (idx_main_v28 (ix3 h n m)) = ix2 n m :=
  funext fun a => by match a with | ⟨0, _⟩ => rfl | ⟨1, _⟩ => rfl
theorem idx_v18 (n m : Fin 8192) : idx_main_v18 (ix2 n m) = ix2 m n :=
  funext fun a => by match a with | ⟨0, _⟩ => rfl | ⟨1, _⟩ => rfl

/-- The additive mask at query `n`, key `m`. -/
theorem mask_apply (x1 : (⟨S8192x8192, .i32⟩ : BufTy).Contents (Elt Ideal)) (n m : Fin 8192) :
    val_main_v23 (F := Ideal) x1 (ix2 n m) = mask x1 n m := by
  rw [val_main_v23_apply, val_main_v21_apply, val_main_v19_apply, val_main_v18_apply, idx_v18, val_main_v20_apply,
    val_main_cst_apply, val_main_v22_apply, val_main_cst_0_apply]
  rfl

/-- The score of head `h`, query `n`, key `m`. -/
theorem score_apply (x0 : (⟨S8192x256, .f32⟩ : BufTy).Contents (Elt Ideal)) (x1 : (⟨S8192x8192, .i32⟩ : BufTy).Contents (Elt Ideal))
    (x2 : (⟨S256x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (h : Fin 4) (n m : Fin 8192) :
    val_main_v29 (F := Ideal) x0 x1 x2 x3 x4 x5 (ix3 h n m) = score (proj x0 x2 x3) (proj x0 x4 x5) x1 h n m := by
  rw [val_main_v29_apply, val_main_v26_apply, val_main_v24_apply, val_main_v25_apply, val_main_cst_1_apply,
    val_main_v28_apply, val_main_v27_apply, idx_v27_v28, mask_apply]
  simp only [lidx_v24, ridx_v24, q_apply, k_apply, Ideal.addf_def, Ideal.hostDivf_def, Ideal.ofBits_def, div_eight, score]

/-! ## The row maximum -/

/-- A fold of `max` from the bottom element is the supremum. -/
theorem fold_max_bot_eq_sup {ι : Type} (s : Finset ι) (f : ι → EReal) : s.fold max ⊥ f = s.sup f := by
  classical
  induction s using Finset.induction_on with
  | empty => rw [Finset.fold_empty, Finset.sup_empty]
  | insert a s ha ih => rw [Finset.fold_insert ha, Finset.sup_insert, ih]

/-- The reduced index (h, n) with key `k` put back on the last axis is (h, n, k). -/
theorem lift_ix3 (hr : S4x8192x8192.Reduces [2] S4x8192) (h : Fin 4) (n : Fin 8192) (k : Fin (S4x8192x8192.size 2)) :
    hr.lift (ix2 h n) k = ix3 h n (⟨k.val, k.isLt⟩ : Fin 8192) := by
  funext c; apply Fin.ext
  match c with
  | ⟨0, _⟩ => rfl
  | ⟨1, _⟩ => rfl
  | ⟨2, _⟩ => rfl

/-- The reduce with a maximum body from −∞ over the keys is the supremum of the row. -/
theorem reduce_max_apply (x : FVec Ideal S4x8192x8192 .f32) (h : Fin 4) (n : Fin 8192) :
    Host.reduce (FloatOps.maximumf (F := Ideal) (φ := .f32)) x (val_main_cst_2 (F := Ideal)) reducesTo_S4x8192x8192_S4x8192_d2 h_S_ (ix2 h n)
      = Finset.univ.sup fun m : Fin 8192 => x (ix3 h n m) := by
  have hr : S4x8192x8192.Reduces [2] S4x8192 := by decide
  rw [Host.reduce_eq_fold_single (FloatOps.maximumf (F := Ideal) (φ := .f32)) x _ reducesTo_S4x8192x8192_S4x8192_d2 hr h_S_, val_main_cst_2_apply,
    Ideal.ofBits_def, ofBits_neg_inf]
  have hf : (x ∘ hr.lift (ix2 h n)) = fun m : Fin 8192 => x (ix3 h n m) := funext fun k => congrArg x (lift_ix3 hr h n k)
  rw [hf]
  exact fold_max_bot_eq_sup Finset.univ _

/-- The row maximum of head `h`, query `n`. -/
theorem rowmax_apply (x0 : (⟨S8192x256, .f32⟩ : BufTy).Contents (Elt Ideal)) (x1 : (⟨S8192x8192, .i32⟩ : BufTy).Contents (Elt Ideal))
    (x2 : (⟨S256x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (h : Fin 4) (n : Fin 8192) :
    val_main_v32 (F := Ideal) x0 x1 x2 x3 x4 x5 (ix2 h n)
      = Finset.univ.sup fun m : Fin 8192 => score (proj x0 x2 x3) (proj x0 x4 x5) x1 h n m := by
  rw [val_main_v32_apply, val_main_v31_apply, val_main_cst_3_apply, Ideal.ofBits_def, ofBits_neg_inf, Ideal.maximumf_def,
    max_bot_left]
  unfold val_main_v30
  rw [reduce_max_apply]
  simp only [score_apply]

/-! ## The softmax weights -/

theorem idx_v33_v34 (h : Fin 4) (n m : Fin 8192) : idx_main_v33 (idx_main_v34 (ix3 h n m)) = ix2 h n :=
  funext fun a => by match a with | ⟨0, _⟩ => rfl | ⟨1, _⟩ => rfl
theorem idx_v37 (h : Fin 4) (n k : Fin 8192) : idx_main_v37 (ix2 h n) k = ix3 h n k :=
  funext fun a => by match a with | ⟨0, _⟩ => rfl | ⟨1, _⟩ => rfl | ⟨2, _⟩ => rfl
theorem idx_v38_v39 (h : Fin 4) (n m : Fin 8192) : idx_main_v38 (idx_main_v39 (ix3 h n m)) = ix2 h n :=
  funext fun a => by match a with | ⟨0, _⟩ => rfl | ⟨1, _⟩ => rfl

/-- The exponential of a score less its row's maximum. -/
theorem exp_apply (x0 : (⟨S8192x256, .f32⟩ : BufTy).Contents (Elt Ideal)) (x1 : (⟨S8192x8192, .i32⟩ : BufTy).Contents (Elt Ideal))
    (x2 : (⟨S256x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (h : Fin 4) (n m : Fin 8192) :
    val_main_v36 (F := Ideal) x0 x1 x2 x3 x4 x5 (ix3 h n m)
      = Ideal.exp (score (proj x0 x2 x3) (proj x0 x4 x5) x1 h n m
          - Finset.univ.sup fun m' : Fin 8192 => score (proj x0 x2 x3) (proj x0 x4 x5) x1 h n m') := by
  rw [val_main_v36_apply, val_main_v35_apply, val_main_v34_apply, val_main_v33_apply, idx_v33_v34, rowmax_apply,
    score_apply, Ideal.hostUnary_exp_def, Ideal.subf_def]

/-- The normaliser of head `h`, query `n`: the sum starts from the zero word. -/
theorem norm_apply (x0 : (⟨S8192x256, .f32⟩ : BufTy).Contents (Elt Ideal)) (x1 : (⟨S8192x8192, .i32⟩ : BufTy).Contents (Elt Ideal))
    (x2 : (⟨S256x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (h : Fin 4) (n : Fin 8192) :
    val_main_v37 (F := Ideal) x0 x1 x2 x3 x4 x5 (ix2 h n)
      = ∑ m : Fin 8192, Ideal.exp (score (proj x0 x2 x3) (proj x0 x4 x5) x1 h n m
          - Finset.univ.sup fun m' : Fin 8192 => score (proj x0 x2 x3) (proj x0 x4 x5) x1 h n m') := by
  rw [val_main_v37_apply, val_main_cst_4_apply, Ideal.ofBits_def, Ideal.ofBits_zero_f32, zero_add]
  simp only [idx_v37, exp_apply]

/-- The softmax weight of key `m` for head `h`, query `n`. -/
theorem weight_apply (x0 : (⟨S8192x256, .f32⟩ : BufTy).Contents (Elt Ideal)) (x1 : (⟨S8192x8192, .i32⟩ : BufTy).Contents (Elt Ideal))
    (x2 : (⟨S256x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (h : Fin 4) (n m : Fin 8192) :
    val_main_v40 (F := Ideal) x0 x1 x2 x3 x4 x5 (ix3 h n m)
      = Ideal.div (Ideal.exp (score (proj x0 x2 x3) (proj x0 x4 x5) x1 h n m
            - Finset.univ.sup fun m' : Fin 8192 => score (proj x0 x2 x3) (proj x0 x4 x5) x1 h n m'))
          (∑ m'' : Fin 8192, Ideal.exp (score (proj x0 x2 x3) (proj x0 x4 x5) x1 h n m''
            - Finset.univ.sup fun m' : Fin 8192 => score (proj x0 x2 x3) (proj x0 x4 x5) x1 h n m')) := by
  rw [val_main_v40_apply, val_main_v39_apply, val_main_v38_apply, idx_v38_v39, norm_apply, exp_apply, Ideal.hostDivf_def]

/-! ## The weighted sum of the values, and the result -/

theorem lidx_v41 (h : Fin 4) (n : Fin 8192) (d : Fin 64) (k : Fin 8192) : lidx_main_v41 (ix3 h n d) k = ix3 h n k :=
  funext fun a => by match a with | ⟨0, _⟩ => rfl | ⟨1, _⟩ => rfl | ⟨2, _⟩ => rfl
theorem ridx_v41 (h : Fin 4) (n : Fin 8192) (d : Fin 64) (k : Fin 8192) : ridx_main_v41 (ix3 h n d) k = ix3 h k d :=
  funext fun a => by match a with | ⟨0, _⟩ => rfl | ⟨1, _⟩ => rfl | ⟨2, _⟩ => rfl

/-- The attention output of head `h`, query `n`, feature `d`. -/
theorem attend_apply (x0 : (⟨S8192x256, .f32⟩ : BufTy).Contents (Elt Ideal)) (x1 : (⟨S8192x8192, .i32⟩ : BufTy).Contents (Elt Ideal))
    (x2 : (⟨S256x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal))
    (h : Fin 4) (n : Fin 8192) (d : Fin 64) :
    val_main_v41 (F := Ideal) x0 x1 x2 x3 x4 x5 x6 x7 (ix3 h n d)
      = attend (fun m => score (proj x0 x2 x3) (proj x0 x4 x5) x1 h n m) (fun m => proj x0 x6 x7 h m d) := by
  rw [val_main_v41_apply]
  simp only [lidx_v41, ridx_v41, weight_apply, v_apply, attend]

/-- Position (n, c) of [8192, 256] is row-major position (n, c / 64, c % 64) of [8192, 4, 64], read head-major. -/
theorem idx_v42_v43 (i : S8192x256.Idx) :
    idx_main_v42 (idx_main_v43 i)
      = ix3 (headOf ⟨(i 1).val, idx2_lt1 i⟩) (⟨(i 0).val, idx2_lt0 i⟩ : Fin 8192) (featOf ⟨(i 1).val, idx2_lt1 i⟩) :=
  funext fun a => Fin.ext (by
    have h0 := idx2_lt0 i; have h1 := idx2_lt1 i
    match a with
    | ⟨0, _⟩ => show ((i 0).val * 256 + (i 1).val) / 64 % 4 = (i 1).val / 64; omega
    | ⟨1, _⟩ => show ((i 0).val * 256 + (i 1).val) / 256 = (i 0).val; omega
    | ⟨2, _⟩ => show ((i 0).val * 256 + (i 1).val) % 64 = (i 1).val % 64; omega)

/-- The reference's result array is the specification function of the argument arrays, for all extended-real inputs. -/
theorem result_eq (x0 : (⟨S8192x256, .f32⟩ : BufTy).Contents (Elt Ideal)) (x1 : (⟨S8192x8192, .i32⟩ : BufTy).Contents (Elt Ideal))
    (x2 : (⟨S256x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal)) :
    Cert.ReferenceIdeal.Read.val_main_v43 (F := Ideal) x0 x1 x2 x3 x4 x5 x6 x7 = Cert.Attn.G x0 x1 x2 x3 x4 x5 x6 x7 := by
  funext i
  rw [val_main_v43_apply, val_main_v42_apply, idx_v42_v43, attend_apply]
  rfl

end Cert.ReferenceIdeal.RefValue

end
-- ==== Proof.lean ====
/-
  The certificate of a dense multi-head graph-attention layer: a two-kernel Pallas program — per-head projections
  q, k, v = x·W + b, then a blockwise ("flash") softmax attention with an additive graph mask — against the plain
  jnp computation. On extended reals the two are one function of the arguments (`Cert.Attn.G`, Proof/Spec.lean):
  the kernel keeps, per query row, a running maximum, normaliser and weighted sum over sixteen blocks of 512 keys and
  divides at the end, which equals the softmax-weighted sum over all 8192 keys once every score is a real number
  (Proof/OnlineSoftmax.lean); finite inputs make the scores real. The 1/8 scaling is a multiplication in the kernel
  and a division by 8 in the reference: the same on every extended real.

  The three frames: the two-region program's run is assembled from each region's run (Proof/KernelIdeal/Run.lean,
  and its word-level twin under Proof/Kernel/); the reference is a straight line of host operations.
-/
import proofs.«150601_j68384469286917_2_alg».proof.Defs
import proofs.«150601_j68384469286917_2_alg».proof.Proof.Gen.Kernel
import proofs.«150601_j68384469286917_2_alg».proof.Proof.Gen.KernelIdeal
import proofs.«150601_j68384469286917_2_alg».proof.Proof.Gen.ReferenceIdeal
import proofs.«150601_j68384469286917_2_alg».proof.Proof.Gen.ReferenceIdeal.Run
import proofs.«150601_j68384469286917_2_alg».proof.Proof.Gen.ReferenceIdeal.Read
import proofs.«150601_j68384469286917_2_alg».proof.Proof.Gen.Pre_finite_inputs
import proofs.«150601_j68384469286917_2_alg».proof.Proof.Kernel.Run
import proofs.«150601_j68384469286917_2_alg».proof.Proof.KernelIdeal.Run
import proofs.«150601_j68384469286917_2_alg».proof.Proof.KernelIdeal.Bridge
import proofs.«150601_j68384469286917_2_alg».proof.Proof.KernelIdeal.Final
import proofs.«150601_j68384469286917_2_alg».proof.Proof.RefValue
import proofs.«150601_j68384469286917_2_alg».proof.Proof.Spec
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference has no kernel: its frame is its run with the result dropped. -/
theorem frame_ri : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Value.run (F := Ideal) m ρ)

/-- Both programs end holding the specification at the (shared) argument arrays. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨Cert.KernelIdeal.Bridge.v0 m, ?_, ?_⟩
  · exact (θ_run Cert.KernelIdeal.defs _ _).mono (fun _ h c => ⟨(h c).1.trans (Cert.KernelIdeal.Bridge.kernel_value m ρ hpre c), (h c).2⟩)
      (Cert.KernelIdeal.Gen.run_value (F := Ideal) m ρ)
  · refine (θ_run Cert.ReferenceIdeal.defs _ _).mono (fun _ h c => ⟨(h c).1.trans ?_, (h c).2⟩) (Cert.ReferenceIdeal.Value.run (F := Ideal) m' ρ')
    rw [Cert.ReferenceIdeal.Read.val_main_v43_eq, Cert.ReferenceIdeal.RefValue.result_eq]
    unfold Cert.KernelIdeal.Bridge.v0
    rw [(hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
